-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64x64 : Shape := ⟨4, ![8, 256, 64, 64]⟩
abbrev S8x256x16x16 : Shape := ⟨4, ![8, 256, 16, 16]⟩
abbrev S256x256 : Shape := ⟨2, ![256, 256]⟩
abbrev S256x1 : Shape := ⟨2, ![256, 1]⟩
abbrev S9x512x256 : Shape := ⟨3, ![9, 512, 256]⟩
abbrev S512x1 : Shape := ⟨2, ![512, 1]⟩
abbrev S256x512 : Shape := ⟨2, ![256, 512]⟩
abbrev S_ : Shape := ⟨0, ![]⟩

class Facts : Prop where
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  h_S_ : 0 < S_.numel
  bcast_S_S8x256x16x16 : S_.BroadcastsInDim S8x256x16x16 (![] : Fin 0 → Fin S8x256x16x16.rank)
  reducesTo_S8x256x16x16_S_d0_1_2_3 : S8x256x16x16.ReducesTo [0, 1, 2, 3] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S9x512x256 : S_.BroadcastsInDim S9x512x256 (![] : Fin 0 → Fin S9x512x256.rank)
  reducesTo_S9x512x256_S_d0_1_2 : S9x512x256.ReducesTo [0, 1, 2] S_
  bcast_S_S512x1 : S_.BroadcastsInDim S512x1 (![] : Fin 0 → Fin S512x1.rank)
  reducesTo_S512x1_S_d0_1 : S512x1.ReducesTo [0, 1] S_
  bcast_S_S256x512 : S_.BroadcastsInDim S256x512 (![] : Fin 0 → Fin S256x512.rank)
  reducesTo_S256x512_S_d0_1 : S256x512.ReducesTo [0, 1] S_

variable [Facts]

def fn_part2 {F : FTy → Type} [FloatOps F] (main_arg7 : FVec F S256x1 .f32) (main_arg8 : FVec F S9x512x256 .f32) (main_arg9 : FVec F S512x1 .f32) (main_v33 : IVec S_ 1) : IVec S_ 1 :=
  let main_v34 : FVec F S256x1 .f32 := Host.absf main_arg7
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S9x512x256 .f32 := Host.absf main_arg8
  let main_cst_14 : FVec F S_ .f32 := constant S_ .f32 0x7F800000#32
  let main_v40 : FVec F S9x512x256 .f32 := broadcastInDim S9x512x256 ![] bcast_S_S9x512x256 main_cst_14
  let main_v41 : IVec S9x512x256 1 := cmpf .olt main_v39 main_v40
  let main_c_15 : IVec S_ 1 := constantI S_ 1 1#1
  let main_v42 : IVec S_ 1 := (fun x v => Host.reduce IntOp.andi x v reducesTo_S9x512x256_S_d0_1_2 h_S_) main_v41 main_c_15
  let main_v43 : IVec S_ 1 := andi main_v38 main_v42
  let main_v44 : FVec F S512x1 .f32 := Host.absf main_arg9
  let main_cst_16 : FVec F S_ .f32 := constant S_ .f32 0x7F800000#32
  let main_v45 : FVec F S512x1 .f32 := broadcastInDim S512x1 ![] bcast_S_S512x1 main_cst_16
  let main_v46 : IVec S512x1 1 := cmpf .olt main_v44 main_v45
  let main_c_17 : IVec S_ 1 := constantI S_ 1 1#1
  let main_v47 : IVec S_ 1 := (fun x v => Host.reduce IntOp.andi x v reducesTo_S512x1_S_d0_1 h_S_) main_v46 main_c_17
  let main_v48 : IVec S_ 1 := andi main_v43 main_v47
  main_v48

def fn_part1 {F : FTy → Type} [FloatOps F] (main_arg4 : FVec F S9x512x256 .f32) (main_arg5 : FVec F S512x1 .f32) (main_arg6 : FVec F S256x512 .f32) (main_arg7 : FVec F S256x1 .f32) (main_arg8 : FVec F S9x512x256 .f32) (main_arg9 : FVec F S512x1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S9x512x256 .f32 := Host.absf main_arg4
  let main_cst_6 : FVec F S_ .f32 := constant S_ .f32 0x7F800000#32
  let main_v20 : FVec F S9x512x256 .f32 := broadcastInDim S9x512x256 ![] bcast_S_S9x512x256 main_cst_6
  let main_v21 : IVec S9x512x256 1 := cmpf .olt main_v19 main_v20
  let main_c_7 : IVec S_ 1 := constantI S_ 1 1#1
  let main_v22 : IVec S_ 1 := (fun x v => Host.reduce IntOp.andi x v reducesTo_S9x512x256_S_d0_1_2 h_S_) main_v21 main_c_7
  let main_v23 : IVec S_ 1 := andi main_v18 main_v22
  let main_v24 : FVec F S512x1 .f32 := Host.absf main_arg5
  let main_cst_8 : FVec F S_ .f32 := constant S_ .f32 0x7F800000#32
  let main_v25 : FVec F S512x1 .f32 := broadcastInDim S512x1 ![] bcast_S_S512x1 main_cst_8
  let main_v26 : IVec S512x1 1 := cmpf .olt main_v24 main_v25
  let main_c_9 : IVec S_ 1 := constantI S_ 1 1#1
  let main_v27 : IVec S_ 1 := (fun x v => Host.reduce IntOp.andi x v reducesTo_S512x1_S_d0_1 h_S_) main_v26 main_c_9
  let main_v28 : IVec S_ 1 := andi main_v23 main_v27
  let main_v29 : FVec F S256x512 .f32 := Host.absf main_arg6
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x256x64x64 .f32) (main_arg1 : FVec F S8x256x16x16 .f32) (main_arg2 : FVec F S256x256 .f32) (main_arg3 : FVec F S256x1 .f32) (main_arg4 : FVec F S9x512x256 .f32) (main_arg5 : FVec F S512x1 .f32) (main_arg6 : FVec F S256x512 .f32) (main_arg7 : FVec F S256x1 .f32) (main_arg8 : FVec F S9x512x256 .f32) (main_arg9 : FVec F S512x1 .f32) : IVec S_ 1 :=
  let main_v0 : FVec F S8x256x64x64 .f32 := Host.absf main_arg0
  let main_cst : FVec F S_ .f32 := constant S_ .f32 0x7F800000#32
  let main_v1 : FVec F S8x256x64x64 .f32 := broadcastInDim S8x256x64x64 ![] bcast_S_S8x256x64x64 main_cst
  let main_v2 : IVec S8x256x64x64 1 := cmpf .olt main_v0 main_v1
  let main_c : IVec S_ 1 := constantI S_ 1 1#1
  let main_v3 : IVec S_ 1 := (fun x v => Host.reduce IntOp.andi x v reducesTo_S8x256x64x64_S_d0_1_2_3 h_S_) main_v2 main_c
  let main_v4 : FVec F S8x256x16x16 .f32 := Host.absf main_arg1
  let main_cst_0 : FVec F S_ .f32 := constant S_ .f32 0x7F800000#32
  let main_v5 : FVec F S8x256x16x16 .f32 := broadcastInDim S8x256x16x16 ![] bcast_S_S8x256x16x16 main_cst_0
  let main_v6 : IVec S8x256x16x16 1 := cmpf .olt main_v4 main_v5
  let main_c_1 : IVec S_ 1 := constantI S_ 1 1#1
  let main_v7 : IVec S_ 1 := (fun x v => Host.reduce IntOp.andi x v reducesTo_S8x256x16x16_S_d0_1_2_3 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_arg5 main_arg6 main_arg7 main_arg8 main_arg9 main_v13 main_v16
-- ==== Kernel.lean ====
abbrev S8x256x64x64 : Shape := ⟨4, ![8, 256, 64, 64]⟩
abbrev S8x256x16x16 : Shape := ⟨4, ![8, 256, 16, 16]⟩
abbrev S256x256 : Shape := ⟨2, ![256, 256]⟩
abbrev S256x1 : Shape := ⟨2, ![256, 1]⟩
abbrev S9x512x256 : Shape := ⟨3, ![9, 512, 256]⟩
abbrev S512x1 : Shape := ⟨2, ![512, 1]⟩
abbrev S256x512 : Shape := ⟨2, ![256, 512]⟩
abbrev S_ : Shape := ⟨0, ![]⟩
abbrev S8x256x1x16 : Shape := ⟨4, ![8, 256, 1, 16]⟩
abbrev S8x256x2x16 : Shape := ⟨4, ![8, 256, 2, 16]⟩
abbrev S8x256x18x16 : Shape := ⟨4, ![8, 256, 18, 16]⟩
abbrev S8x256x20x16 : Shape := ⟨4, ![8, 256, 20, 16]⟩
abbrev S8x256x20x1 : Shape := ⟨4, ![8, 256, 20, 1]⟩
abbrev S8x256x20x2 : Shape := ⟨4, ![8, 256, 20, 2]⟩
abbrev S8x256x20x18 : Shape := ⟨4, ![8, 256, 20, 18]⟩
abbrev S8x256x20x20 : Shape := ⟨4, ![8, 256, 20, 20]⟩
abbrev S8x256x400 : Shape := ⟨3, ![8, 256, 400]⟩
abbrev S8x256x4096 : Shape := ⟨3, ![8, 256, 4096]⟩
abbrev S1x256x400 : Shape := ⟨3, ![1, 256, 400]⟩
abbrev S1x256x4096 : Shape := ⟨3, ![1, 256, 4096]⟩
abbrev S256x400 : Shape := ⟨2, ![256, 400]⟩
abbrev S512x358 : Shape := ⟨2, ![512, 358]⟩
abbrev S1x512x256 : Shape := ⟨3, ![1, 512, 256]⟩
abbrev S512x256 : Shape := ⟨2, ![512, 256]⟩
abbrev S256x358 : Shape := ⟨2, ![256, 358]⟩
abbrev S512x316 : Shape := ⟨2, ![512, 316]⟩
abbrev S256x316 : Shape := ⟨2, ![256, 316]⟩
abbrev S1x316 : Shape := ⟨2, ![1, 316]⟩
abbrev S512 : Shape := ⟨1, ![512]⟩
abbrev S256x4096 : Shape := ⟨2, ![256, 4096]⟩
abbrev S256 : Shape := ⟨1, ![256]⟩

abbrev nBuf : Space → Nat
  | .hbm => 32
  | .vmem => 18
  | .smem => 0
  | _ => 0

abbrev bufTy : (tb : Table) → Fin (tcTables nBuf tb) → BufTy
  | .hbm, ⟨0, _⟩ => ⟨S8x256x64x64, .f32⟩
  | .hbm, ⟨1, _⟩ => ⟨S8x256x16x16, .f32⟩
  | .hbm, ⟨2, _⟩ => ⟨S256x256, .f32⟩
  | .hbm, ⟨3, _⟩ => ⟨S256x1, .f32⟩
  | .hbm, ⟨4, _⟩ => ⟨S9x512x256, .f32⟩
  | .hbm, ⟨5, _⟩ => ⟨S512x1, .f32⟩
  | .hbm, ⟨6, _⟩ => ⟨S256x512, .f32⟩
  | .hbm, ⟨7, _⟩ => ⟨S256x1, .f32⟩
  | .hbm, ⟨8, _⟩ => ⟨S9x512x256, .f32⟩
  | .hbm, ⟨9, _⟩ => ⟨S512x1, .f32⟩
  | .hbm, ⟨10, _⟩ => ⟨S_, .i32⟩
  | .hbm, ⟨11, _⟩ => ⟨S8x256x1x16, .f32⟩
  | .hbm, ⟨12, _⟩ => ⟨S8x256x2x16, .f32⟩
  | .hbm, ⟨13, _⟩ => ⟨S8x256x2x16, .f32⟩
  | .hbm, ⟨14, _⟩ => ⟨S8x256x18x16, .f32⟩
  | .hbm, ⟨15, _⟩ => ⟨S8x256x1x16, .f32⟩
  | .hbm, ⟨16, _⟩ => ⟨S8x256x2x16, .f32⟩
  | .hbm, ⟨17, _⟩ => ⟨S8x256x2x16, .f32⟩
  | .hbm, ⟨18, _⟩ => ⟨S8x256x20x16, .f32⟩
  | .hbm, ⟨19, _⟩ => ⟨S8x256x20x1, .f32⟩
  | .hbm, ⟨20, _⟩ => ⟨S8x256x20x2, .f32⟩
  | .hbm, ⟨21, _⟩ => ⟨S8x256x20x2, .f32⟩
  | .hbm, ⟨22, _⟩ => ⟨S8x256x20x18, .f32⟩
  | .hbm, ⟨23, _⟩ => ⟨S8x256x20x1, .f32⟩
  | .hbm, ⟨24, _⟩ => ⟨S8x256x20x2, .f32⟩
  | .hbm, ⟨25, _⟩ => ⟨S8x256x20x2, .f32⟩
  | .hbm, ⟨26, _⟩ => ⟨S8x256x20x20, .f32⟩
  | .hbm, ⟨27, _⟩ => ⟨S8x256x400, .f32⟩
  | .hbm, ⟨28, _⟩ => ⟨S8x256x400, .bf16⟩
  | .hbm, ⟨29, _⟩ => ⟨S8x256x4096, .f32⟩
  | .hbm, ⟨30, _⟩ => ⟨S8x256x4096, .f32⟩
  | .hbm, ⟨31, _⟩ => ⟨S8x256x64x64, .f32⟩
  | .local _ .vmem, ⟨0, _⟩ => ⟨S1x256x400, .bf16⟩
  | .local _ .vmem, ⟨1, _⟩ => ⟨S1x256x400, .bf16⟩
  | .local _ .vmem, ⟨2, _⟩ => ⟨S1x256x4096, .f32⟩
  | .local _ .vmem, ⟨3, _⟩ => ⟨S1x256x4096, .f32⟩
  | .local _ .vmem, ⟨4, _⟩ => ⟨S256x256, .f32⟩
  | .local _ .vmem, ⟨5, _⟩ => ⟨S256x1, .f32⟩
  | .local _ .vmem, ⟨6, _⟩ => ⟨S9x512x256, .f32⟩
  | .local _ .vmem, ⟨7, _⟩ => ⟨S512x1, .f32⟩
  | .local _ .vmem, ⟨8, _⟩ => ⟨S256x512, .f32⟩
  | .local _ .vmem, ⟨9, _⟩ => ⟨S256x1, .f32⟩
  | .local _ .vmem, ⟨10, _⟩ => ⟨S9x512x256, .f32⟩
  | .local _ .vmem, ⟨11, _⟩ => ⟨S512x1, .f32⟩
  | .local _ .vmem, ⟨12, _⟩ => ⟨S1x256x4096, .f32⟩
  | .local _ .vmem, ⟨13, _⟩ => ⟨S1x256x4096, .f32⟩
  | .local _ .vmem, ⟨14, _⟩ => ⟨S256x256, .bf16⟩
  | .local _ .vmem, ⟨15, _⟩ => ⟨S9x512x256, .bf16⟩
  | .local _ .vmem, ⟨16, _⟩ => ⟨S256x512, .bf16⟩
  | .local _ .vmem, ⟨17, _⟩ => ⟨S9x512x256, .bf16⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x400 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S9x512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x256x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S8x256x16x16_S8x256x1x16_0_0_0_0 : S8x256x16x16.Slices ![0, 0, 0, 0] S8x256x1x16
  slices_S8x256x16x16_S8x256x2x16_0_0_1_0 : S8x256x16x16.Slices ![0, 0, 1, 0] S8x256x2x16
  concatenates_S8x256x2x16_S8x256x16x16_S8x256x18x16_d2 : Shape.Concatenates [S8x256x2x16, S8x256x16x16] S8x256x18x16 2
  slices_S8x256x18x16_S8x256x1x16_0_0_17_0 : S8x256x18x16.Slices ![0, 0, 17, 0] S8x256x1x16
  slices_S8x256x18x16_S8x256x2x16_0_0_15_0 : S8x256x18x16.Slices ![0, 0, 15, 0] S8x256x2x16
  concatenates_S8x256x18x16_S8x256x2x16_S8x256x20x16_d2 : Shape.Concatenates [S8x256x18x16, S8x256x2x16] S8x256x20x16 2
  slices_S8x256x20x16_S8x256x20x1_0_0_0_0 : S8x256x20x16.Slices ![0, 0, 0, 0] S8x256x20x1
  slices_S8x256x20x16_S8x256x20x2_0_0_0_1 : S8x256x20x16.Slices ![0, 0, 0, 1] S8x256x20x2
  concatenates_S8x256x20x2_S8x256x20x16_S8x256x20x18_d3 : Shape.Concatenates [S8x256x20x2, S8x256x20x16] S8x256x20x18 3
  slices_S8x256x20x18_S8x256x20x1_0_0_0_17 : S8x256x20x18.Slices ![0, 0, 0, 17] S8x256x20x1
  slices_S8x256x20x18_S8x256x20x2_0_0_0_15 : S8x256x20x18.Slices ![0, 0, 0, 15] S8x256x20x2
  concatenates_S8x256x20x18_S8x256x20x2_S8x256x20x20_d3 : Shape.Concatenates [S8x256x20x18, S8x256x20x2] S8x256x20x20 3
  shapeCasts_S8x256x20x20_S8x256x400 : S8x256x20x20.ShapeCasts S8x256x400
  bitsLt_bf16_f32 : FTy.bits .bf16 < FTy.bits .f32
  shapeCasts_S8x256x64x64_S8x256x4096 : S8x256x64x64.ShapeCasts S8x256x4096
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S256x256_S256x256_0_0 : (Rect.unit (s := S256x256) ![0, 0] S256x256.size inb_S256x256_S256x256_0_0).PackedRows (EltTy.packing .bf16)
  inb_S9x512x256_S9x512x256_0_0_0 : ∀ a, (![0, 0, 0] : Fin 3 → Nat) a + S9x512x256.size a ≤ S9x512x256.size a
  h_S9x512x256 : 0 < S9x512x256.numel
  shapeCasts_S9x512x256_S9x512x256 : S9x512x256.ShapeCasts S9x512x256
  packedbf16_S9x512x256_S9x512x256_0_0_0 : (Rect.unit (s := S9x512x256) ![0, 0, 0] S9x512x256.size inb_S9x512x256_S9x512x256_0_0_0).PackedRows (EltTy.packing .bf16)
  inb_S256x512_S256x512_0_0 : ∀ a, (![0, 0] : Fin 2 → Nat) a + S256x512.size a ≤ S256x512.size a
  h_S256x512 : 0 < S256x512.numel
  shapeCasts_S256x512_S256x512 : S256x512.ShapeCasts S256x512
  packedbf16_S256x512_S256x512_0_0 : (Rect.unit (s := S256x512) ![0, 0] S256x512.size inb_S256x512_S256x512_0_0).PackedRows (EltTy.packing .bf16)
  inb_S1x256x400_S1x256x400_0_0_0 : ∀ a, (![0, 0, 0] : Fin 3 → Nat) a + S1x256x400.size a ≤ S1x256x400.size a
  h_S1x256x400 : 0 < S1x256x400.numel
  shapeCasts_S1x256x400_S256x400 : S1x256x400.ShapeCasts S256x400
  inb_S256x1_S256x1_0_0 : ∀ a, (![0, 0] : Fin 2 → Nat) a + S256x1.size a ≤ S256x1.size a
  h_S256x1 : 0 < S256x1.numel
  broadcasts_S256x1_S256x400 : S256x1.Broadcasts S256x400
  inb_S9x512x256_S1x512x256_0_0_0 : ∀ a, (![0, 0, 0] : Fin 3 → Nat) a + S1x512x256.size a ≤ S9x512x256.size a
  h_S1x512x256 : 0 < S1x512x256.numel
  shapeCasts_S1x512x256_S512x256 : S1x512x256.ShapeCasts S512x256
  slices_S256x400_o0_0_S256x358 : S256x400.Slices ![0, 0] S256x358
  inb_S9x512x256_S1x512x256_1_0_0 : ∀ a, (![1, 0, 0] : Fin 3 → Nat) a + S1x512x256.size a ≤ S9x512x256.size a
  slices_S256x400_o0_1_S256x358 : S256x400.Slices ![0, 1] S256x358
  inb_S9x512x256_S1x512x256_2_0_0 : ∀ a, (![2, 0, 0] : Fin 3 → Nat) a + S1x512x256.size a ≤ S9x512x256.size a
  slices_S256x400_o0_2_S256x358 : S256x400.Slices ![0, 2] S256x358
  inb_S9x512x256_S1x512x256_3_0_0 : ∀ a, (![3, 0, 0] : Fin 3 → Nat) a + S1x512x256.size a ≤ S9x512x256.size a
  slices_S256x400_o0_20_S256x358 : S256x400.Slices ![0, 20] S256x358
  inb_S9x512x256_S1x512x256_4_0_0 : ∀ a, (![4, 0, 0] : Fin 3 → Nat) a + S1x512x256.size a ≤ S9x512x256.size a
  slices_S256x400_o0_21_S256x358 : S256x400.Slices ![0, 21] S256x358
  inb_S9x512x256_S1x512x256_5_0_0 : ∀ a, (![5, 0, 0] : Fin 3 → Nat) a + S1x512x256.size a ≤ S9x512x256.size a
  slices_S256x400_o0_22_S256x358 : S256x400.Slices ![0, 22] S256x358
  inb_S9x512x256_S1x512x256_6_0_0 : ∀ a, (![6, 0, 0] : Fin 3 → Nat) a + S1x512x256.size a ≤ S9x512x256.size a
  slices_S256x400_o0_40_S256x358 : S256x400.Slices ![0, 40] S256x358
  inb_S9x512x256_S1x512x256_7_0_0 : ∀ a, (![7, 0, 0] : Fin 3 → Nat) a + S1x512x256.size a ≤ S9x512x256.size a
  slices_S256x400_o0_41_S256x358 : S256x400.Slices ![0, 41] S256x358
  inb_S9x512x256_S1x512x256_8_0_0 : ∀ a, (![8, 0, 0] : Fin 3 → Nat) a + S1x512x256.size a ≤ S9x512x256.size a
  slices_S256x400_o0_42_S256x358 : S256x400.Slices ![0, 42] S256x358
  inb_S512x1_S512x1_0_0 : ∀ a, (![0, 0] : Fin 2 → Nat) a + S512x1.size a ≤ S512x1.size a
  h_S512x1 : 0 < S512x1.numel
  broadcasts_S512x1_S512x358 : S512x1.Broadcasts S512x358
  broadcasts_S256x1_S256x358 : S256x1.Broadcasts S256x358
  slices_S256x358_o0_0_S256x316 : S256x358.Slices ![0, 0] S256x316
  slices_S256x358_o0_1_S256x316 : S256x358.Slices ![0, 1] S256x316
  slices_S256x358_o0_2_S256x316 : S256x358.Slices ![0, 2] S256x316
  slices_S256x358_o0_20_S256x316 : S256x358.Slices ![0, 20] S256x316
  slices_S256x358_o0_21_S256x316 : S256x358.Slices ![0, 21] S256x316
  slices_S256x358_o0_22_S256x316 : S256x358.Slices ![0, 22] S256x316
  slices_S256x358_o0_40_S256x316 : S256x358.Slices ![0, 40] S256x316
  slices_S256x358_o0_41_S256x316 : S256x358.Slices ![0, 41] S256x316
  slices_S256x358_o0_42_S256x316 : S256x358.Slices ![0, 42] S256x316
  broadcasts_S512x1_S512x316 : S512x1.Broadcasts S512x316
  iota_S1x316_d1_w32 : S1x316.Iotas .tc 32 [1]
  natLt_1_32 : 1 < 32
  broadcasts_S1x316_S512x316 : S1x316.Broadcasts S512x316
  reduces_S512x316_S512 : S512x316.Reduces [1] S512
  shapeCasts_S512_S512x1 : S512.ShapeCasts S512x1
  slices_S512x1_o0_0_S256x1 : S512x1.Slices ![0, 0] S256x1
  slices_S512x1_o256_0_S256x1 : S512x1.Slices ![256, 0] S256x1
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S256 : S256x4096.Reduces [1] S256
  shapeCasts_S256_S256x1 : S256.ShapeCasts S256x1
  broadcasts_S256x1_S256x4096 : S256x1.Broadcasts S256x4096
  shapeCasts_S256x4096_S1x256x4096 : S256x4096.ShapeCasts S1x256x4096
  shapeCasts_S8x256x4096_S8x256x64x64 : S8x256x4096.ShapeCasts S8x256x64x64
  dot_S256x256_S256x400_S256x400_1_0_0_1_n_n_wf : DotDims.WF S256x256 S256x400 S256x400 [1] [0] [0] [1] [] []
  dot_S512x256_S256x358_S512x358_1_0_0_1_n_n_wf : DotDims.WF S512x256 S256x358 S512x358 [1] [0] [0] [1] [] []
  dot_S256x512_S512x358_S256x358_1_0_0_1_n_n_wf : DotDims.WF S256x512 S512x358 S256x358 [1] [0] [0] [1] [] []
  dot_S512x256_S256x316_S512x316_1_0_0_1_n_n_wf : DotDims.WF S512x256 S256x316 S512x316 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x400.size a ≤ S8x256x400.size a
  hwx0_0 : ∀ i : grid0.Coords, EltTy.bits .bf16 = 32 ∨ (Rect.block (s := S8x256x400) S1x256x400.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4096.size a ≤ S8x256x4096.size a
  hwx0_1 : ∀ i : grid0.Coords, EltTy.bits .f32 = 32 ∨ (Rect.block (s := S8x256x4096) S1x256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S9x512x256.size a ≤ S9x512x256.size a
  hwx0_4 : ∀ i : grid0.Coords, EltTy.bits .f32 = 32 ∨ (Rect.block (s := S9x512x256) S9x512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S512x1.size a
  hwx0_5 : ∀ i : grid0.Coords, EltTy.bits .f32 = 32 ∨ (Rect.block (s := S512x1) S512x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S256x512.size a
  hwx0_6 : ∀ i : grid0.Coords, EltTy.bits .f32 = 32 ∨ (Rect.block (s := S256x512) S256x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S256x1.size a
  hwx0_7 : ∀ i : grid0.Coords, EltTy.bits .f32 = 32 ∨ (Rect.block (s := S256x1) S256x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S9x512x256.size a ≤ S9x512x256.size a
  hwx0_8 : ∀ i : grid0.Coords, EltTy.bits .f32 = 32 ∨ (Rect.block (s := S9x512x256) S9x512x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S512x1.size a
  hwx0_9 : ∀ i : grid0.Coords, EltTy.bits .f32 = 32 ∨ (Rect.block (s := S512x1) S512x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x4096.size a ≤ S8x256x4096.size a
  hwx0_10 : ∀ i : grid0.Coords, EltTy.bits .f32 = 32 ∨ (Rect.block (s := S8x256x4096) S1x256x4096.size (cc0_transform_10 i) (hinb0_10 i)).WholeWords (EltTy.packing .f32)

variable [Facts₀]

def dot_S256x256_S256x400_S256x400_1_0_0_1_n_n : DotDims S256x256 S256x400 S256x400 where
  lhsContracting := [1]
  rhsContracting := [0]
  lhsNonContracting := [0]
  rhsNonContracting := [1]
  lhsBatch := []
  rhsBatch := []
  wf := dot_S256x256_S256x400_S256x400_1_0_0_1_n_n_wf
def dot_S512x256_S256x358_S512x358_1_0_0_1_n_n : DotDims S512x256 S256x358 S512x358 where
  lhsContracting := [1]
  rhsContracting := [0]
  lhsNonContracting := [0]
  rhsNonContracting := [1]
  lhsBatch := []
  rhsBatch := []
  wf := dot_S512x256_S256x358_S512x358_1_0_0_1_n_n_wf
def dot_S256x512_S512x358_S256x358_1_0_0_1_n_n : DotDims S256x512 S512x358 S256x358 where
  lhsContracting := [1]
  rhsContracting := [0]
  lhsNonContracting := [0]
  rhsNonContracting := [1]
  lhsBatch := []
  rhsBatch := []
  wf := dot_S256x512_S512x358_S256x358_1_0_0_1_n_n_wf
def dot_S512x256_S256x316_S512x316_1_0_0_1_n_n : DotDims S512x256 S256x316 S512x316 where
  lhsContracting := [1]
  rhsContracting := [0]
  lhsNonContracting := [0]
  rhsNonContracting := [1]
  lhsBatch := []
  rhsBatch := []
  wf := dot_S512x256_S256x316_S512x316_1_0_0_1_n_n_wf

abbrev win0_0 : Pipeline.Window sig grid0 :=
  Pipeline.Window.ofSpec (Memref.whole main_v2) S1x256x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S9x512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S9x512x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x256x4096.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8x256x64x64 : Shape := ⟨4, ![8, 256, 64, 64]⟩
abbrev S8x256x16x16 : Shape := ⟨4, ![8, 256, 16, 16]⟩
abbrev S256x256 : Shape := ⟨2, ![256, 256]⟩
abbrev S256x1 : Shape := ⟨2, ![256, 1]⟩
abbrev S9x512x256 : Shape := ⟨3, ![9, 512, 256]⟩
abbrev S512x1 : Shape := ⟨2, ![512, 1]⟩
abbrev S256x512 : Shape := ⟨2, ![256, 512]⟩
abbrev S316 : Shape := ⟨1, ![316]⟩
abbrev S_ : Shape := ⟨0, ![]⟩
abbrev S8x256x1x16 : Shape := ⟨4, ![8, 256, 1, 16]⟩
abbrev S8x256x2x16 : Shape := ⟨4, ![8, 256, 2, 16]⟩
abbrev S8x256x18x16 : Shape := ⟨4, ![8, 256, 18, 16]⟩
abbrev S8x256x20x16 : Shape := ⟨4, ![8, 256, 20, 16]⟩
abbrev S8x256x20x1 : Shape := ⟨4, ![8, 256, 20, 1]⟩
abbrev S8x256x20x2 : Shape := ⟨4, ![8, 256, 20, 2]⟩
abbrev S8x256x20x18 : Shape := ⟨4, ![8, 256, 20, 18]⟩
abbrev S8x256x20x20 : Shape := ⟨4, ![8, 256, 20, 20]⟩
abbrev S8x256x400 : Shape := ⟨3, ![8, 256, 400]⟩
abbrev S1x316 : Shape := ⟨2, ![1, 316]⟩
abbrev S8x256x1 : Shape := ⟨3, ![8, 256, 1]⟩
abbrev S1x256x400 : Shape := ⟨3, ![1, 256, 400]⟩
abbrev S1x256x1 : Shape := ⟨3, ![1, 256, 1]⟩
abbrev S256x400 : Shape := ⟨2, ![256, 400]⟩
abbrev S256x358 : Shape := ⟨2, ![256, 358]⟩
abbrev S512x358 : Shape := ⟨2, ![512, 358]⟩
abbrev S1x512x256 : Shape := ⟨3, ![1, 512, 256]⟩
abbrev S512x256 : Shape := ⟨2, ![512, 256]⟩
abbrev S512x316 : Shape := ⟨2, ![512, 316]⟩
abbrev S256x316 : Shape := ⟨2, ![256, 316]⟩
abbrev S512 : Shape := ⟨1, ![512]⟩
abbrev S8x256x4096 : Shape := ⟨3, ![8, 256, 4096]⟩
abbrev S1x256x4096 : Shape := ⟨3, ![1, 256, 4096]⟩
abbrev S256x4096 : Shape := ⟨2, ![256, 4096]⟩
abbrev S256 : Shape := ⟨1, ![256]⟩

abbrev nBuf : Space → Nat
  | .hbm => 35
  | .vmem => 25
  | .smem => 0
  | _ => 0

abbrev bufTy : (tb : Table) → Fin (tcTables nBuf tb) → BufTy
  | .hbm, ⟨0, _⟩ => ⟨S8x256x64x64, .f32⟩
  | .hbm, ⟨1, _⟩ => ⟨S8x256x16x16, .f32⟩
  | .hbm, ⟨2, _⟩ => ⟨S256x256, .f32⟩
  | .hbm, ⟨3, _⟩ => ⟨S256x1, .f32⟩
  | .hbm, ⟨4, _⟩ => ⟨S9x512x256, .f32⟩
  | .hbm, ⟨5, _⟩ => ⟨S512x1, .f32⟩
  | .hbm, ⟨6, _⟩ => ⟨S256x512, .f32⟩
  | .hbm, ⟨7, _⟩ => ⟨S256x1, .f32⟩
  | .hbm, ⟨8, _⟩ => ⟨S9x512x256, .f32⟩
  | .hbm, ⟨9, _⟩ => ⟨S512x1, .f32⟩
  | .hbm, ⟨10, _⟩ => ⟨S316, .f32⟩
  | .hbm, ⟨11, _⟩ => ⟨S_, .i32⟩
  | .hbm, ⟨12, _⟩ => ⟨S8x256x1x16, .f32⟩
  | .hbm, ⟨13, _⟩ => ⟨S8x256x2x16, .f32⟩
  | .hbm, ⟨14, _⟩ => ⟨S8x256x2x16, .f32⟩
  | .hbm, ⟨15, _⟩ => ⟨S8x256x18x16, .f32⟩
  | .hbm, ⟨16, _⟩ => ⟨S8x256x1x16, .f32⟩
  | .hbm, ⟨17, _⟩ => ⟨S8x256x2x16, .f32⟩
  | .hbm, ⟨18, _⟩ => ⟨S8x256x2x16, .f32⟩
  | .hbm, ⟨19, _⟩ => ⟨S8x256x20x16, .f32⟩
  | .hbm, ⟨20, _⟩ => ⟨S8x256x20x1, .f32⟩
  | .hbm, ⟨21, _⟩ => ⟨S8x256x20x2, .f32⟩
  | .hbm, ⟨22, _⟩ => ⟨S8x256x20x2, .f32⟩
  | .hbm, ⟨23, _⟩ => ⟨S8x256x20x18, .f32⟩
  | .hbm, ⟨24, _⟩ => ⟨S8x256x20x1, .f32⟩
  | .hbm, ⟨25, _⟩ => ⟨S8x256x20x2, .f32⟩
  | .hbm, ⟨26, _⟩ => ⟨S8x256x20x2, .f32⟩
  | .hbm, ⟨27, _⟩ => ⟨S8x256x20x20, .f32⟩
  | .hbm, ⟨28, _⟩ => ⟨S8x256x400, .f32⟩
  | .hbm, ⟨29, _⟩ => ⟨S1x316, .f32⟩
  | .hbm, ⟨30, _⟩ => ⟨S8x256x1, .f32⟩
  | .hbm, ⟨31, _⟩ => ⟨S8x256x1, .f32⟩
  | .hbm, ⟨32, _⟩ => ⟨S8x256x4096, .f32⟩
  | .hbm, ⟨33, _⟩ => ⟨S8x256x4096, .f32⟩
  | .hbm, ⟨34, _⟩ => ⟨S8x256x64x64, .f32⟩
  | .local _ .vmem, ⟨0, _⟩ => ⟨S1x256x400, .f32⟩
  | .local _ .vmem, ⟨1, _⟩ => ⟨S1x256x400, .f32⟩
  | .local _ .vmem, ⟨2, _⟩ => ⟨S1x316, .f32⟩
  | .local _ .vmem, ⟨3, _⟩ => ⟨S256x256, .f32⟩
  | .local _ .vmem, ⟨4, _⟩ => ⟨S256x1, .f32⟩
  | .local _ .vmem, ⟨5, _⟩ => ⟨S9x512x256, .f32⟩
  | .local _ .vmem, ⟨6, _⟩ => ⟨S512x1, .f32⟩
  | .local _ .vmem, ⟨7, _⟩ => ⟨S256x512, .f32⟩
  | .local _ .vmem, ⟨8, _⟩ => ⟨S256x1, .f32⟩
  | .local _ .vmem, ⟨9, _⟩ => ⟨S9x512x256, .f32⟩
  | .local _ .vmem, ⟨10, _⟩ => ⟨S512x1, .f32⟩
  | .local _ .vmem, ⟨11, _⟩ => ⟨S1x256x1, .f32⟩
  | .local _ .vmem, ⟨12, _⟩ => ⟨S1x256x1, .f32⟩
  | .local _ .vmem, ⟨13, _⟩ => ⟨S1x256x1, .f32⟩
  | .local _ .vmem, ⟨14, _⟩ => ⟨S1x256x1, .f32⟩
  | .local _ .vmem, ⟨15, _⟩ => ⟨S256x400, .f32⟩
  | .local _ .vmem, ⟨16, _⟩ => ⟨S256x358, .f32⟩
  | .local _ .vmem, ⟨17, _⟩ => ⟨S1x256x4096, .f32⟩
  | .local _ .vmem, ⟨18, _⟩ => ⟨S1x256x4096, .f32⟩
  | .local _ .vmem, ⟨19, _⟩ => ⟨S1x256x1, .f32⟩
  | .local _ .vmem, ⟨20, _⟩ => ⟨S1x256x1, .f32⟩
  | .local _ .vmem, ⟨21, _⟩ => ⟨S1x256x1, .f32⟩
  | .local _ .vmem, ⟨22, _⟩ => ⟨S1x256x1, .f32⟩
  | .local _ .vmem, ⟨23, _⟩ => ⟨S1x256x4096, .f32⟩
  | .local _ .vmem, ⟨24, _⟩ => ⟨S1x256x4096, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3_0 : Ref sig .tc := ⟨.hbm, 30, rfl⟩
abbrev main_v3_1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x316 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S9x512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S8x256x16x16_S8x256x1x16_0_0_0_0 : S8x256x16x16.Slices ![0, 0, 0, 0] S8x256x1x16
  slices_S8x256x16x16_S8x256x2x16_0_0_1_0 : S8x256x16x16.Slices ![0, 0, 1, 0] S8x256x2x16
  concatenates_S8x256x2x16_S8x256x16x16_S8x256x18x16_d2 : Shape.Concatenates [S8x256x2x16, S8x256x16x16] S8x256x18x16 2
  slices_S8x256x18x16_S8x256x1x16_0_0_17_0 : S8x256x18x16.Slices ![0, 0, 17, 0] S8x256x1x16
  slices_S8x256x18x16_S8x256x2x16_0_0_15_0 : S8x256x18x16.Slices ![0, 0, 15, 0] S8x256x2x16
  concatenates_S8x256x18x16_S8x256x2x16_S8x256x20x16_d2 : Shape.Concatenates [S8x256x18x16, S8x256x2x16] S8x256x20x16 2
  slices_S8x256x20x16_S8x256x20x1_0_0_0_0 : S8x256x20x16.Slices ![0, 0, 0, 0] S8x256x20x1
  slices_S8x256x20x16_S8x256x20x2_0_0_0_1 : S8x256x20x16.Slices ![0, 0, 0, 1] S8x256x20x2
  concatenates_S8x256x20x2_S8x256x20x16_S8x256x20x18_d3 : Shape.Concatenates [S8x256x20x2, S8x256x20x16] S8x256x20x18 3
  slices_S8x256x20x18_S8x256x20x1_0_0_0_17 : S8x256x20x18.Slices ![0, 0, 0, 17] S8x256x20x1
  slices_S8x256x20x18_S8x256x20x2_0_0_0_15 : S8x256x20x18.Slices ![0, 0, 0, 15] S8x256x20x2
  concatenates_S8x256x20x18_S8x256x20x2_S8x256x20x20_d3 : Shape.Concatenates [S8x256x20x18, S8x256x20x2] S8x256x20x20 3
  shapeCasts_S8x256x20x20_S8x256x400 : S8x256x20x20.ShapeCasts S8x256x400
  shapeCasts_S316_S1x316 : S316.ShapeCasts S1x316
  inb_S1x256x400_S1x256x400_0_0_0 : ∀ a, (![0, 0, 0] : Fin 3 → Nat) a + S1x256x400.size a ≤ S1x256x400.size a
  h_S1x256x400 : 0 < S1x256x400.numel
  shapeCasts_S1x256x400_S256x400 : S1x256x400.ShapeCasts S256x400
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  broadcasts_S256x1_S256x400 : S256x1.Broadcasts S256x400
  inb_S256x400_S256x400_0_0 : ∀ a, (![0, 0] : Fin 2 → Nat) a + S256x400.size a ≤ S256x400.size a
  h_S256x400 : 0 < S256x400.numel
  shapeCasts_S256x400_S256x400 : S256x400.ShapeCasts S256x400
  inb_S9x512x256_S1x512x256_0_0_0 : ∀ a, (![0, 0, 0] : Fin 3 → Nat) a + S1x512x256.size a ≤ S9x512x256.size a
  h_S1x512x256 : 0 < S1x512x256.numel
  shapeCasts_S1x512x256_S512x256 : S1x512x256.ShapeCasts S512x256
  inb_S256x400_S256x358_0_0 : ∀ a, (![0, 0] : Fin 2 → Nat) a + S256x358.size a ≤ S256x400.size a
  h_S256x358 : 0 < S256x358.numel
  inb_S9x512x256_S1x512x256_1_0_0 : ∀ a, (![1, 0, 0] : Fin 3 → Nat) a + S1x512x256.size a ≤ S9x512x256.size a
  inb_S256x400_S256x358_0_1 : ∀ a, (![0, 1] : Fin 2 → Nat) a + S256x358.size a ≤ S256x400.size a
  inb_S9x512x256_S1x512x256_2_0_0 : ∀ a, (![2, 0, 0] : Fin 3 → Nat) a + S1x512x256.size a ≤ S9x512x256.size a
  inb_S256x400_S256x358_0_2 : ∀ a, (![0, 2] : Fin 2 → Nat) a + S256x358.size a ≤ S256x400.size a
  inb_S9x512x256_S1x512x256_3_0_0 : ∀ a, (![3, 0, 0] : Fin 3 → Nat) a + S1x512x256.size a ≤ S9x512x256.size a
  inb_S256x400_S256x358_0_20 : ∀ a, (![0, 20] : Fin 2 → Nat) a + S256x358.size a ≤ S256x400.size a
  inb_S9x512x256_S1x512x256_4_0_0 : ∀ a, (![4, 0, 0] : Fin 3 → Nat) a + S1x512x256.size a ≤ S9x512x256.size a
  inb_S256x400_S256x358_0_21 : ∀ a, (![0, 21] : Fin 2 → Nat) a + S256x358.size a ≤ S256x400.size a
  inb_S9x512x256_S1x512x256_5_0_0 : ∀ a, (![5, 0, 0] : Fin 3 → Nat) a + S1x512x256.size a ≤ S9x512x256.size a
  inb_S256x400_S256x358_0_22 : ∀ a, (![0, 22] : Fin 2 → Nat) a + S256x358.size a ≤ S256x400.size a
  inb_S9x512x256_S1x512x256_6_0_0 : ∀ a, (![6, 0, 0] : Fin 3 → Nat) a + S1x512x256.size a ≤ S9x512x256.size a
  inb_S256x400_S256x358_0_40 : ∀ a, (![0, 40] : Fin 2 → Nat) a + S256x358.size a ≤ S256x400.size a
  inb_S9x512x256_S1x512x256_7_0_0 : ∀ a, (![7, 0, 0] : Fin 3 → Nat) a + S1x512x256.size a ≤ S9x512x256.size a
  inb_S256x400_S256x358_0_41 : ∀ a, (![0, 41] : Fin 2 → Nat) a + S256x358.size a ≤ S256x400.size a
  inb_S9x512x256_S1x512x256_8_0_0 : ∀ a, (![8, 0, 0] : Fin 3 → Nat) a + S1x512x256.size a ≤ S9x512x256.size a
  inb_S256x400_S256x358_0_42 : ∀ a, (![0, 42] : Fin 2 → Nat) a + S256x358.size a ≤ S256x400.size a
  inb_S512x1_S512x1_0_0 : ∀ a, (![0, 0] : Fin 2 → Nat) a + S512x1.size a ≤ S512x1.size a
  h_S512x1 : 0 < S512x1.numel
  broadcasts_S512x1_S512x358 : S512x1.Broadcasts S512x358
  inb_S256x512_S256x512_0_0 : ∀ a, (![0, 0] : Fin 2 → Nat) a + S256x512.size a ≤ S256x512.size a
  h_S256x512 : 0 < S256x512.numel
  broadcasts_S256x1_S256x358 : S256x1.Broadcasts S256x358
  inb_S256x358_S256x358_0_0 : ∀ a, (![0, 0] : Fin 2 → Nat) a + S256x358.size a ≤ S256x358.size a
  shapeCasts_S256x358_S256x358 : S256x358.ShapeCasts S256x358
  inb_S256x358_S256x316_0_0 : ∀ a, (![0, 0] : Fin 2 → Nat) a + S256x316.size a ≤ S256x358.size a
  h_S256x316 : 0 < S256x316.numel
  inb_S256x358_S256x316_0_1 : ∀ a, (![0, 1] : Fin 2 → Nat) a + S256x316.size a ≤ S256x358.size a
  inb_S256x358_S256x316_0_2 : ∀ a, (![0, 2] : Fin 2 → Nat) a + S256x316.size a ≤ S256x358.size a
  inb_S256x358_S256x316_0_20 : ∀ a, (![0, 20] : Fin 2 → Nat) a + S256x316.size a ≤ S256x358.size a
  inb_S256x358_S256x316_0_21 : ∀ a, (![0, 21] : Fin 2 → Nat) a + S256x316.size a ≤ S256x358.size a
  inb_S256x358_S256x316_0_22 : ∀ a, (![0, 22] : Fin 2 → Nat) a + S256x316.size a ≤ S256x358.size a
  inb_S256x358_S256x316_0_40 : ∀ a, (![0, 40] : Fin 2 → Nat) a + S256x316.size a ≤ S256x358.size a
  inb_S256x358_S256x316_0_41 : ∀ a, (![0, 41] : Fin 2 → Nat) a + S256x316.size a ≤ S256x358.size a
  inb_S256x358_S256x316_0_42 : ∀ a, (![0, 42] : Fin 2 → Nat) a + S256x316.size a ≤ S256x358.size a
  broadcasts_S512x1_S512x316 : S512x1.Broadcasts S512x316
  inb_S1x316_S1x316_0_0 : ∀ a, (![0, 0] : Fin 2 → Nat) a + S1x316.size a ≤ S1x316.size a
  h_S1x316 : 0 < S1x316.numel
  shapeCasts_S1x316_S1x316 : S1x316.ShapeCasts S1x316
  broadcasts_S1x316_S512x316 : S1x316.Broadcasts S512x316
  reduces_S512x316_S512 : S512x316.Reduces [1] S512
  shapeCasts_S512_S512x1 : S512.ShapeCasts S512x1
  slices_S512x1_o0_0_S256x1 : S512x1.Slices ![0, 0] S256x1
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  slices_S512x1_o256_0_S256x1 : S512x1.Slices ![256, 0] S256x1
  shapeCasts_S8x256x64x64_S8x256x4096 : S8x256x64x64.ShapeCasts S8x256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S256 : S256x4096.Reduces [1] S256
  shapeCasts_S256_S256x1 : S256.ShapeCasts S256x1
  broadcasts_S256x1_S256x4096 : S256x1.Broadcasts S256x4096
  shapeCasts_S256x4096_S1x256x4096 : S256x4096.ShapeCasts S1x256x4096
  shapeCasts_S8x256x4096_S8x256x64x64 : S8x256x4096.ShapeCasts S8x256x64x64
  dot_S256x256_S256x400_S256x400_1_0_0_1_n_n_wf : DotDims.WF S256x256 S256x400 S256x400 [1] [0] [0] [1] [] []
  dot_S512x256_S256x358_S512x358_1_0_0_1_n_n_wf : DotDims.WF S512x256 S256x358 S512x358 [1] [0] [0] [1] [] []
  dot_S256x512_S512x358_S256x358_1_0_0_1_n_n_wf : DotDims.WF S256x512 S512x358 S256x358 [1] [0] [0] [1] [] []
  dot_S512x256_S256x316_S512x316_1_0_0_1_n_n_wf : DotDims.WF S512x256 S256x316 S512x316 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x400.size a ≤ S8x256x400.size a
  hwx0_0 : ∀ i : grid0.Coords, EltTy.bits .f32 = 32 ∨ (Rect.block (s := S8x256x400) S1x256x400.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x316.size a ≤ S1x316.size a
  hwx0_1 : ∀ i : grid0.Coords, EltTy.bits .f32 = 32 ∨ (Rect.block (s := S1x316) S1x316.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S9x512x256.size a ≤ S9x512x256.size a
  hwx0_4 : ∀ i : grid0.Coords, EltTy.bits .f32 = 32 ∨ (Rect.block (s := S9x512x256) S9x512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S512x1.size a
  hwx0_5 : ∀ i : grid0.Coords, EltTy.bits .f32 = 32 ∨ (Rect.block (s := S512x1) S512x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S256x512.size a
  hwx0_6 : ∀ i : grid0.Coords, EltTy.bits .f32 = 32 ∨ (Rect.block (s := S256x512) S256x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S256x1.size a
  hwx0_7 : ∀ i : grid0.Coords, EltTy.bits .f32 = 32 ∨ (Rect.block (s := S256x1) S256x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S9x512x256.size a ≤ S9x512x256.size a
  hwx0_8 : ∀ i : grid0.Coords, EltTy.bits .f32 = 32 ∨ (Rect.block (s := S9x512x256) S9x512x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S512x1.size a
  hwx0_9 : ∀ i : grid0.Coords, EltTy.bits .f32 = 32 ∨ (Rect.block (s := S512x1) S512x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x1.size a ≤ S8x256x1.size a
  hwx0_10 : ∀ i : grid0.Coords, EltTy.bits .f32 = 32 ∨ (Rect.block (s := S8x256x1) S1x256x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256x1.size a ≤ S8x256x1.size a
  hwx0_11 : ∀ i : grid0.Coords, EltTy.bits .f32 = 32 ∨ (Rect.block (s := S8x256x1) S1x256x1.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x4096.size a ≤ S8x256x4096.size a
  hwx1_0 : ∀ i : grid1.Coords, EltTy.bits .f32 = 32 ∨ (Rect.block (s := S8x256x4096) S1x256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1.size a ≤ S8x256x1.size a
  hwx1_1 : ∀ i : grid1.Coords, EltTy.bits .f32 = 32 ∨ (Rect.block (s := S8x256x1) S1x256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1.size a ≤ S8x256x1.size a
  hwx1_2 : ∀ i : grid1.Coords, EltTy.bits .f32 = 32 ∨ (Rect.block (s := S8x256x1) S1x256x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x4096.size a ≤ S8x256x4096.size a
  hwx1_3 : ∀ i : grid1.Coords, EltTy.bits .f32 = 32 ∨ (Rect.block (s := S8x256x4096) S1x256x4096.size (cc1_transform_3 i) (hinb1_3 i)).WholeWords (EltTy.packing .f32)

variable [Facts₀]

def dot_S256x256_S256x400_S256x400_1_0_0_1_n_n : DotDims S256x256 S256x400 S256x400 where
  lhsContracting := [1]
  rhsContracting := [0]
  lhsNonContracting := [0]
  rhsNonContracting := [1]
  lhsBatch := []
  rhsBatch := []
  wf := dot_S256x256_S256x400_S256x400_1_0_0_1_n_n_wf
def dot_S512x256_S256x358_S512x358_1_0_0_1_n_n : DotDims S512x256 S256x358 S512x358 where
  lhsContracting := [1]
  rhsContracting := [0]
  lhsNonContracting := [0]
  rhsNonContracting := [1]
  lhsBatch := []
  rhsBatch := []
  wf := dot_S512x256_S256x358_S512x358_1_0_0_1_n_n_wf
def dot_S256x512_S512x358_S256x358_1_0_0_1_n_n : DotDims S256x512 S512x358 S256x358 where
  lhsContracting := [1]
  rhsContracting := [0]
  lhsNonContracting := [0]
  rhsNonContracting := [1]
  lhsBatch := []
  rhsBatch := []
  wf := dot_S256x512_S512x358_S256x358_1_0_0_1_n_n_wf
def dot_S512x256_S256x316_S512x316_1_0_0_1_n_n : DotDims S512x256 S256x316 S512x316 where
  lhsContracting := [1]
  rhsContracting := [0]
  lhsNonContracting := [0]
  rhsNonContracting := [1]
  lhsBatch := []
  rhsBatch := []
  wf := dot_S512x256_S256x316_S512x316_1_0_0_1_n_n_wf

abbrev win0_0 : Pipeline.Window sig grid0 :=
  Pipeline.Window.ofSpec (Memref.whole main_v1) S1x256x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x316.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S9x512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S9x512x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3_0) S1x256x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3_1) S1x256x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v4) S1x256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_0) S1x256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_1) S1x256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x256x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.KernelBlock.lean ====
/-
  The fused kernel's block at one batch element, as ONE pure function of what the body loads there.
  The gate network is two "fire" stages on the flattened, reflect-padded 20 x 20 style grid: a 1x1
  squeeze (a matrix product, bias, ReLU), then a 3x3 valid convolution written as nine matrix products
  against lane-shifted slices of the squeezed activations (tap t reads the slice starting at lane
  (t / 3) * 20 + t % 3), bias, ReLU (scaled by the SELU constant after the first stage). The second
  stage's 512 x 316 activations are masked to the 16 valid columns of each row and summed along the
  lanes; the 512 sums, scaled by 1/256, are the 256 scale logits and the 256 shifts. The block then
  normalises each of the 256 rows of the 4096-long content features by the row's mean and variance
  and applies scale and shift. Every filter tap is read out of its nine-tap stack through the
  rectangle [t, 0..512, 0..256].
-/
import proofs.«152265_g2000701298156354_pallasbulk_673_17_alg».proof.Proof.Gen.KernelIdeal.Skeleton
import Idealize.ShloMosaic.Lib.Pipeline.FrameBody

noncomputable section

namespace Cert.KernelIdeal.Hand

open Idealize.ShloMosaic Idealize.ShloMosaic.TcCoe Cert.KernelIdeal Cert.KernelIdeal.Gen

variable {F : FTy → Type} [FloatOps F]

/-- Filter tap 0 of a nine-tap stack: the [512, 256] matrix at leading index 0, as a [1, 512, 256] array. -/
abbrev tap0 (W : Vec F S9x512x256 .bf16) : Vec F S1x512x256 .bf16 :=
  View.ld (Val := Elt F) W (Rect.unit (s := S9x512x256) ![0, 0, 0] S1x512x256.size inb_S9x512x256_S1x512x256_0_0_0)

/-- Filter tap 1 of a nine-tap stack: the [512, 256] matrix at leading index 1, as a [1, 512, 256] array. -/
abbrev tap1 (W : Vec F S9x512x256 .bf16) : Vec F S1x512x256 .bf16 :=
  View.ld (Val := Elt F) W (Rect.unit (s := S9x512x256) ![1, 0, 0] S1x512x256.size inb_S9x512x256_S1x512x256_1_0_0)

/-- Filter tap 2 of a nine-tap stack: the [512, 256] matrix at leading index 2, as a [1, 512, 256] array. -/
abbrev tap2 (W : Vec F S9x512x256 .bf16) : Vec F S1x512x256 .bf16 :=
  View.ld (Val := Elt F) W (Rect.unit (s := S9x512x256) ![2, 0, 0] S1x512x256.size inb_S9x512x256_S1x512x256_2_0_0)

/-- Filter tap 3 of a nine-tap stack: the [512, 256] matrix at leading index 3, as a [1, 512, 256] array. -/
abbrev tap3 (W : Vec F S9x512x256 .bf16) : Vec F S1x512x256 .bf16 :=
  View.ld (Val := Elt F) W (Rect.unit (s := S9x512x256) ![3, 0, 0] S1x512x256.size inb_S9x512x256_S1x512x256_3_0_0)

/-- Filter tap 4 of a nine-tap stack: the [512, 256] matrix at leading index 4, as a [1, 512, 256] array. -/
abbrev tap4 (W : Vec F S9x512x256 .bf16) : Vec F S1x512x256 .bf16 :=
  View.ld (Val := Elt F) W (Rect.unit (s := S9x512x256) ![4, 0, 0] S1x512x256.size inb_S9x512x256_S1x512x256_4_0_0)

/-- Filter tap 5 of a nine-tap stack: the [512, 256] matrix at leading index 5, as a [1, 512, 256] array. -/
abbrev tap5 (W : Vec F S9x512x256 .bf16) : Vec F S1x512x256 .bf16 :=
  View.ld (Val := Elt F) W (Rect.unit (s := S9x512x256) ![5, 0, 0] S1x512x256.size inb_S9x512x256_S1x512x256_5_0_0)

/-- Filter tap 6 of a nine-tap stack: the [512, 256] matrix at leading index 6, as a [1, 512, 256] array. -/
abbrev tap6 (W : Vec F S9x512x256 .bf16) : Vec F S1x512x256 .bf16 :=
  View.ld (Val := Elt F) W (Rect.unit (s := S9x512x256) ![6, 0, 0] S1x512x256.size inb_S9x512x256_S1x512x256_6_0_0)

/-- Filter tap 7 of a nine-tap stack: the [512, 256] matrix at leading index 7, as a [1, 512, 256] array. -/
abbrev tap7 (W : Vec F S9x512x256 .bf16) : Vec F S1x512x256 .bf16 :=
  View.ld (Val := Elt F) W (Rect.unit (s := S9x512x256) ![7, 0, 0] S1x512x256.size inb_S9x512x256_S1x512x256_7_0_0)

/-- Filter tap 8 of a nine-tap stack: the [512, 256] matrix at leading index 8, as a [1, 512, 256] array. -/
abbrev tap8 (W : Vec F S9x512x256 .bf16) : Vec F S1x512x256 .bf16 :=
  View.ld (Val := Elt F) W (Rect.unit (s := S9x512x256) ![8, 0, 0] S1x512x256.size inb_S9x512x256_S1x512x256_8_0_0)

/-- First fire stage: squeeze of the padded style block, nine-tap expand, bias, ReLU, SELU scale: [512, 358]. -/
def fire1 (W1 : Vec F S256x256 .bf16) (W1ex : Vec F S9x512x256 .bf16) (zp : Vec F S1x256x400 .bf16)
    (b1sq : Vec F S256x1 .f32) (b1ex : Vec F S512x1 .f32) : FVec F S512x358 .f32 :=
  k0_pay9 (k0_pay6 W1 zp b1sq) (k0_pay7 W1 zp b1sq (tap0 W1ex) (tap1 W1ex) (tap2 W1ex)) (k0_pay8 (tap3 W1ex))
    (tap4 W1ex) (tap5 W1ex) (tap6 W1ex) (tap7 W1ex) (tap8 W1ex) b1ex

/-- Second fire stage on `y1`, masked to the valid columns and summed along the lanes: the 512 row sums. -/
def gateSums (y1 : FVec F S512x358 .f32) (W2 : Vec F S256x512 .bf16) (W2ex : Vec F S9x512x256 .bf16)
    (b2sq : Vec F S256x1 .f32) (b2ex : Vec F S512x1 .f32) : FVec F S512x1 .f32 :=
  k0_pay14 (k0_pay10 y1 W2 b2sq) (k0_pay11 y1 W2 b2sq (tap0 W2ex) (tap1 W2ex) (tap2 W2ex) (tap3 W2ex)) (k0_pay12 (tap4 W2ex))
    (k0_pay13 y1 W2 b2sq) (constant S512x316 .f32 0x00000000#32) (tap5 W2ex) (tap6 W2ex) (tap7 W2ex) (tap8 W2ex) b2ex

/-- The block the body stores at one batch element: the modulated, normalised content features. -/
def blockOut (W1 : Vec F S256x256 .bf16) (W1ex : Vec F S9x512x256 .bf16) (W2 : Vec F S256x512 .bf16) (W2ex : Vec F S9x512x256 .bf16)
    (zp : Vec F S1x256x400 .bf16) (b1sq : Vec F S256x1 .f32) (b1ex : Vec F S512x1 .f32) (b2sq : Vec F S256x1 .f32) (b2ex : Vec F S512x1 .f32)
    (x : Vec F S1x256x4096 .f32) : FVec F S1x256x4096 .f32 :=
  k0_pay1 (gateSums (fire1 W1 W1ex zp b1sq b1ex) W2 W2ex b2sq b2ex) x

end Cert.KernelIdeal.Hand

end
-- ==== Proof.KernelPieces.lean ====
/-
  What the fused body leaves, case by case, as the block function of KernelBlock: at the grid's first
  point it first converts the four weight arrays into the carried scratch and then computes the block
  from those conversions; at every later point it computes the block from the scratch as the point
  before left it, and leaves the scratch alone.
-/
import proofs.«152265_g2000701298156354_pallasbulk_673_17_alg».proof.Proof.Gen.KernelIdeal.Frame
import proofs.«152265_g2000701298156354_pallasbulk_673_17_alg».proof.Proof.KernelBlock
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.Sem
open Cert.KernelIdeal Cert.KernelIdeal.Gen

variable {F : FTy → Type} [FloatOps F]

set_option maxHeartbeats 1000000 in
/-- A later point's block: the block function at the carried scratch contents. -/
theorem out_B (c : Dev nD) (i : grid0.Coords) (arg1 : Memref sig .tc .vmem S1x256x400 .bf16) (harg1 : arg1.IsWhole) (arg2 : Memref sig .tc .vmem S1x256x4096 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S9x512x256 .f32) (harg5 : arg5.IsWhole) (arg6 : Memref sig .tc .vmem S512x1 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S9x512x256 .f32) (harg9 : arg9.IsWhole) (arg10 : Memref sig .tc .vmem S512x1 .f32) (harg10 : arg10.IsWhole) (arg11 : Memref sig .tc .vmem S1x256x4096 .f32) (harg11 : arg11.IsWhole) (arg12 : Memref sig .tc .vmem S256x256 .bf16) (harg12 : arg12.IsWhole) (arg13 : Memref sig .tc .vmem S9x512x256 .bf16) (harg13 : arg13.IsWhole) (arg14 : Memref sig .tc .vmem S256x512 .bf16) (harg14 : arg14.IsWhole) (arg15 : Memref sig .tc .vmem S9x512x256 .bf16) (harg15 : arg15.IsWhole) (hc0 : ¬cond0_0 i)
    (x0 : Vec F S1x256x400 .bf16) (x1 : Vec F S1x256x4096 .f32) (x2 : Vec F S256x256 .f32) (x3 : Vec F S256x1 .f32) (x4 : Vec F S9x512x256 .f32) (x5 : Vec F S512x1 .f32) (x6 : Vec F S256x512 .f32) (x7 : Vec F S256x1 .f32) (x8 : Vec F S9x512x256 .f32) (x9 : Vec F S512x1 .f32) (xs0 : Vec F S256x256 .bf16) (xs1 : Vec F S9x512x256 .bf16) (xs2 : Vec F S256x512 .bf16) (xs3 : Vec F S9x512x256 .bf16) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2 xs3 = blockOut xs0 xs1 xs2 xs3 x0 x3 x5 x7 x9 x1 := by
  have hz3 : (![0, 0, 0] : Fin 3 → Nat) = fun _ => 0 := by funext a; fin_cases a <;> rfl
  have hz2 : (![0, 0] : Fin 2 → Nat) = fun _ => 0 := by funext a; fin_cases a <;> rfl
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2 xs3)]
  unfold kernelRun0_B
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg12.read_unread, harg13.read_unread, harg14.read_unread, harg15.read_unread, View.ld_unit_zero (S := S1x256x400) hz3, View.ld_unit_zero (S := S1x256x4096) hz3, View.ld_unit_zero (S := S9x512x256) hz3, View.ld_unit_zero (S := S256x256) hz2, View.ld_unit_zero (S := S256x1) hz2, View.ld_unit_zero (S := S512x1) hz2, View.ld_unit_zero (S := S256x512) hz2]
  rfl

set_option maxHeartbeats 1000000 in
/-- The first point's block: the block function at the weights as just converted. -/
theorem out_A (c : Dev nD) (i : grid0.Coords) (arg1 : Memref sig .tc .vmem S1x256x400 .bf16) (harg1 : arg1.IsWhole) (arg2 : Memref sig .tc .vmem S1x256x4096 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S9x512x256 .f32) (harg5 : arg5.IsWhole) (arg6 : Memref sig .tc .vmem S512x1 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S9x512x256 .f32) (harg9 : arg9.IsWhole) (arg10 : Memref sig .tc .vmem S512x1 .f32) (harg10 : arg10.IsWhole) (arg11 : Memref sig .tc .vmem S1x256x4096 .f32) (harg11 : arg11.IsWhole) (arg12 : Memref sig .tc .vmem S256x256 .bf16) (harg12 : arg12.IsWhole) (arg13 : Memref sig .tc .vmem S9x512x256 .bf16) (harg13 : arg13.IsWhole) (arg14 : Memref sig .tc .vmem S256x512 .bf16) (harg14 : arg14.IsWhole) (arg15 : Memref sig .tc .vmem S9x512x256 .bf16) (harg15 : arg15.IsWhole) (hc0 : cond0_0 i)
    (x0 : Vec F S1x256x400 .bf16) (x1 : Vec F S1x256x4096 .f32) (x2 : Vec F S256x256 .f32) (x3 : Vec F S256x1 .f32) (x4 : Vec F S9x512x256 .f32) (x5 : Vec F S512x1 .f32) (x6 : Vec F S256x512 .f32) (x7 : Vec F S256x1 .f32) (x8 : Vec F S9x512x256 .f32) (x9 : Vec F S512x1 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = blockOut (k0_pay2 x2) (k0_pay3 x4) (k0_pay4 x6) (k0_pay5 x8) x0 x3 x5 x7 x9 x1 := by
  have hz3 : (![0, 0, 0] : Fin 3 → Nat) = fun _ => 0 := by funext a; fin_cases a <;> rfl
  have hz2 : (![0, 0] : Fin 2 → Nat) = fun _ => 0 := by funext a; fin_cases a <;> rfl
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg12.read_unread, harg13.read_unread, harg14.read_unread, harg15.read_unread, View.ld_unit_zero (S := S1x256x400) hz3, View.ld_unit_zero (S := S1x256x4096) hz3, View.ld_unit_zero (S := S9x512x256) hz3, View.ld_unit_zero (S := S256x256) hz2, View.ld_unit_zero (S := S256x1) hz2, View.ld_unit_zero (S := S512x1) hz2, View.ld_unit_zero (S := S256x512) hz2, View.readCov_unit_zero (S := S256x256) _ hz2, View.readCov_unit_zero (S := S256x512) _ hz2, View.readCov_unit_zero (S := S9x512x256) _ hz3]
  simp only [View.readCov_eq_canon', View.canon_unit_zero (S := S9x512x256) hz3]
  rfl

set_option maxHeartbeats 1000000 in
/-- The first point leaves carried scratch 0 at the converted weights. -/
theorem scratch_A_0 (c : Dev nD) (i : grid0.Coords) (arg1 : Memref sig .tc .vmem S1x256x400 .bf16) (harg1 : arg1.IsWhole) (arg2 : Memref sig .tc .vmem S1x256x4096 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S9x512x256 .f32) (harg5 : arg5.IsWhole) (arg6 : Memref sig .tc .vmem S512x1 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S9x512x256 .f32) (harg9 : arg9.IsWhole) (arg10 : Memref sig .tc .vmem S512x1 .f32) (harg10 : arg10.IsWhole) (arg11 : Memref sig .tc .vmem S1x256x4096 .f32) (harg11 : arg11.IsWhole) (arg12 : Memref sig .tc .vmem S256x256 .bf16) (harg12 : arg12.IsWhole) (arg13 : Memref sig .tc .vmem S9x512x256 .bf16) (harg13 : arg13.IsWhole) (arg14 : Memref sig .tc .vmem S256x512 .bf16) (harg14 : arg14.IsWhole) (arg15 : Memref sig .tc .vmem S9x512x256 .bf16) (harg15 : arg15.IsWhole) (hc0 : cond0_0 i)
    (x0 : Vec F S1x256x400 .bf16) (x1 : Vec F S1x256x4096 .f32) (x2 : Vec F S256x256 .f32) (x3 : Vec F S256x1 .f32) (x4 : Vec F S9x512x256 .f32) (x5 : Vec F S512x1 .f32) (x6 : Vec F S256x512 .f32) (x7 : Vec F S256x1 .f32) (x8 : Vec F S9x512x256 .f32) (x9 : Vec F S512x1 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = k0_pay2 x2 := by
  have hz3 : (![0, 0, 0] : Fin 3 → Nat) = fun _ => 0 := by funext a; fin_cases a <;> rfl
  have hz2 : (![0, 0] : Fin 2 → Nat) = fun _ => 0 := by funext a; fin_cases a <;> rfl
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg12.read_unread, harg13.read_unread, harg14.read_unread, harg15.read_unread, View.ld_unit_zero (S := S1x256x400) hz3, View.ld_unit_zero (S := S1x256x4096) hz3, View.ld_unit_zero (S := S9x512x256) hz3, View.ld_unit_zero (S := S256x256) hz2, View.ld_unit_zero (S := S256x1) hz2, View.ld_unit_zero (S := S512x1) hz2, View.ld_unit_zero (S := S256x512) hz2]

set_option maxHeartbeats 1000000 in
/-- The first point leaves carried scratch 1 at the converted weights. -/
theorem scratch_A_1 (c : Dev nD) (i : grid0.Coords) (arg1 : Memref sig .tc .vmem S1x256x400 .bf16) (harg1 : arg1.IsWhole) (arg2 : Memref sig .tc .vmem S1x256x4096 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S9x512x256 .f32) (harg5 : arg5.IsWhole) (arg6 : Memref sig .tc .vmem S512x1 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S9x512x256 .f32) (harg9 : arg9.IsWhole) (arg10 : Memref sig .tc .vmem S512x1 .f32) (harg10 : arg10.IsWhole) (arg11 : Memref sig .tc .vmem S1x256x4096 .f32) (harg11 : arg11.IsWhole) (arg12 : Memref sig .tc .vmem S256x256 .bf16) (harg12 : arg12.IsWhole) (arg13 : Memref sig .tc .vmem S9x512x256 .bf16) (harg13 : arg13.IsWhole) (arg14 : Memref sig .tc .vmem S256x512 .bf16) (harg14 : arg14.IsWhole) (arg15 : Memref sig .tc .vmem S9x512x256 .bf16) (harg15 : arg15.IsWhole) (hc0 : cond0_0 i)
    (x0 : Vec F S1x256x400 .bf16) (x1 : Vec F S1x256x4096 .f32) (x2 : Vec F S256x256 .f32) (x3 : Vec F S256x1 .f32) (x4 : Vec F S9x512x256 .f32) (x5 : Vec F S512x1 .f32) (x6 : Vec F S256x512 .f32) (x7 : Vec F S256x1 .f32) (x8 : Vec F S9x512x256 .f32) (x9 : Vec F S512x1 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = k0_pay3 x4 := by
  have hz3 : (![0, 0, 0] : Fin 3 → Nat) = fun _ => 0 := by funext a; fin_cases a <;> rfl
  have hz2 : (![0, 0] : Fin 2 → Nat) = fun _ => 0 := by funext a; fin_cases a <;> rfl
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg12.read_unread, harg13.read_unread, harg14.read_unread, harg15.read_unread, View.ld_unit_zero (S := S1x256x400) hz3, View.ld_unit_zero (S := S1x256x4096) hz3, View.ld_unit_zero (S := S9x512x256) hz3, View.ld_unit_zero (S := S256x256) hz2, View.ld_unit_zero (S := S256x1) hz2, View.ld_unit_zero (S := S512x1) hz2, View.ld_unit_zero (S := S256x512) hz2]

set_option maxHeartbeats 1000000 in
/-- The first point leaves carried scratch 2 at the converted weights. -/
theorem scratch_A_2 (c : Dev nD) (i : grid0.Coords) (arg1 : Memref sig .tc .vmem S1x256x400 .bf16) (harg1 : arg1.IsWhole) (arg2 : Memref sig .tc .vmem S1x256x4096 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S9x512x256 .f32) (harg5 : arg5.IsWhole) (arg6 : Memref sig .tc .vmem S512x1 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S9x512x256 .f32) (harg9 : arg9.IsWhole) (arg10 : Memref sig .tc .vmem S512x1 .f32) (harg10 : arg10.IsWhole) (arg11 : Memref sig .tc .vmem S1x256x4096 .f32) (harg11 : arg11.IsWhole) (arg12 : Memref sig .tc .vmem S256x256 .bf16) (harg12 : arg12.IsWhole) (arg13 : Memref sig .tc .vmem S9x512x256 .bf16) (harg13 : arg13.IsWhole) (arg14 : Memref sig .tc .vmem S256x512 .bf16) (harg14 : arg14.IsWhole) (arg15 : Memref sig .tc .vmem S9x512x256 .bf16) (harg15 : arg15.IsWhole) (hc0 : cond0_0 i)
    (x0 : Vec F S1x256x400 .bf16) (x1 : Vec F S1x256x4096 .f32) (x2 : Vec F S256x256 .f32) (x3 : Vec F S256x1 .f32) (x4 : Vec F S9x512x256 .f32) (x5 : Vec F S512x1 .f32) (x6 : Vec F S256x512 .f32) (x7 : Vec F S256x1 .f32) (x8 : Vec F S9x512x256 .f32) (x9 : Vec F S512x1 .f32) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = k0_pay4 x6 := by
  have hz3 : (![0, 0, 0] : Fin 3 → Nat) = fun _ => 0 := by funext a; fin_cases a <;> rfl
  have hz2 : (![0, 0] : Fin 2 → Nat) = fun _ => 0 := by funext a; fin_cases a <;> rfl
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg12.read_unread, harg13.read_unread, harg14.read_unread, harg15.read_unread, View.ld_unit_zero (S := S1x256x400) hz3, View.ld_unit_zero (S := S1x256x4096) hz3, View.ld_unit_zero (S := S9x512x256) hz3, View.ld_unit_zero (S := S256x256) hz2, View.ld_unit_zero (S := S256x1) hz2, View.ld_unit_zero (S := S512x1) hz2, View.ld_unit_zero (S := S256x512) hz2]

set_option maxHeartbeats 1000000 in
/-- The first point leaves carried scratch 3 at the converted weights. -/
theorem scratch_A_3 (c : Dev nD) (i : grid0.Coords) (arg1 : Memref sig .tc .vmem S1x256x400 .bf16) (harg1 : arg1.IsWhole) (arg2 : Memref sig .tc .vmem S1x256x4096 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S9x512x256 .f32) (harg5 : arg5.IsWhole) (arg6 : Memref sig .tc .vmem S512x1 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S9x512x256 .f32) (harg9 : arg9.IsWhole) (arg10 : Memref sig .tc .vmem S512x1 .f32) (harg10 : arg10.IsWhole) (arg11 : Memref sig .tc .vmem S1x256x4096 .f32) (harg11 : arg11.IsWhole) (arg12 : Memref sig .tc .vmem S256x256 .bf16) (harg12 : arg12.IsWhole) (arg13 : Memref sig .tc .vmem S9x512x256 .bf16) (harg13 : arg13.IsWhole) (arg14 : Memref sig .tc .vmem S256x512 .bf16) (harg14 : arg14.IsWhole) (arg15 : Memref sig .tc .vmem S9x512x256 .bf16) (harg15 : arg15.IsWhole) (hc0 : cond0_0 i)
    (x0 : Vec F S1x256x400 .bf16) (x1 : Vec F S1x256x4096 .f32) (x2 : Vec F S256x256 .f32) (x3 : Vec F S256x1 .f32) (x4 : Vec F S9x512x256 .f32) (x5 : Vec F S512x1 .f32) (x6 : Vec F S256x512 .f32) (x7 : Vec F S256x1 .f32) (x8 : Vec F S9x512x256 .f32) (x9 : Vec F S512x1 .f32) :
    sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = k0_pay5 x8 := by
  have hz3 : (![0, 0, 0] : Fin 3 → Nat) = fun _ => 0 := by funext a; fin_cases a <;> rfl
  have hz2 : (![0, 0] : Fin 2 → Nat) = fun _ => 0 := by funext a; fin_cases a <;> rfl
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, harg12.read_unread, harg13.read_unread, harg14.read_unread, harg15.read_unread, View.ld_unit_zero (S := S1x256x400) hz3, View.ld_unit_zero (S := S1x256x4096) hz3, View.ld_unit_zero (S := S9x512x256) hz3, View.ld_unit_zero (S := S256x256) hz2, View.ld_unit_zero (S := S256x1) hz2, View.ld_unit_zero (S := S512x1) hz2, View.ld_unit_zero (S := S256x512) hz2]

set_option maxHeartbeats 1000000 in
/-- Everything the first point leaves, at once: the block, and the four converted weight arrays. -/
theorem first_point (c : Dev nD) (i : grid0.Coords) (arg1 : Memref sig .tc .vmem S1x256x400 .bf16) (harg1 : arg1.IsWhole) (arg2 : Memref sig .tc .vmem S1x256x4096 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S9x512x256 .f32) (harg5 : arg5.IsWhole) (arg6 : Memref sig .tc .vmem S512x1 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S9x512x256 .f32) (harg9 : arg9.IsWhole) (arg10 : Memref sig .tc .vmem S512x1 .f32) (harg10 : arg10.IsWhole) (arg11 : Memref sig .tc .vmem S1x256x4096 .f32) (harg11 : arg11.IsWhole) (arg12 : Memref sig .tc .vmem S256x256 .bf16) (harg12 : arg12.IsWhole) (arg13 : Memref sig .tc .vmem S9x512x256 .bf16) (harg13 : arg13.IsWhole) (arg14 : Memref sig .tc .vmem S256x512 .bf16) (harg14 : arg14.IsWhole) (arg15 : Memref sig .tc .vmem S9x512x256 .bf16) (harg15 : arg15.IsWhole) (hc0 : cond0_0 i)
    (x0 : Vec F S1x256x400 .bf16) (x1 : Vec F S1x256x4096 .f32) (x2 : Vec F S256x256 .f32) (x3 : Vec F S256x1 .f32) (x4 : Vec F S9x512x256 .f32) (x5 : Vec F S512x1 .f32) (x6 : Vec F S256x512 .f32) (x7 : Vec F S256x1 .f32) (x8 : Vec F S9x512x256 .f32) (x9 : Vec F S512x1 .f32) :
    (out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9, sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9, sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9, sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9, sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)
      = (blockOut (k0_pay2 x2) (k0_pay3 x4) (k0_pay4 x6) (k0_pay5 x8) x0 x3 x5 x7 x9 x1, k0_pay2 x2, k0_pay3 x4, k0_pay4 x6, k0_pay5 x8) := by
  rw [out_A, scratch_A_0, scratch_A_1, scratch_A_2, scratch_A_3]

set_option maxHeartbeats 1000000 in
/-- Everything a later point leaves, at once: the block from the carried scratch, and the scratch as it was. -/
theorem later_point (c : Dev nD) (i : grid0.Coords) (arg1 : Memref sig .tc .vmem S1x256x400 .bf16) (harg1 : arg1.IsWhole) (arg2 : Memref sig .tc .vmem S1x256x4096 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S9x512x256 .f32) (harg5 : arg5.IsWhole) (arg6 : Memref sig .tc .vmem S512x1 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S9x512x256 .f32) (harg9 : arg9.IsWhole) (arg10 : Memref sig .tc .vmem S512x1 .f32) (harg10 : arg10.IsWhole) (arg11 : Memref sig .tc .vmem S1x256x4096 .f32) (harg11 : arg11.IsWhole) (arg12 : Memref sig .tc .vmem S256x256 .bf16) (harg12 : arg12.IsWhole) (arg13 : Memref sig .tc .vmem S9x512x256 .bf16) (harg13 : arg13.IsWhole) (arg14 : Memref sig .tc .vmem S256x512 .bf16) (harg14 : arg14.IsWhole) (arg15 : Memref sig .tc .vmem S9x512x256 .bf16) (harg15 : arg15.IsWhole) (hc0 : ¬cond0_0 i)
    (x0 : Vec F S1x256x400 .bf16) (x1 : Vec F S1x256x4096 .f32) (x2 : Vec F S256x256 .f32) (x3 : Vec F S256x1 .f32) (x4 : Vec F S9x512x256 .f32) (x5 : Vec F S512x1 .f32) (x6 : Vec F S256x512 .f32) (x7 : Vec F S256x1 .f32) (x8 : Vec F S9x512x256 .f32) (x9 : Vec F S512x1 .f32) (xs0 : Vec F S256x256 .bf16) (xs1 : Vec F S9x512x256 .bf16) (xs2 : Vec F S256x512 .bf16) (xs3 : Vec F S9x512x256 .bf16) :
    (out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2 xs3, sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2 xs3, sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2 xs3, sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2 xs3, sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2 xs3)
      = (blockOut xs0 xs1 xs2 xs3 x0 x3 x5 x7 x9 x1, xs0, xs1, xs2, xs3) := by
  rw [out_B]
  rfl

end Cert.KernelIdeal.Hand

end
-- ==== Proof.KernelState.lean ====
/-
  Names for what the fused body reads at a grid point: each window's block at its literal shape, and the
  state the run leaves after a point — the output's buffer and the four carried scratch buffers.
-/
import proofs.«152265_g2000701298156354_pallasbulk_673_17_alg».proof.Proof.Gen.KernelIdeal.Frame
import proofs.«152265_g2000701298156354_pallasbulk_673_17_alg».proof.Proof.KernelPieces

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- The grid's first point. -/
abbrev pt0 : Fin cfg0.N := ⟨0, by decide⟩

/-- Window 0's block at point `t` (the padded style block), at its literal shape. -/
def blk0 (c : Dev nD) (t : Fin cfg0.N) : Vec F S1x256x400 .bf16 := iblk m c 0 t

/-- Window 1's block at point `t` (the content block), at its literal shape. -/
def blk1 (c : Dev nD) (t : Fin cfg0.N) : Vec F S1x256x4096 .f32 := iblk m c 1 t

/-- Window 2's block at point `t` (the first squeeze weights), at its literal shape. -/
def blk2 (c : Dev nD) (t : Fin cfg0.N) : Vec F S256x256 .f32 := iblk m c 2 t

/-- Window 3's block at point `t` (the first squeeze bias), at its literal shape. -/
def blk3 (c : Dev nD) (t : Fin cfg0.N) : Vec F S256x1 .f32 := iblk m c 3 t

/-- Window 4's block at point `t` (the first expand taps), at its literal shape. -/
def blk4 (c : Dev nD) (t : Fin cfg0.N) : Vec F S9x512x256 .f32 := iblk m c 4 t

/-- Window 5's block at point `t` (the first expand bias), at its literal shape. -/
def blk5 (c : Dev nD) (t : Fin cfg0.N) : Vec F S512x1 .f32 := iblk m c 5 t

/-- Window 6's block at point `t` (the second squeeze weights), at its literal shape. -/
def blk6 (c : Dev nD) (t : Fin cfg0.N) : Vec F S256x512 .f32 := iblk m c 6 t

/-- Window 7's block at point `t` (the second squeeze bias), at its literal shape. -/
def blk7 (c : Dev nD) (t : Fin cfg0.N) : Vec F S256x1 .f32 := iblk m c 7 t

/-- Window 8's block at point `t` (the second expand taps), at its literal shape. -/
def blk8 (c : Dev nD) (t : Fin cfg0.N) : Vec F S9x512x256 .f32 := iblk m c 8 t

/-- Window 9's block at point `t` (the second expand bias), at its literal shape. -/
def blk9 (c : Dev nD) (t : Fin cfg0.N) : Vec F S512x1 .f32 := iblk m c 9 t

/-- What the output's buffer and the four carried scratch buffers hold after point `t`. -/
abbrev stateAt (c : Dev nD) (t : Fin cfg0.N) :
    Vec F S1x256x4096 .f32 × Vec F S256x256 .bf16 × Vec F S9x512x256 .bf16 × Vec F S256x512 .bf16 × Vec F S9x512x256 .bf16 :=
  (blockOut (k0_pay2 (blk2 m c pt0)) (k0_pay3 (blk4 m c pt0)) (k0_pay4 (blk6 m c pt0)) (k0_pay5 (blk8 m c pt0)) (blk0 m c t) (blk3 m c t) (blk5 m c t) (blk7 m c t) (blk9 m c t) (blk1 m c t),
    k0_pay2 (blk2 m c pt0), k0_pay3 (blk4 m c pt0), k0_pay4 (blk6 m c pt0), k0_pay5 (blk8 m c pt0))

end Cert.KernelIdeal.Hand

end
-- ==== Proof.KernelInvariant.lean ====
/-
  What the output's staging buffer and the carried scratch hold after each grid point: the scratch
  holds the four weight arrays as the first point converted them, and the buffer holds the block
  function at those conversions and at the point's own style, bias and content blocks. By induction
  along the grid: the first point converts and computes; every later point finds the scratch as the
  point before left it and leaves it alone.
-/
import proofs.«152265_g2000701298156354_pallasbulk_673_17_alg».proof.Proof.Gen.KernelIdeal.Frame
import proofs.«152265_g2000701298156354_pallasbulk_673_17_alg».proof.Proof.KernelPieces
import proofs.«152265_g2000701298156354_pallasbulk_673_17_alg».proof.Proof.KernelState

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

set_option maxHeartbeats 1000000 in
/-- After the first point. -/
theorem outs_zero (c : Dev nD) (hn : 0 < cfg0.N) : outsAt0 m c 0 hn = stateAt m c ⟨0, hn⟩ := by
  have h0 : (0 : ℕ) % 8 = 0 := rfl
  have e := outsAt0_A m c ⟨0, hn⟩ h0
  exact e.trans (first_point c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) ((hcond0_0 ⟨0, hn⟩).mpr h0) (blk0 m c ⟨0, hn⟩) (blk1 m c ⟨0, hn⟩) (blk2 m c ⟨0, hn⟩) (blk3 m c ⟨0, hn⟩) (blk4 m c ⟨0, hn⟩) (blk5 m c ⟨0, hn⟩) (blk6 m c ⟨0, hn⟩) (blk7 m c ⟨0, hn⟩) (blk8 m c ⟨0, hn⟩) (blk9 m c ⟨0, hn⟩))

set_option maxHeartbeats 1000000 in
/-- A later point, from the state the point before left. -/
theorem outs_succ (c : Dev nD) (n : ℕ) (hn : n + 1 < cfg0.N)
    (ih : outsAt0 m c n (Nat.lt_of_succ_lt hn) = stateAt m c ⟨n, Nat.lt_of_succ_lt hn⟩) :
    outsAt0 m c (n + 1) hn = stateAt m c ⟨n + 1, hn⟩ := by
  have h8 : n + 1 < 8 := lt_of_lt_of_eq hn N_0
  have h0 : ¬ (n + 1) % 8 = 0 := by omega
  have e := outsAt0_B m c ⟨n + 1, hn⟩ h0
  have ih' : (outsAt0 m c ((⟨n + 1, hn⟩ : Fin cfg0.N).val - 1) (Nat.lt_of_le_of_lt (Nat.sub_le _ _) (⟨n + 1, hn⟩ : Fin cfg0.N).isLt)) = stateAt m c ⟨n, Nat.lt_of_succ_lt hn⟩ := ih
  refine e.trans ?_
  refine (later_point c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (blk0 m c ⟨n + 1, hn⟩) (blk1 m c ⟨n + 1, hn⟩) (blk2 m c ⟨n + 1, hn⟩) (blk3 m c ⟨n + 1, hn⟩) (blk4 m c ⟨n + 1, hn⟩) (blk5 m c ⟨n + 1, hn⟩) (blk6 m c ⟨n + 1, hn⟩) (blk7 m c ⟨n + 1, hn⟩) (blk8 m c ⟨n + 1, hn⟩) (blk9 m c ⟨n + 1, hn⟩)
    (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2.1 (outsAt0 m c ((⟨n + 1, hn⟩ : Fin cfg0.N).val - 1) (Nat.lt_of_le_of_lt (Nat.sub_le _ _) (⟨n + 1, hn⟩ : Fin cfg0.N).isLt)).2.2.2.2).trans ?_
  rw [ih']

/-- After point `n`: the block at the first point's converted weights, and those conversions in the scratch. -/
theorem outs_eq (c : Dev nD) : ∀ (n : ℕ) (hn : n < cfg0.N), outsAt0 m c n hn = stateAt m c ⟨n, hn⟩
  | 0, hn => outs_zero m c hn
  | n + 1, hn => outs_succ m c n hn (outs_eq c n (Nat.lt_of_succ_lt hn))

/-- The output's staging buffer after point `t`. -/
theorem after_out (c : Dev nD) (t : Fin cfg0.N) : (dats m 0 c).after 10 t = (stateAt m c t).1 := by
  rw [after0_10, outs_eq m c t.val t.isLt]

end Cert.KernelIdeal.Hand

end
-- ==== Proof.KernelArray.lean ====
/-
  From blocks to the array. The grid has eight points, one per batch element: point t reads the
  padded style block and the content block of batch t, the eight weight and bias arrays whole, and
  writes back the whole [1, 256, 4096] block of batch t. So after the run the flat output array holds,
  at (b, r, p), the block function of batch b's blocks at (0, r, p).
-/
import proofs.«152265_g2000701298156354_pallasbulk_673_17_alg».proof.Proof.Gen.KernelIdeal.Frame
import proofs.«152265_g2000701298156354_pallasbulk_673_17_alg».proof.Proof.KernelInvariant
import proofs.«152265_g2000701298156354_pallasbulk_673_17_alg».proof.Proof.KernelState
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable {F : FTy → Type} [FloatOps F]
variable (m : (ℓ : Loc nD τ sig) → Buf (Elt F) ℓ)

/-- The batched windows (style, content, output) sit at block (t, 0, 0) at point t. -/
theorem idx_batched : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_10.index t (0 : Fin 3) = t.val ∧ win0_10.index t (1 : Fin 3) = 0 ∧ win0_10.index t (2 : Fin 3) = 0 :=
  (by decide +kernel : ∀ t : Fin grid0.N, _)

/-- The weight and bias windows sit at block 0 at every point. -/
theorem idx_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) = 0 ∧ win0_8.index t (1 : Fin 3) = 0 ∧ win0_8.index t (2 : Fin 3) = 0
    ∧ win0_9.index t (0 : Fin 2) = 0 ∧ win0_9.index t (1 : Fin 2) = 0 :=
  (by decide +kernel : ∀ t : Fin grid0.N, _)

/-- A grid point as a batch index. -/
def batchOf (t : Fin cfg0.N) : Fin 8 := ⟨t.val, lt_of_lt_of_eq t.isLt N_0⟩

/-- The padded, flattened style array as the region finds it. -/
def zpArr (c : Dev nD) : Vec F S8x256x400 .bf16 := V m c main_v2
/-- The flattened content array as the region finds it. -/
def xArr (c : Dev nD) : Vec F S8x256x4096 .f32 := V m c main_v3
/-- Argument array 2 as the region finds it. -/
def arr2 (c : Dev nD) : Vec F S256x256 .f32 := V m c main_arg2
/-- Argument array 3 as the region finds it. -/
def arr3 (c : Dev nD) : Vec F S256x1 .f32 := V m c main_arg3
/-- Argument array 4 as the region finds it. -/
def arr4 (c : Dev nD) : Vec F S9x512x256 .f32 := V m c main_arg4
/-- Argument array 5 as the region finds it. -/
def arr5 (c : Dev nD) : Vec F S512x1 .f32 := V m c main_arg5
/-- Argument array 6 as the region finds it. -/
def arr6 (c : Dev nD) : Vec F S256x512 .f32 := V m c main_arg6
/-- Argument array 7 as the region finds it. -/
def arr7 (c : Dev nD) : Vec F S256x1 .f32 := V m c main_arg7
/-- Argument array 8 as the region finds it. -/
def arr8 (c : Dev nD) : Vec F S9x512x256 .f32 := V m c main_arg8
/-- Argument array 9 as the region finds it. -/
def arr9 (c : Dev nD) : Vec F S512x1 .f32 := V m c main_arg9

/-- Batch `b` of a [8, 256, 400] array, as a [1, 256, 400] block. -/
def batch400 (A : Vec F S8x256x400 .bf16) (b : Fin 8) : Vec F S1x256x400 .bf16 :=
  fun y => A (ix3 (n0 := 8) (n1 := 256) (n2 := 400) b (y 1) (y 2))
/-- Batch `b` of a [8, 256, 4096] array, as a [1, 256, 4096] block. -/
def batch4096 (A : Vec F S8x256x4096 .f32) (b : Fin 8) : Vec F S1x256x4096 .f32 :=
  fun y => A (ix3 (n0 := 8) (n1 := 256) (n2 := 4096) b (y 1) (y 2))

theorem blk0_eq (c : Dev nD) (t : Fin cfg0.N) : blk0 m c t = batch400 (zpArr m c) (batchOf t) := by
  obtain ⟨e0, e1, e2, -⟩ := idx_batched t
  funext y
  show V m c main_v2 (((cfg0.win 0).blk t).view.emb y) = V m c main_v2 (ix3 (n0 := 8) (n1 := 256) (n2 := 400) (batchOf t) (y 1) (y 2))
  refine congrArg _ ?_
  funext a; apply Fin.ext
  match a with
  | ⟨0, _⟩ => show win0_0.index t (0 : Fin 3) * 1 + 1 * (y 0).val = t.val; have hy : (y 0).val < 1 := (y 0).isLt; omega
  | ⟨1, _⟩ => show win0_0.index t (1 : Fin 3) * 256 + 1 * (y 1).val = (y 1).val; omega
  | ⟨2, _⟩ => show win0_0.index t (2 : Fin 3) * 400 + 1 * (y 2).val = (y 2).val; omega

theorem blk1_eq (c : Dev nD) (t : Fin cfg0.N) : blk1 m c t = batch4096 (xArr m c) (batchOf t) := by
  obtain ⟨-, -, -, e0, e1, e2, -⟩ := idx_batched t
  funext y
  show V m c main_v3 (((cfg0.win 1).blk t).view.emb y) = V m c main_v3 (ix3 (n0 := 8) (n1 := 256) (n2 := 4096) (batchOf t) (y 1) (y 2))
  refine congrArg _ ?_
  funext a; apply Fin.ext
  match a with
  | ⟨0, _⟩ => show win0_1.index t (0 : Fin 3) * 1 + 1 * (y 0).val = t.val; have hy : (y 0).val < 1 := (y 0).isLt; omega
  | ⟨1, _⟩ => show win0_1.index t (1 : Fin 3) * 256 + 1 * (y 1).val = (y 1).val; omega
  | ⟨2, _⟩ => show win0_1.index t (2 : Fin 3) * 4096 + 1 * (y 2).val = (y 2).val; omega

theorem blk2_eq (c : Dev nD) (t : Fin cfg0.N) : blk2 m c t = arr2 m c := by
  obtain ⟨e0, e1, -⟩ := idx_whole t
  funext y
  show V m c main_arg2 (((cfg0.win 2).blk t).view.emb y) = V m c main_arg2 y
  refine congrArg _ ?_
  funext a; apply Fin.ext
  match a with
  | ⟨0, _⟩ => show win0_2.index t (0 : Fin 2) * 256 + 1 * (y 0).val = (y 0).val; omega
  | ⟨1, _⟩ => show win0_2.index t (1 : Fin 2) * 256 + 1 * (y 1).val = (y 1).val; omega

theorem blk3_eq (c : Dev nD) (t : Fin cfg0.N) : blk3 m c t = arr3 m c := by
  obtain ⟨-, -, e0, e1, -⟩ := idx_whole t
  funext y
  show V m c main_arg3 (((cfg0.win 3).blk t).view.emb y) = V m c main_arg3 y
  refine congrArg _ ?_
  funext a; apply Fin.ext
  match a with
  | ⟨0, _⟩ => show win0_3.index t (0 : Fin 2) * 256 + 1 * (y 0).val = (y 0).val; omega
  | ⟨1, _⟩ => show win0_3.index t (1 : Fin 2) * 1 + 1 * (y 1).val = (y 1).val; omega

theorem blk4_eq (c : Dev nD) (t : Fin cfg0.N) : blk4 m c t = arr4 m c := by
  obtain ⟨-, -, -, -, e0, e1, e2, -⟩ := idx_whole t
  funext y
  show V m c main_arg4 (((cfg0.win 4).blk t).view.emb y) = V m c main_arg4 y
  refine congrArg _ ?_
  funext a; apply Fin.ext
  match a with
  | ⟨0, _⟩ => show win0_4.index t (0 : Fin 3) * 9 + 1 * (y 0).val = (y 0).val; omega
  | ⟨1, _⟩ => show win0_4.index t (1 : Fin 3) * 512 + 1 * (y 1).val = (y 1).val; omega
  | ⟨2, _⟩ => show win0_4.index t (2 : Fin 3) * 256 + 1 * (y 2).val = (y 2).val; omega

theorem blk5_eq (c : Dev nD) (t : Fin cfg0.N) : blk5 m c t = arr5 m c := by
  obtain ⟨-, -, -, -, -, -, -, e0, e1, -⟩ := idx_whole t
  funext y
  show V m c main_arg5 (((cfg0.win 5).blk t).view.emb y) = V m c main_arg5 y
  refine congrArg _ ?_
  funext a; apply Fin.ext
  match a with
  | ⟨0, _⟩ => show win0_5.index t (0 : Fin 2) * 512 + 1 * (y 0).val = (y 0).val; omega
  | ⟨1, _⟩ => show win0_5.index t (1 : Fin 2) * 1 + 1 * (y 1).val = (y 1).val; omega

theorem blk6_eq (c : Dev nD) (t : Fin cfg0.N) : blk6 m c t = arr6 m c := by
  obtain ⟨-, -, -, -, -, -, -, -, -, e0, e1, -⟩ := idx_whole t
  funext y
  show V m c main_arg6 (((cfg0.win 6).blk t).view.emb y) = V m c main_arg6 y
  refine congrArg _ ?_
  funext a; apply Fin.ext
  match a with
  | ⟨0, _⟩ => show win0_6.index t (0 : Fin 2) * 256 + 1 * (y 0).val = (y 0).val; omega
  | ⟨1, _⟩ => show win0_6.index t (1 : Fin 2) * 512 + 1 * (y 1).val = (y 1).val; omega

theorem blk7_eq (c : Dev nD) (t : Fin cfg0.N) : blk7 m c t = arr7 m c := by
  obtain ⟨-, -, -, -, -, -, -, -, -, -, -, e0, e1, -⟩ := idx_whole t
  funext y
  show V m c main_arg7 (((cfg0.win 7).blk t).view.emb y) = V m c main_arg7 y
  refine congrArg _ ?_
  funext a; apply Fin.ext
  match a with
  | ⟨0, _⟩ => show win0_7.index t (0 : Fin 2) * 256 + 1 * (y 0).val = (y 0).val; omega
  | ⟨1, _⟩ => show win0_7.index t (1 : Fin 2) * 1 + 1 * (y 1).val = (y 1).val; omega

theorem blk8_eq (c : Dev nD) (t : Fin cfg0.N) : blk8 m c t = arr8 m c := by
  obtain ⟨-, -, -, -, -, -, -, -, -, -, -, -, -, e0, e1, e2, -⟩ := idx_whole t
  funext y
  show V m c main_arg8 (((cfg0.win 8).blk t).view.emb y) = V m c main_arg8 y
  refine congrArg _ ?_
  funext a; apply Fin.ext
  match a with
  | ⟨0, _⟩ => show win0_8.index t (0 : Fin 3) * 9 + 1 * (y 0).val = (y 0).val; omega
  | ⟨1, _⟩ => show win0_8.index t (1 : Fin 3) * 512 + 1 * (y 1).val = (y 1).val; omega
  | ⟨2, _⟩ => show win0_8.index t (2 : Fin 3) * 256 + 1 * (y 2).val = (y 2).val; omega

theorem blk9_eq (c : Dev nD) (t : Fin cfg0.N) : blk9 m c t = arr9 m c := by
  obtain ⟨-, -, -, -, -, -, -, -, -, -, -, -, -, -, -, -, e0, e1⟩ := idx_whole t
  funext y
  show V m c main_arg9 (((cfg0.win 9).blk t).view.emb y) = V m c main_arg9 y
  refine congrArg _ ?_
  funext a; apply Fin.ext
  match a with
  | ⟨0, _⟩ => show win0_9.index t (0 : Fin 2) * 512 + 1 * (y 0).val = (y 0).val; omega
  | ⟨1, _⟩ => show win0_9.index t (1 : Fin 2) * 1 + 1 * (y 1).val = (y 1).val; omega

/-- The flat output array after the run: at (b, r, p) the block function of batch b's blocks at (0, r, p). -/
def flatK (c : Dev nD) : Vec F S8x256x4096 .f32 := fun i =>
  blockOut (k0_pay2 (arr2 m c)) (k0_pay3 (arr4 m c)) (k0_pay4 (arr6 m c)) (k0_pay5 (arr8 m c)) (batch400 (zpArr m c) (i 0)) (arr3 m c) (arr5 m c) (arr7 m c) (arr9 m c) (batch4096 (xArr m c) (i 0)) (ix3 (n0 := 1) (n1 := 256) (n2 := 4096) 0 (i 1) (i 2))

/-- The state after point `t`, with every block read off its array. -/
theorem state_eq (c : Dev nD) (t : Fin cfg0.N) :
    (stateAt m c t).1 = blockOut (k0_pay2 (arr2 m c)) (k0_pay3 (arr4 m c)) (k0_pay4 (arr6 m c)) (k0_pay5 (arr8 m c)) (batch400 (zpArr m c) (batchOf t)) (arr3 m c) (arr5 m c) (arr7 m c) (arr9 m c) (batch4096 (xArr m c) (batchOf t)) := by
  show blockOut _ _ _ _ _ _ _ _ _ _ = _
  rw [blk0_eq, blk1_eq, blk2_eq, blk3_eq, blk4_eq, blk5_eq, blk6_eq, blk7_eq, blk8_eq, blk9_eq]

/-- An index of the output's block at point t, in the array. -/
theorem emb_out (t : Fin cfg0.N) (j : S1x256x4096.Idx) :
    ((cfg0.win 10).blk t).view.emb j = ix3 (n0 := 8) (n1 := 256) (n2 := 4096) (batchOf t) (j 1) (j 2) := by
  obtain ⟨-, -, -, -, -, -, e0, e1, e2⟩ := idx_batched t
  funext a; apply Fin.ext
  match a with
  | ⟨0, _⟩ => show win0_10.index t (0 : Fin 3) * 1 + 1 * (j 0).val = t.val; have hy : (j 0).val < 1 := (j 0).isLt; omega
  | ⟨1, _⟩ => show win0_10.index t (1 : Fin 3) * 256 + 1 * (j 1).val = (j 1).val; omega
  | ⟨2, _⟩ => show win0_10.index t (2 : Fin 3) * 4096 + 1 * (j 2).val = (j 2).val; omega

/-- The flat result at an index of batch t's block is the block function there. -/
theorem read_flat (c : Dev nD) (t : Fin cfg0.N) (j : S1x256x4096.Idx) :
    flatK m c (ix3 (n0 := 8) (n1 := 256) (n2 := 4096) (batchOf t) (j 1) (j 2)) = blockOut (k0_pay2 (arr2 m c)) (k0_pay3 (arr4 m c)) (k0_pay4 (arr6 m c)) (k0_pay5 (arr8 m c)) (batch400 (zpArr m c) (batchOf t)) (arr3 m c) (arr5 m c) (arr7 m c) (arr9 m c) (batch4096 (xArr m c) (batchOf t)) j := by
  have hj : j = ix3 (n0 := 1) (n1 := 256) (n2 := 4096) 0 (j 1) (j 2) := by
    funext a
    match a with
    | ⟨0, _⟩ => exact Fin.ext (by have h : (j 0).val < 1 := (j 0).isLt; show (j 0).val = 0; omega)
    | ⟨1, _⟩ => rfl
    | ⟨2, _⟩ => rfl
  exact (congrArg _ hj).symm

/-- What point `t` writes back is block `t` of the flat result. -/
theorem flushed_eq (c : Dev nD) (t : Fin cfg0.N) :
    (dats m 0 c).flushed 10 t = ((cfg0.win 10).blk t).view.read (Elt F) (flatK m c) := by
  show (cfg0.win 10).cut (grid0.coords t) ((dats m 0 c).after 10 t) = _
  rw [after_out, state_eq]
  funext j
  rw [View.read_apply, emb_out]
  exact (read_flat m c t j).symm

/-- Every index of the array is in the block of the point of its batch. -/
theorem cover (c : Dev nD) (i : S8x256x4096.Idx) :
    ∃ t : Fin cfg0.N, (cfg0.win 10).flush t = true ∧ i ∈ ((cfg0.win 10).blk t).view.set := by
  have hi : (i 0).val < 8 := (i 0).isLt
  refine ⟨⟨(i 0).val, lt_of_lt_of_eq hi N_0.symm⟩, flush0_10 _, ?_⟩
  have he : ((cfg0.win 10).blk ⟨(i 0).val, lt_of_lt_of_eq hi N_0.symm⟩).view.emb
      (ix3 (n0 := 1) (n1 := 256) (n2 := 4096) 0 (i 1) (i 2)) = i := by
    rw [emb_out]
    funext a
    match a with
    | ⟨0, _⟩ => rfl
    | ⟨1, _⟩ => rfl
    | ⟨2, _⟩ => rfl
  have hmem := View.emb_mem_set (v := ((cfg0.win 10).blk ⟨(i 0).val, lt_of_lt_of_eq hi N_0.symm⟩).view)
    (ix3 (n0 := 1) (n1 := 256) (n2 := 4096) 0 (i 1) (i 2))
  rwa [he] at hmem

/-- The output array after the run. -/
theorem final (c : Dev nD) : (dats m 0 c).arrAt 10 cfg0.N = flatK m c :=
  (dats m 0 c).arrAt_eq_of_cover 10 (flatK m c) (fun t _ => flushed_eq m c t) (cover c)

end Cert.KernelIdeal.Hand

end
-- ==== Proof.RefBlock.lean ====
/-
  The reference's two kernels at one batch element, each as ONE pure function of what its body loads.
  The gate kernel keeps the squeezed activations of each fire stage in a scratch buffer and reads the
  nine lane-shifted slices back out of it (slice t starts at lane (t / 3) * 20 + t % 3); its two
  results are the 256 scales 3 / (1 + exp (-mean)) and the 256 shifts. The second kernel normalises
  each row of the content features by the row's mean and its two-pass variance and applies them.
-/
import proofs.«152265_g2000701298156354_pallasbulk_673_17_alg».proof.Proof.Gen.ReferenceIdeal.Skeleton
import Idealize.ShloMosaic.Lib.Pipeline.FrameBody

noncomputable section

namespace Cert.ReferenceIdeal.Hand

open Idealize.ShloMosaic Idealize.ShloMosaic.TcCoe Cert.ReferenceIdeal Cert.ReferenceIdeal.Gen

variable {F : FTy → Type} [FloatOps F]

/-- Filter tap 0 of a nine-tap stack: the [512, 256] matrix at leading index 0, as a [1, 512, 256] array. -/
abbrev tap0 (W : Vec F S9x512x256 .f32) : Vec F S1x512x256 .f32 :=
  View.ld (Val := Elt F) W (Rect.unit (s := S9x512x256) ![0, 0, 0] S1x512x256.size inb_S9x512x256_S1x512x256_0_0_0)

/-- Lanes 0 .. 0+357 of the first stage's [256, 400] squeezed activations. -/
abbrev s1slice0 (s1 : Vec F S256x400 .f32) : Vec F S256x358 .f32 :=
  View.ld (Val := Elt F) s1 (Rect.unit (s := S256x400) ![0, 0] S256x358.size inb_S256x400_S256x358_0_0)

/-- Lanes 0 .. 0+315 of the second stage's [256, 358] squeezed activations. -/
abbrev s2slice0 (s2 : Vec F S256x358 .f32) : Vec F S256x316 .f32 :=
  View.ld (Val := Elt F) s2 (Rect.unit (s := S256x358) ![0, 0] S256x316.size inb_S256x358_S256x316_0_0)

/-- Filter tap 1 of a nine-tap stack: the [512, 256] matrix at leading index 1, as a [1, 512, 256] array. -/
abbrev tap1 (W : Vec F S9x512x256 .f32) : Vec F S1x512x256 .f32 :=
  View.ld (Val := Elt F) W (Rect.unit (s := S9x512x256) ![1, 0, 0] S1x512x256.size inb_S9x512x256_S1x512x256_1_0_0)

/-- Lanes 1 .. 1+357 of the first stage's [256, 400] squeezed activations. -/
abbrev s1slice1 (s1 : Vec F S256x400 .f32) : Vec F S256x358 .f32 :=
  View.ld (Val := Elt F) s1 (Rect.unit (s := S256x400) ![0, 1] S256x358.size inb_S256x400_S256x358_0_1)

/-- Lanes 1 .. 1+315 of the second stage's [256, 358] squeezed activations. -/
abbrev s2slice1 (s2 : Vec F S256x358 .f32) : Vec F S256x316 .f32 :=
  View.ld (Val := Elt F) s2 (Rect.unit (s := S256x358) ![0, 1] S256x316.size inb_S256x358_S256x316_0_1)

/-- Filter tap 2 of a nine-tap stack: the [512, 256] matrix at leading index 2, as a [1, 512, 256] array. -/
abbrev tap2 (W : Vec F S9x512x256 .f32) : Vec F S1x512x256 .f32 :=
  View.ld (Val := Elt F) W (Rect.unit (s := S9x512x256) ![2, 0, 0] S1x512x256.size inb_S9x512x256_S1x512x256_2_0_0)

/-- Lanes 2 .. 2+357 of the first stage's [256, 400] squeezed activations. -/
abbrev s1slice2 (s1 : Vec F S256x400 .f32) : Vec F S256x358 .f32 :=
  View.ld (Val := Elt F) s1 (Rect.unit (s := S256x400) ![0, 2] S256x358.size inb_S256x400_S256x358_0_2)

/-- Lanes 2 .. 2+315 of the second stage's [256, 358] squeezed activations. -/
abbrev s2slice2 (s2 : Vec F S256x358 .f32) : Vec F S256x316 .f32 :=
  View.ld (Val := Elt F) s2 (Rect.unit (s := S256x358) ![0, 2] S256x316.size inb_S256x358_S256x316_0_2)

/-- Filter tap 3 of a nine-tap stack: the [512, 256] matrix at leading index 3, as a [1, 512, 256] array. -/
abbrev tap3 (W : Vec F S9x512x256 .f32) : Vec F S1x512x256 .f32 :=
  View.ld (Val := Elt F) W (Rect.unit (s := S9x512x256) ![3, 0, 0] S1x512x256.size inb_S9x512x256_S1x512x256_3_0_0)

/-- Lanes 20 .. 20+357 of the first stage's [256, 400] squeezed activations. -/
abbrev s1slice3 (s1 : Vec F S256x400 .f32) : Vec F S256x358 .f32 :=
  View.ld (Val := Elt F) s1 (Rect.unit (s := S256x400) ![0, 20] S256x358.size inb_S256x400_S256x358_0_20)

/-- Lanes 20 .. 20+315 of the second stage's [256, 358] squeezed activations. -/
abbrev s2slice3 (s2 : Vec F S256x358 .f32) : Vec F S256x316 .f32 :=
  View.ld (Val := Elt F) s2 (Rect.unit (s := S256x358) ![0, 20] S256x316.size inb_S256x358_S256x316_0_20)

/-- Filter tap 4 of a nine-tap stack: the [512, 256] matrix at leading index 4, as a [1, 512, 256] array. -/
abbrev tap4 (W : Vec F S9x512x256 .f32) : Vec F S1x512x256 .f32 :=
  View.ld (Val := Elt F) W (Rect.unit (s := S9x512x256) ![4, 0, 0] S1x512x256.size inb_S9x512x256_S1x512x256_4_0_0)

/-- Lanes 21 .. 21+357 of the first stage's [256, 400] squeezed activations. -/
abbrev s1slice4 (s1 : Vec F S256x400 .f32) : Vec F S256x358 .f32 :=
  View.ld (Val := Elt F) s1 (Rect.unit (s := S256x400) ![0, 21] S256x358.size inb_S256x400_S256x358_0_21)

/-- Lanes 21 .. 21+315 of the second stage's [256, 358] squeezed activations. -/
abbrev s2slice4 (s2 : Vec F S256x358 .f32) : Vec F S256x316 .f32 :=
  View.ld (Val := Elt F) s2 (Rect.unit (s := S256x358) ![0, 21] S256x316.size inb_S256x358_S256x316_0_21)

/-- Filter tap 5 of a nine-tap stack: the [512, 256] matrix at leading index 5, as a [1, 512, 256] array. -/
abbrev tap5 (W : Vec F S9x512x256 .f32) : Vec F S1x512x256 .f32 :=
  View.ld (Val := Elt F) W (Rect.unit (s := S9x512x256) ![5, 0, 0] S1x512x256.size inb_S9x512x256_S1x512x256_5_0_0)

/-- Lanes 22 .. 22+357 of the first stage's [256, 400] squeezed activations. -/
abbrev s1slice5 (s1 : Vec F S256x400 .f32) : Vec F S256x358 .f32 :=
  View.ld (Val := Elt F) s1 (Rect.unit (s := S256x400) ![0, 22] S256x358.size inb_S256x400_S256x358_0_22)

/-- Lanes 22 .. 22+315 of the second stage's [256, 358] squeezed activations. -/
abbrev s2slice5 (s2 : Vec F S256x358 .f32) : Vec F S256x316 .f32 :=
  View.ld (Val := Elt F) s2 (Rect.unit (s := S256x358) ![0, 22] S256x316.size inb_S256x358_S256x316_0_22)

/-- Filter tap 6 of a nine-tap stack: the [512, 256] matrix at leading index 6, as a [1, 512, 256] array. -/
abbrev tap6 (W : Vec F S9x512x256 .f32) : Vec F S1x512x256 .f32 :=
  View.ld (Val := Elt F) W (Rect.unit (s := S9x512x256) ![6, 0, 0] S1x512x256.size inb_S9x512x256_S1x512x256_6_0_0)

/-- Lanes 40 .. 40+357 of the first stage's [256, 400] squeezed activations. -/
abbrev s1slice6 (s1 : Vec F S256x400 .f32) : Vec F S256x358 .f32 :=
  View.ld (Val := Elt F) s1 (Rect.unit (s := S256x400) ![0, 40] S256x358.size inb_S256x400_S256x358_0_40)

/-- Lanes 40 .. 40+315 of the second stage's [256, 358] squeezed activations. -/
abbrev s2slice6 (s2 : Vec F S256x358 .f32) : Vec F S256x316 .f32 :=
  View.ld (Val := Elt F) s2 (Rect.unit (s := S256x358) ![0, 40] S256x316.size inb_S256x358_S256x316_0_40)

/-- Filter tap 7 of a nine-tap stack: the [512, 256] matrix at leading index 7, as a [1, 512, 256] array. -/
abbrev tap7 (W : Vec F S9x512x256 .f32) : Vec F S1x512x256 .f32 :=
  View.ld (Val := Elt F) W (Rect.unit (s := S9x512x256) ![7, 0, 0] S1x512x256.size inb_S9x512x256_S1x512x256_7_0_0)

/-- Lanes 41 .. 41+357 of the first stage's [256, 400] squeezed activations. -/
abbrev s1slice7 (s1 : Vec F S256x400 .f32) : Vec F S256x358 .f32 :=
  View.ld (Val := Elt F) s1 (Rect.unit (s := S256x400) ![0, 41] S256x358.size inb_S256x400_S256x358_0_41)

/-- Lanes 41 .. 41+315 of the second stage's [256, 358] squeezed activations. -/
abbrev s2slice7 (s2 : Vec F S256x358 .f32) : Vec F S256x316 .f32 :=
  View.ld (Val := Elt F) s2 (Rect.unit (s := S256x358) ![0, 41] S256x316.size inb_S256x358_S256x316_0_41)

/-- Filter tap 8 of a nine-tap stack: the [512, 256] matrix at leading index 8, as a [1, 512, 256] array. -/
abbrev tap8 (W : Vec F S9x512x256 .f32) : Vec F S1x512x256 .f32 :=
  View.ld (Val := Elt F) W (Rect.unit (s := S9x512x256) ![8, 0, 0] S1x512x256.size inb_S9x512x256_S1x512x256_8_0_0)

/-- Lanes 42 .. 42+357 of the first stage's [256, 400] squeezed activations. -/
abbrev s1slice8 (s1 : Vec F S256x400 .f32) : Vec F S256x358 .f32 :=
  View.ld (Val := Elt F) s1 (Rect.unit (s := S256x400) ![0, 42] S256x358.size inb_S256x400_S256x358_0_42)

/-- Lanes 42 .. 42+315 of the second stage's [256, 358] squeezed activations. -/
abbrev s2slice8 (s2 : Vec F S256x358 .f32) : Vec F S256x316 .f32 :=
  View.ld (Val := Elt F) s2 (Rect.unit (s := S256x358) ![0, 42] S256x316.size inb_S256x358_S256x316_0_42)

/-- The first stage's squeezed activations, as stored in the scratch: [256, 400]. -/
def squeeze1 (zp : Vec F S1x256x400 .f32) (w1sq : Vec F S256x256 .f32) (b1sq : Vec F S256x1 .f32) : FVec F S256x400 .f32 :=
  k0_pay2 zp w1sq b1sq

/-- The first stage's nine-tap accumulator over the stored activations `s1` (before bias): [512, 358],
    and the last tap's matrix, which the next step multiplies. -/
def acc1 (s1 : Vec F S256x400 .f32) (w1ex : Vec F S9x512x256 .f32) : FVec F S512x358 .f32 :=
  k0_pay4 (k0_pay3 (tap0 w1ex) (s1slice0 s1) (tap1 w1ex) (s1slice1 s1) (tap2 w1ex) (s1slice2 s1))
    (tap3 w1ex) (s1slice3 s1) (tap4 w1ex) (s1slice4 s1) (tap5 w1ex) (s1slice5 s1) (tap6 w1ex) (s1slice6 s1) (tap7 w1ex) (s1slice7 s1)

/-- The second stage's squeezed activations, as stored in the scratch: [256, 358]. -/
def squeeze2 (s1 : Vec F S256x400 .f32) (w1ex : Vec F S9x512x256 .f32) (b1ex : Vec F S512x1 .f32)
    (w2sq : Vec F S256x512 .f32) (b2sq : Vec F S256x1 .f32) : FVec F S256x358 .f32 :=
  k0_pay6 (acc1 s1 w1ex) (k0_pay5 (tap8 w1ex)) (s1slice8 s1) b1ex w2sq b2sq

/-- The second stage's accumulator over the stored activations `s2` through tap 7: [512, 316]. -/
def acc2 (s2 : Vec F S256x358 .f32) (w2ex : Vec F S9x512x256 .f32) : FVec F S512x316 .f32 :=
  k0_pay8 (k0_pay7 (tap0 w2ex) (s2slice0 s2) (tap1 w2ex) (s2slice1 s2))
    (tap2 w2ex) (s2slice2 s2) (tap3 w2ex) (s2slice3 s2) (tap4 w2ex) (s2slice4 s2) (tap5 w2ex) (s2slice5 s2) (tap6 w2ex) (s2slice6 s2)

/-- The 256 scales the gate kernel stores (as a [1, 256, 1] block), from the stored second-stage activations. -/
def gammaOf (s2 : Vec F S256x358 .f32) (w2ex : Vec F S9x512x256 .f32) (b2ex : Vec F S512x1 .f32) (mask : Vec F S1x316 .f32) :
    FVec F S1x256x1 .f32 :=
  k0_pay11 (acc2 s2 w2ex) (k0_pay9 (tap7 w2ex)) (s2slice7 s2) (tap8 w2ex) (s2slice8 s2) b2ex mask

/-- The 256 shifts the gate kernel stores (as a [1, 256, 1] block). -/
def betaOf (s2 : Vec F S256x358 .f32) (w2ex : Vec F S9x512x256 .f32) (b2ex : Vec F S512x1 .f32) (mask : Vec F S1x316 .f32) :
    FVec F S1x256x1 .f32 :=
  k0_pay1 (k0_pay12 (acc2 s2 w2ex) (k0_pay9 (tap7 w2ex)) (s2slice7 s2) (tap8 w2ex) (s2slice8 s2) b2ex mask)

/-- The stored second-stage activations as a function of the gate kernel's inputs. -/
def s2Of (zp : Vec F S1x256x400 .f32) (w1sq : Vec F S256x256 .f32) (b1sq : Vec F S256x1 .f32) (w1ex : Vec F S9x512x256 .f32)
    (b1ex : Vec F S512x1 .f32) (w2sq : Vec F S256x512 .f32) (b2sq : Vec F S256x1 .f32) : FVec F S256x358 .f32 :=
  squeeze2 (squeeze1 zp w1sq b1sq) w1ex b1ex w2sq b2sq

/-- The gate kernel's first result block at one batch element. -/
def gammaBlock (zp : Vec F S1x256x400 .f32) (mask : Vec F S1x316 .f32) (w1sq : Vec F S256x256 .f32) (b1sq : Vec F S256x1 .f32)
    (w1ex : Vec F S9x512x256 .f32) (b1ex : Vec F S512x1 .f32) (w2sq : Vec F S256x512 .f32) (b2sq : Vec F S256x1 .f32)
    (w2ex : Vec F S9x512x256 .f32) (b2ex : Vec F S512x1 .f32) : FVec F S1x256x1 .f32 :=
  gammaOf (s2Of zp w1sq b1sq w1ex b1ex w2sq b2sq) w2ex b2ex mask

/-- The gate kernel's second result block at one batch element. -/
def betaBlock (zp : Vec F S1x256x400 .f32) (mask : Vec F S1x316 .f32) (w1sq : Vec F S256x256 .f32) (b1sq : Vec F S256x1 .f32)
    (w1ex : Vec F S9x512x256 .f32) (b1ex : Vec F S512x1 .f32) (w2sq : Vec F S256x512 .f32) (b2sq : Vec F S256x1 .f32)
    (w2ex : Vec F S9x512x256 .f32) (b2ex : Vec F S512x1 .f32) : FVec F S1x256x1 .f32 :=
  betaOf (s2Of zp w1sq b1sq w1ex b1ex w2sq b2sq) w2ex b2ex mask

/-- The normalising kernel's block at one batch element. -/
def normBlock (x : Vec F S1x256x4096 .f32) (gamma beta : Vec F S1x256x1 .f32) : FVec F S1x256x4096 .f32 :=
  k1_pay1 x gamma beta

end Cert.ReferenceIdeal.Hand

end
-- ==== Proof.RefSpec.lean ====
/-
  The reference's result as one function of its ten arguments. The style input is reflect-padded by two
  rows and two columns on each side and flattened to [8, 256, 400]; batch element b's block of it, with
  the eight weight arrays and the validity mask of the over-wide grid, gives that element's 256 scales
  and 256 shifts; the content features, flattened to [8, 256, 4096], are normalised row by row with
  them; the result is that flat array reshaped to [8, 256, 64, 64].
-/
import proofs.«152265_g2000701298156354_pallasbulk_673_17_alg».proof.Proof.RefBlock
import Idealize.ShloMosaic.Lib.ValueIdx

noncomputable section

namespace Cert.ReferenceIdeal.Hand

open Idealize.ShloMosaic Idealize.ShloMosaic.TcCoe Idealize.ShloMosaic.ValueIdx Cert.ReferenceIdeal Cert.ReferenceIdeal.Gen

variable {F : FTy → Type} [FloatOps F]

/-- Two mirrored rows put above the [16, 16] planes: rows 2, 1 of the input, then the input. -/
def padTop (z : Vec F S8x256x16x16 .f32) : Vec F S8x256x18x16 .f32 :=
  concatenate S8x256x18x16 2 [⟨S8x256x2x16, Host.reverse [2] (extractStridedSlice S8x256x2x16 ![0, 0, 1, 0] z slices_S8x256x16x16_S8x256x2x16_0_0_1_0)⟩, ⟨S8x256x16x16, z⟩] concatenates_S8x256x2x16_S8x256x16x16_S8x256x18x16_d2

/-- And two mirrored rows below. -/
def padRows (z : Vec F S8x256x16x16 .f32) : Vec F S8x256x20x16 .f32 :=
  concatenate S8x256x20x16 2 [⟨S8x256x18x16, padTop z⟩, ⟨S8x256x2x16, Host.reverse [2] (extractStridedSlice S8x256x2x16 ![0, 0, 15, 0] (padTop z) slices_S8x256x18x16_S8x256x2x16_0_0_15_0)⟩] concatenates_S8x256x18x16_S8x256x2x16_S8x256x20x16_d2

/-- Two mirrored columns on the left. -/
def padLeft (z : Vec F S8x256x16x16 .f32) : Vec F S8x256x20x18 .f32 :=
  concatenate S8x256x20x18 3 [⟨S8x256x20x2, Host.reverse [3] (extractStridedSlice S8x256x20x2 ![0, 0, 0, 1] (padRows z) slices_S8x256x20x16_S8x256x20x2_0_0_0_1)⟩, ⟨S8x256x20x16, padRows z⟩] concatenates_S8x256x20x2_S8x256x20x16_S8x256x20x18_d3

/-- The reflect-padded style input, [8, 256, 20, 20]. -/
def padded (z : Vec F S8x256x16x16 .f32) : Vec F S8x256x20x20 .f32 :=
  concatenate S8x256x20x20 3 [⟨S8x256x20x18, padLeft z⟩, ⟨S8x256x20x2, Host.reverse [3] (extractStridedSlice S8x256x20x2 ![0, 0, 0, 15] (padLeft z) slices_S8x256x20x18_S8x256x20x2_0_0_0_15)⟩] concatenates_S8x256x20x18_S8x256x20x2_S8x256x20x20_d3

/-- The padded style input with each plane flattened row-major: [8, 256, 400]. -/
def zpadded (z : Vec F S8x256x16x16 .f32) : Vec F S8x256x400 .f32 :=
  shapeCast S8x256x400 (padded z) shapeCasts_S8x256x20x20_S8x256x400

/-- The validity mask of the over-wide second grid, as a [1, 316] row: the literal table reshaped. -/
def maskArr : Vec F S1x316 .f32 :=
  shapeCast S1x316 (fun i : S316.Idx => (FloatOps.ofBits .f32 (lit0 (S316.rowMajor i)) : Elt F .f32)) shapeCasts_S316_S1x316

/-- The content features with each plane flattened row-major: [8, 256, 4096]. -/
def xflat (x : Vec F S8x256x64x64 .f32) : Vec F S8x256x4096 .f32 :=
  shapeCast S8x256x4096 x shapeCasts_S8x256x64x64_S8x256x4096

/-- Batch element `b` of an [8, 256, 400] array, as a [1, 256, 400] block. -/
def zpBlock (zp : Vec F S8x256x400 .f32) (b : Fin 8) : Vec F S1x256x400 .f32 := fun y => zp (ix3 b (y 1) (y 2))

/-- Batch element `b` of an [8, 256, 4096] array, as a [1, 256, 4096] block. -/
def xBlock (xf : Vec F S8x256x4096 .f32) (b : Fin 8) : Vec F S1x256x4096 .f32 := fun y => xf (ix3 b (y 1) (y 2))

/-- Batch element `b` of an [8, 256, 1] array, as a [1, 256, 1] block. -/
def colBlock (g : Vec F S8x256x1 .f32) (b : Fin 8) : Vec F S1x256x1 .f32 := fun y => g (ix3 b (y 1) (y 2))

/-- The 8 × 256 scales: entry (b, ch, 0) is the gate's first result block of batch element b at (0, ch, 0). -/
def gammaArr (zp : Vec F S8x256x400 .f32) (mask : Vec F S1x316 .f32) (w1sq : Vec F S256x256 .f32) (b1sq : Vec F S256x1 .f32)
    (w1ex : Vec F S9x512x256 .f32) (b1ex : Vec F S512x1 .f32) (w2sq : Vec F S256x512 .f32) (b2sq : Vec F S256x1 .f32)
    (w2ex : Vec F S9x512x256 .f32) (b2ex : Vec F S512x1 .f32) : Vec F S8x256x1 .f32 :=
  fun i => gammaBlock (zpBlock zp (i 0)) mask w1sq b1sq w1ex b1ex w2sq b2sq w2ex b2ex (ix3 0 (i 1) (i 2))

/-- The 8 × 256 shifts, likewise from the gate's second result block. -/
def betaArr (zp : Vec F S8x256x400 .f32) (mask : Vec F S1x316 .f32) (w1sq : Vec F S256x256 .f32) (b1sq : Vec F S256x1 .f32)
    (w1ex : Vec F S9x512x256 .f32) (b1ex : Vec F S512x1 .f32) (w2sq : Vec F S256x512 .f32) (b2sq : Vec F S256x1 .f32)
    (w2ex : Vec F S9x512x256 .f32) (b2ex : Vec F S512x1 .f32) : Vec F S8x256x1 .f32 :=
  fun i => betaBlock (zpBlock zp (i 0)) mask w1sq b1sq w1ex b1ex w2sq b2sq w2ex b2ex (ix3 0 (i 1) (i 2))

/-- The normalised features from flat features and [8, 256, 1] scales and shifts: entry (b, ch, p) is the
    normalising block of batch element b at (0, ch, p). -/
def normArr (xf : Vec F S8x256x4096 .f32) (g bt : Vec F S8x256x1 .f32) : Vec F S8x256x4096 .f32 :=
  fun i => normBlock (xBlock xf (i 0)) (colBlock g (i 0)) (colBlock bt (i 0)) (ix3 0 (i 1) (i 2))

/-- The flat [8, 256, 4096] result: entry (b, ch, p) is the normalising block of x's batch element b with the
    gate's two result blocks of the padded style input's batch element b, read at (0, ch, p). -/
def flatOf (x : Vec F S8x256x64x64 .f32) (z : Vec F S8x256x16x16 .f32) (w1sq : Vec F S256x256 .f32) (b1sq : Vec F S256x1 .f32)
    (w1ex : Vec F S9x512x256 .f32) (b1ex : Vec F S512x1 .f32) (w2sq : Vec F S256x512 .f32) (b2sq : Vec F S256x1 .f32)
    (w2ex : Vec F S9x512x256 .f32) (b2ex : Vec F S512x1 .f32) : Vec F S8x256x4096 .f32 :=
  fun i => normBlock (xBlock (xflat x) (i 0))
    (gammaBlock (zpBlock (zpadded z) (i 0)) maskArr w1sq b1sq w1ex b1ex w2sq b2sq w2ex b2ex)
    (betaBlock (zpBlock (zpadded z) (i 0)) maskArr w1sq b1sq w1ex b1ex w2sq b2sq w2ex b2ex) (ix3 0 (i 1) (i 2))

/-- The reference's result, [8, 256, 64, 64]. -/
def resultOf (x : Vec F S8x256x64x64 .f32) (z : Vec F S8x256x16x16 .f32) (w1sq : Vec F S256x256 .f32) (b1sq : Vec F S256x1 .f32)
    (w1ex : Vec F S9x512x256 .f32) (b1ex : Vec F S512x1 .f32) (w2sq : Vec F S256x512 .f32) (b2sq : Vec F S256x1 .f32)
    (w2ex : Vec F S9x512x256 .f32) (b2ex : Vec F S512x1 .f32) : Vec F S8x256x64x64 .f32 :=
  shapeCast S8x256x64x64 (flatOf x z w1sq b1sq w1ex b1ex w2sq b2sq w2ex b2ex) shapeCasts_S8x256x4096_S8x256x64x64

/-- A block of the scales array is the gate's block (a [1, 256, 1] block read back through its own indices). -/
theorem colBlock_gammaArr (zp : Vec F S8x256x400 .f32) (mask : Vec F S1x316 .f32) (w1sq : Vec F S256x256 .f32) (b1sq : Vec F S256x1 .f32)
    (w1ex : Vec F S9x512x256 .f32) (b1ex : Vec F S512x1 .f32) (w2sq : Vec F S256x512 .f32) (b2sq : Vec F S256x1 .f32)
    (w2ex : Vec F S9x512x256 .f32) (b2ex : Vec F S512x1 .f32) (b : Fin 8) :
    colBlock (gammaArr zp mask w1sq b1sq w1ex b1ex w2sq b2sq w2ex b2ex) b = gammaBlock (zpBlock zp b) mask w1sq b1sq w1ex b1ex w2sq b2sq w2ex b2ex := by
  funext y
  show gammaBlock (zpBlock zp b) mask w1sq b1sq w1ex b1ex w2sq b2sq w2ex b2ex (ix3 0 (y 1) (y 2)) = _
  congr 1
  funext a
  match a with
  | ⟨0, _⟩ => exact (Subsingleton.elim (α := Fin 1) _ _)
  | ⟨1, _⟩ => rfl
  | ⟨2, _⟩ => rfl

theorem colBlock_betaArr (zp : Vec F S8x256x400 .f32) (mask : Vec F S1x316 .f32) (w1sq : Vec F S256x256 .f32) (b1sq : Vec F S256x1 .f32)
    (w1ex : Vec F S9x512x256 .f32) (b1ex : Vec F S512x1 .f32) (w2sq : Vec F S256x512 .f32) (b2sq : Vec F S256x1 .f32)
    (w2ex : Vec F S9x512x256 .f32) (b2ex : Vec F S512x1 .f32) (b : Fin 8) :
    colBlock (betaArr zp mask w1sq b1sq w1ex b1ex w2sq b2sq w2ex b2ex) b = betaBlock (zpBlock zp b) mask w1sq b1sq w1ex b1ex w2sq b2sq w2ex b2ex := by
  funext y
  show betaBlock (zpBlock zp b) mask w1sq b1sq w1ex b1ex w2sq b2sq w2ex b2ex (ix3 0 (y 1) (y 2)) = _
  congr 1
  funext a
  match a with
  | ⟨0, _⟩ => exact (Subsingleton.elim (α := Fin 1) _ _)
  | ⟨1, _⟩ => rfl
  | ⟨2, _⟩ => rfl

/-- So normalising with the two gate arrays is the flat result. -/
theorem normArr_gate (x : Vec F S8x256x64x64 .f32) (z : Vec F S8x256x16x16 .f32) (w1sq : Vec F S256x256 .f32) (b1sq : Vec F S256x1 .f32)
    (w1ex : Vec F S9x512x256 .f32) (b1ex : Vec F S512x1 .f32) (w2sq : Vec F S256x512 .f32) (b2sq : Vec F S256x1 .f32)
    (w2ex : Vec F S9x512x256 .f32) (b2ex : Vec F S512x1 .f32) :
    normArr (xflat x) (gammaArr (zpadded z) maskArr w1sq b1sq w1ex b1ex w2sq b2sq w2ex b2ex) (betaArr (zpadded z) maskArr w1sq b1sq w1ex b1ex w2sq b2sq w2ex b2ex)
      = flatOf x z w1sq b1sq w1ex b1ex w2sq b2sq w2ex b2ex := by
  funext i
  have hg := colBlock_gammaArr (zpadded z) (maskArr (F := F)) w1sq b1sq w1ex b1ex w2sq b2sq w2ex b2ex (i 0)
  have hb := colBlock_betaArr (zpadded z) (maskArr (F := F)) w1sq b1sq w1ex b1ex w2sq b2sq w2ex b2ex (i 0)
  show normBlock (xBlock (xflat x) (i 0)) (colBlock (gammaArr (zpadded z) maskArr w1sq b1sq w1ex b1ex w2sq b2sq w2ex b2ex) (i 0))
      (colBlock (betaArr (zpadded z) maskArr w1sq b1sq w1ex b1ex w2sq b2sq w2ex b2ex) (i 0)) (ix3 0 (i 1) (i 2))
    = normBlock (xBlock (xflat x) (i 0)) (gammaBlock (zpBlock (zpadded z) (i 0)) maskArr w1sq b1sq w1ex b1ex w2sq b2sq w2ex b2ex)
      (betaBlock (zpBlock (zpadded z) (i 0)) maskArr w1sq b1sq w1ex b1ex w2sq b2sq w2ex b2ex) (ix3 0 (i 1) (i 2))
  exact congrFun (congrArg₂ (normBlock (xBlock (xflat x) (i 0))) hg hb) (ix3 0 (i 1) (i 2))

/-- The normalised array at an index of batch element `b`, channel and position as in the block index `j`. -/
theorem normArr_apply (xf : Vec F S8x256x4096 .f32) (g bt : Vec F S8x256x1 .f32) (i : S8x256x4096.Idx) (b : Fin 8) (j : S1x256x4096.Idx)
    (h0 : (i 0).val = b.val) (h1 : (i 1).val = (j 1).val) (h2 : (i 2).val = (j 2).val) :
    normArr xf g bt i = normBlock (xBlock xf b) (colBlock g b) (colBlock bt b) j := by
  have e0 : (i 0 : Fin 8) = b := Fin.ext h0
  have ej : ix3 (0 : Fin 1) (i 1 : Fin 256) (i 2 : Fin 4096) = j := by
    funext a
    match a with
    | ⟨0, _⟩ => exact Subsingleton.elim (α := Fin 1) _ _
    | ⟨1, _⟩ => exact Fin.ext h1
    | ⟨2, _⟩ => exact Fin.ext h2
  show normBlock (xBlock xf (i 0)) (colBlock g (i 0)) (colBlock bt (i 0)) (ix3 0 (i 1) (i 2)) = _
  rw [e0]
  exact congrArg (normBlock (xBlock xf b) (colBlock g b) (colBlock bt b)) ej

/-- The scales array at an index of batch element `b`. -/
theorem gammaArr_apply (zp : Vec F S8x256x400 .f32) (mask : Vec F S1x316 .f32) (w1sq : Vec F S256x256 .f32) (b1sq : Vec F S256x1 .f32)
    (w1ex : Vec F S9x512x256 .f32) (b1ex : Vec F S512x1 .f32) (w2sq : Vec F S256x512 .f32) (b2sq : Vec F S256x1 .f32)
    (w2ex : Vec F S9x512x256 .f32) (b2ex : Vec F S512x1 .f32) (i : S8x256x1.Idx) (b : Fin 8) (j : S1x256x1.Idx)
    (h0 : (i 0).val = b.val) (h1 : (i 1).val = (j 1).val) :
    gammaArr zp mask w1sq b1sq w1ex b1ex w2sq b2sq w2ex b2ex i = gammaBlock (zpBlock zp b) mask w1sq b1sq w1ex b1ex w2sq b2sq w2ex b2ex j := by
  have e0 : (i 0 : Fin 8) = b := Fin.ext h0
  have ej : ix3 (0 : Fin 1) (i 1 : Fin 256) (i 2 : Fin 1) = j := by
    funext a
    match a with
    | ⟨0, _⟩ => exact Subsingleton.elim (α := Fin 1) _ _
    | ⟨1, _⟩ => exact Fin.ext h1
    | ⟨2, _⟩ => exact Subsingleton.elim (α := Fin 1) _ _
  show gammaBlock (zpBlock zp (i 0)) mask w1sq b1sq w1ex b1ex w2sq b2sq w2ex b2ex (ix3 0 (i 1) (i 2)) = _
  rw [e0]
  exact congrArg (gammaBlock (zpBlock zp b) mask w1sq b1sq w1ex b1ex w2sq b2sq w2ex b2ex) ej

/-- The shifts array at an index of batch element `b`. -/
theorem betaArr_apply (zp : Vec F S8x256x400 .f32) (mask : Vec F S1x316 .f32) (w1sq : Vec F S256x256 .f32) (b1sq : Vec F S256x1 .f32)
    (w1ex : Vec F S9x512x256 .f32) (b1ex : Vec F S512x1 .f32) (w2sq : Vec F S256x512 .f32) (b2sq : Vec F S256x1 .f32)
    (w2ex : Vec F S9x512x256 .f32) (b2ex : Vec F S512x1 .f32) (i : S8x256x1.Idx) (b : Fin 8) (j : S1x256x1.Idx)
    (h0 : (i 0).val = b.val) (h1 : (i 1).val = (j 1).val) :
    betaArr zp mask w1sq b1sq w1ex b1ex w2sq b2sq w2ex b2ex i = betaBlock (zpBlock zp b) mask w1sq b1sq w1ex b1ex w2sq b2sq w2ex b2ex j := by
  have e0 : (i 0 : Fin 8) = b := Fin.ext h0
  have ej : ix3 (0 : Fin 1) (i 1 : Fin 256) (i 2 : Fin 1) = j := by
    funext a
    match a with
    | ⟨0, _⟩ => exact Subsingleton.elim (α := Fin 1) _ _
    | ⟨1, _⟩ => exact Fin.ext h1
    | ⟨2, _⟩ => exact Subsingleton.elim (α := Fin 1) _ _
  show betaBlock (zpBlock zp (i 0)) mask w1sq b1sq w1ex b1ex w2sq b2sq w2ex b2ex (ix3 0 (i 1) (i 2)) = _
  rw [e0]
  exact congrArg (betaBlock (zpBlock zp b) mask w1sq b1sq w1ex b1ex w2sq b2sq w2ex b2ex) ej

end Cert.ReferenceIdeal.Hand

end
-- ==== Proof.KernelHost.lean ====
/-
  The host side of the fused program, read at the ideal instance. Before its one kernel launch the
  program reflect-pads the style input by two rows and two columns on each side (slice, reverse,
  concatenate, four times over), flattens each padded plane to 400 lanes and narrows it to bf16 —
  on the extended reals the identity — and flattens each plane of the content features to 4096
  lanes; after the launch it reshapes the flat result back to planes. So the launch finds the padded,
  flattened style input and the flattened content features, both as the reference forms them, and
  the program's result is the launch's output array reshaped.
-/
import proofs.«152265_g2000701298156354_pallasbulk_673_17_alg».proof.Proof.Gen.KernelIdeal.Frame
import proofs.«152265_g2000701298156354_pallasbulk_673_17_alg».proof.Proof.RefSpec

set_option maxRecDepth 16384

noncomputable section

namespace Cert.KernelIdeal.Hand

open Idealize.ShloMosaic Idealize.ShloMosaic.TcCoe Idealize.ShloMosaic.StableHlo Idealize.SL.Sem
open Cert.KernelIdeal Cert.KernelIdeal.Gen

section AnyInstance

variable {F : FTy → Type} [FloatOps F] (m : (ℓ : Loc nD τ sig) → Buf (Elt F) ℓ)

/-- At any float instance: the launch's padded style operand is the reflect-padded, flattened style input, narrowed
    to bf16. -/
theorem zp_value_narrowed (c : Dev nD) :
    (Gen.V m c main_v2 : Vec F S8x256x400 .bf16)
      = truncf .bf16 (Cert.ReferenceIdeal.Hand.zpadded (m ((c : Thread nD τ).loc main_arg1)) : FVec F S8x256x400 .f32)
          bitsLt_bf16_f32 := by
  dsimp only [Gen.V, Gen.V0]
  simp only [Gen.hostOps0, Gen.hostOps0_1, Gen.hostOps0_2, List.flatten_cons, List.flatten_nil, List.append_nil,
    List.cons_append, List.nil_append]
  after_results
  simp only [TRef.toBuf, TRef.ofBuf, cast_cast, cast_eq]
  rfl

end AnyInstance

variable (m : (ℓ : Loc nD τ sig) → Buf (Elt Ideal) ℓ)

/-- The launch finds, as its padded style operand, the reflect-padded and flattened style input: on the extended
    reals the narrowing to bf16 is the identity. -/
theorem zp_value (c : Dev nD) :
    (Gen.V m c main_v2 : S8x256x400.Idx → EReal)
      = Cert.ReferenceIdeal.Hand.zpadded (F := Ideal) (m ((c : Thread nD τ).loc main_arg1)) :=
  zp_value_narrowed m c

/-- The launch finds, as its content operand, the content features with each plane flattened. -/
theorem x_value (c : Dev nD) :
    (Gen.V m c main_v3 : S8x256x4096.Idx → EReal)
      = Cert.ReferenceIdeal.Hand.xflat (F := Ideal) (m ((c : Thread nD τ).loc main_arg0)) := by
  dsimp only [Gen.V, Gen.V0]
  simp only [Gen.hostOps0, Gen.hostOps0_1, Gen.hostOps0_2, List.flatten_cons, List.flatten_nil, List.append_nil,
    List.cons_append, List.nil_append]
  after_results
  rfl

/-- The program's result is the launch's output array (window 10), reshaped from flat planes back to 64 x 64 planes:
    the one host operation after the launch is that reshape, and the launch leaves its output array in the buffer the
    reshape reads. -/
theorem tail_value (c : Dev nD) :
    (Pipeline.afterTail₀ cfgs (Gen.dats m) 0 (Gen.V0 m) [Gen.hostOps1] c main_v5 : S8x256x64x64.Idx → EReal)
      = shapeCast S8x256x64x64 ((Gen.dats m 0 c).arrAt 10 cfg0.N : S8x256x4096.Idx → EReal)
          shapeCasts_S8x256x4096_S8x256x64x64 := by
  unfold Pipeline.afterTail₀
  show StableHlo.after Gen.hostOps1 _ (Proc.devRef .tc main_v5) = _
  after_results
  have e : Pipeline.withArrays (cfgs 0).spec c (V0 m c) (fun w => (dats m 0 c).arrAt w (cfgs 0).N) (Proc.devRef .tc main_v4)
      = (dats m 0 c).arrAt 10 cfg0.N :=
    Pipeline.withArrays_arr spec0 launch0.win.arr_inj c _ _ 10
  rw [e]
  rfl

end Cert.KernelIdeal.Hand

end
-- ==== Proof.BridgeLayout.lean ====
/-
  Index arithmetic for two-dimensional blocks: a lane sum kept as a column is the sum along the
  row; a column broadcast along the lanes reads the row's entry; a row broadcast down the rows
  reads the lane's entry; and reading a stored array back through a unit-stride rectangle is the
  same function as slicing the value at the rectangle's offsets.
-/
import Idealize.ShloMosaic.PureOps.Ideal.Laws
import Idealize.ShloMosaic.Lib.ValueIdx
import Idealize.ShloMosaic.Lib.Pipeline.Value
import Idealize.ShloMosaic.Lib.Pipeline.FrameBody

noncomputable section

namespace Cert.Bridge

open Idealize.ShloMosaic Idealize.ShloMosaic.ValueIdx
open scoped BigOperators

/-- A column `[a, 1]` broadcast to `[a, b]` reads, at row `r` and any lane, the column's entry of row `r`. -/
theorem broadcastTo_col_apply {α : Type} {a b : Nat} (v : (⟨2, ![a, 1]⟩ : Shape).Idx → α)
    (h : (⟨2, ![a, 1]⟩ : Shape).Broadcasts ⟨2, ![a, b]⟩) (r : Fin a) (l : Fin b) :
    broadcastTo ⟨2, ![a, b]⟩ v h (ix2 r l) = v (ix2 r (0 : Fin 1)) := by
  refine broadcastTo_apply v h (ix2 r l) (ix2 r (0 : Fin 1)) fun x => ?_
  match x with
  | ⟨0, _⟩ =>
    have := r.isLt
    show r.val = if a = 1 then 0 else r.val
    split <;> omega
  | ⟨1, _⟩ => rfl

/-- A row `[1, b]` broadcast to `[a, b]` reads, at any row and lane `l`, the row's entry of lane `l`. -/
theorem broadcastTo_row_apply {α : Type} {a b : Nat} (v : (⟨2, ![1, b]⟩ : Shape).Idx → α)
    (h : (⟨2, ![1, b]⟩ : Shape).Broadcasts ⟨2, ![a, b]⟩) (r : Fin a) (l : Fin b) :
    broadcastTo ⟨2, ![a, b]⟩ v h (ix2 r l) = v (ix2 (0 : Fin 1) l) := by
  refine broadcastTo_apply v h (ix2 r l) (ix2 (0 : Fin 1) l) fun x => ?_
  match x with
  | ⟨0, _⟩ => rfl
  | ⟨1, _⟩ =>
    have := l.isLt
    show l.val = if b = 1 then 0 else l.val
    split <;> omega

/-- The sum of a `[m, n]` block along its lanes, kept as a column `[m, 1]`, is at row `r` the sum over the
    lanes of the block's row `r`. -/
theorem rowSum_apply {m n : Nat} (X : FVec Ideal ⟨2, ![m, n]⟩ .f32)
    (h : (⟨2, ![m, n]⟩ : Shape).Reduces [1] ⟨1, ![m]⟩) (hφ : FKind.Formats .f32)
    (hacc : (0x00000000#32 : BitVec 32) = FKind.add.neutral .f32 hφ)
    (hc : (⟨1, ![m]⟩ : Shape).ShapeCasts ⟨2, ![m, 1]⟩) (r : Fin m) (z : Fin 1) :
    shapeCast ⟨2, ![m, 1]⟩ (multiReduction .add [1] ⟨1, ![m]⟩ X 0x00000000#32 h hφ hacc) hc (ix2 r z)
      = ∑ k : Fin n, X (ix2 r k) := by
  refine (shapeCast_apply _ hc (ix2 r z) (ix1 r) ?_).trans ?_
  · rw [Shape.rowMajor_val_one, Shape.rowMajor_val_two]
    have := z.isLt
    show r.val = r.val * 1 + z.val
    omega
  · refine (Ideal.multiReduction_add_single X _ h hφ hacc (ix1 r)).trans ?_
    exact Finset.sum_congr rfl fun k _ => congrArg X (funext fun a => Fin.ext (by
      match a with
      | ⟨0, _⟩ => rfl
      | ⟨1, _⟩ => rfl))

/-- Reading a `[m, n]` array through the unit-stride rectangle of sizes `[m', n']` at offsets `off` is slicing
    it there: both read the array at (offset + coordinate) on each axis. -/
theorem ld_unit_eq_slice {α : Type} {m n m' n' : Nat} (s : (⟨2, ![m, n]⟩ : Shape).Idx → α) (off : Fin 2 → Nat)
    (inb : ∀ a, off a + (⟨2, ![m', n']⟩ : Shape).size a ≤ (⟨2, ![m, n]⟩ : Shape).size a)
    (h : (⟨2, ![m, n]⟩ : Shape).Slices off ⟨2, ![m', n']⟩) (y : (⟨2, ![m', n']⟩ : Shape).Idx) :
    s ((Rect.unit (s := ⟨2, ![m, n]⟩) off (⟨2, ![m', n']⟩ : Shape).size inb).idx y)
      = extractStridedSlice ⟨2, ![m', n']⟩ off s h y := by
  unfold extractStridedSlice
  refine congrArg s (funext fun a => Fin.ext ?_)
  show off a + 1 * (y a).val = off a + (y a).val
  rw [Nat.one_mul]

end Cert.Bridge

end
-- ==== Proof.BridgeMask.lean ====
/-
  The column mask of the over-wide second-stage grid, three ways.

  The second fire stage is computed on 316 lanes laid out in rows of 20, of which the first 16 of
  each row are valid pixels. The fused kernel builds the 0/1 mask in place: lane number, remainder
  by 20 (signed), "below 16" as a bit, widened to a word and converted to a float. The reference
  reads a literal table of 316 words. Both are the function "1 if lane mod 20 < 16, else 0".
-/
import proofs.«152265_g2000701298156354_pallasbulk_673_17_alg».proof.ReferenceIdeal
import Idealize.ShloMosaic.Lib.ValueIdx
import Idealize.ShloMosaic.Lib.Pipeline.Value
import Idealize.ShloMosaic.Lib.Decide
import Idealize.ShloMosaic.PureOps.Ideal.Laws

noncomputable section

namespace Cert.Bridge

open Idealize.ShloMosaic Idealize.ShloMosaic.ValueIdx

/-- The fused kernel's mask bit of a lane: is the signed remainder of the lane number by 20 below 16? -/
def laneBit (j : Fin 316) : BitVec 1 :=
  IntOp.cmpi .slt (IntOp.remsi .vector (BitVec.ofNat 32 j.val) 20#32) 16#32

/-- On the 316 lanes the bit is 1 exactly on the first 16 lanes of each row of 20. -/
theorem laneBit_eq : ∀ j : Fin 316, laneBit j = if j.val % 20 < 16 then 1#1 else 0#1 := by
  decide

/-- The literal table holds the word 1.0 on the first 16 lanes of each row of 20 and the word 0.0 elsewhere. -/
theorem lit0_eq : ∀ j : Fin 316,
    Cert.ReferenceIdeal.lit0 j = if j.val % 20 < 16 then 0x3F800000#32 else 0x00000000#32 := by
  decide

/-- A mask bit widened to a word and converted to a float is the extended real 1 or 0. -/
theorem sitofp_bit (b : BitVec 1) :
    (FloatOps.sitofp (F := Ideal) .f32 (b.setWidth 32) : EReal) = if b = 1#1 then 1 else 0 := by
  show ((((b.setWidth 32).toInt : ℤ) : ℝ) : EReal) = _
  rcases BitVec.eq_zero_or_eq_one b with h | h <;> subst h
  · have : ((0#1 : BitVec 1).setWidth 32).toInt = 0 := by decide
    rw [this]; simp
  · have : ((1#1 : BitVec 1).setWidth 32).toInt = 1 := by decide
    rw [this]; simp

/-- `mask_table`: each word of the reference's literal table denotes 1 on a valid lane and 0 on the others. -/
theorem mask_table (j : Fin 316) :
    Ideal.ofBits .f32 (Cert.ReferenceIdeal.lit0 j) = if j.val % 20 < 16 then 1 else 0 := by
  rw [lit0_eq j]
  split
  · exact IdealRules.sign_bit.ideal_onePat .f32
  · exact Ideal.ofBits_zero_f32

/-- The fused kernel's mask vector at lane `j`: 1 on a valid lane and 0 on the others. -/
theorem kernel_mask_apply (h1 : (⟨2, ![1, 316]⟩ : Shape).Iotas .tc 32 [1]) (h2 : 1 < 32) (z : Fin 1) (j : Fin 316) :
    (sitofp .f32 (extui 32 (cmpi .slt (remsi (iota .tc ⟨2, ![1, 316]⟩ 32 [1] h1) (broadcast ⟨2, ![1, 316]⟩ 20#32))
        (broadcast ⟨2, ![1, 316]⟩ 16#32)) h2) : FVec Ideal ⟨2, ![1, 316]⟩ .f32) (ix2 z j)
      = if j.val % 20 < 16 then 1 else 0 := by
  have hi : iota .tc ⟨2, ![1, 316]⟩ 32 [1] h1 (ix2 z j) = BitVec.ofNat 32 j.val :=
    iota_single_apply .tc ⟨2, ![1, 316]⟩ 32 1 h1 (ix2 z j)
  show (FloatOps.sitofp (F := Ideal) .f32
      ((IntOp.cmpi .slt (IntOp.remsi .vector (iota .tc ⟨2, ![1, 316]⟩ 32 [1] h1 (ix2 z j)) 20#32) 16#32).setWidth 32) : EReal) = _
  rw [hi]
  show (FloatOps.sitofp (F := Ideal) .f32 ((laneBit j).setWidth 32) : EReal) = _
  rw [sitofp_bit, laneBit_eq j]
  split <;> simp

/-- The fused kernel's mask vector is any `[1, 316]` mask that is 1 on the valid lanes and 0 on the others. -/
theorem kernel_mask_eq (mask : (⟨2, ![1, 316]⟩ : Shape).Idx → EReal)
    (hmask : ∀ j : Fin 316, mask (ix2 (0 : Fin 1) j) = if j.val % 20 < 16 then 1 else 0)
    (h1 : (⟨2, ![1, 316]⟩ : Shape).Iotas .tc 32 [1]) (h2 : 1 < 32) :
    (sitofp .f32 (extui 32 (cmpi .slt (remsi (iota .tc ⟨2, ![1, 316]⟩ 32 [1] h1) (broadcast ⟨2, ![1, 316]⟩ 20#32))
        (broadcast ⟨2, ![1, 316]⟩ 16#32)) h2) : FVec Ideal ⟨2, ![1, 316]⟩ .f32) = mask := by
  funext i
  obtain ⟨z, j, rfl⟩ : ∃ (z : Fin 1) (j : Fin 316), i = ix2 z j := ⟨i 0, i 1, eq_ix2 i⟩
  obtain rfl : z = 0 := Subsingleton.elim _ _
  rw [kernel_mask_apply]
  exact (hmask j).symm

end Cert.Bridge

end
-- ==== Proof.LibVariance.lean ====
/-
  The variance of finitely many real numbers, computed in one pass and in two, on the extended reals.

  For real data `a i` over a finite index type with `n` elements (`n ≠ 0`) and `c = 1 / n`:

    (∑ a i ²) · c − ((∑ a i) · c)²  =  (∑ (a i − (∑ a) / n)²) / n.

  The left side is the "mean of squares minus square of the mean", the right side the mean of the
  squared deviations from the mean. The identity is distributivity, so it is a statement about real
  numbers: on the extended reals `x · (a + b) = x · a + x · b` fails at the infinities. It is stated
  here for extended-real data every entry of which is (the coercion of) a real, with the division
  the ideal float division `Ideal.div` and the scaling a product with `c`: the two forms in which
  a fused and an unfused normalisation kernel compute a row's variance. Also here: a finite sum of
  coerced reals is the coerced sum; a product with `1 / n` is the ideal quotient by `n` at every
  extended real; and the two f32 words `2⁻¹²` and `4096` as the reals they denote.
-/
import Idealize.ShloMosaic.PureOps.Ideal

noncomputable section

namespace Idealize.ShloMosaic.Variance

open scoped BigOperators

/-- A finite sum of coerced reals is the coercion of the real sum. -/
theorem coe_sum {ι : Type*} (s : Finset ι) (a : ι → ℝ) :
    ∑ i ∈ s, ((a i : ℝ) : EReal) = ((∑ i ∈ s, a i : ℝ) : EReal) := by
  classical
  induction s using Finset.induction_on with
  | empty => simp
  | insert i s hi ih => rw [Finset.sum_insert hi, Finset.sum_insert hi, ih, EReal.coe_add]

/-- The one-pass and the two-pass variance of real data agree: with `S = ∑ a`,
    `∑ (a i − S/n)² = ∑ a i² − 2 (S/n) S + n (S/n)² = ∑ a i² − S²/n`. -/
theorem real_one_pass_eq_two_pass {ι : Type*} [Fintype ι] (a : ι → ℝ) (n : ℝ) (hn : (Fintype.card ι : ℝ) = n)
    (hn0 : n ≠ 0) :
    (∑ i, a i * a i) * (1 / n) - ((∑ i, a i) * (1 / n)) * ((∑ i, a i) * (1 / n))
      = (∑ i, (a i - (∑ i, a i) * (1 / n)) * (a i - (∑ i, a i) * (1 / n))) * (1 / n) := by
  have h : ∀ μ : ℝ, ∑ i, (a i - μ) * (a i - μ) = (∑ i, a i * a i) - 2 * μ * (∑ i, a i) + n * (μ * μ) := by
    intro μ
    have e : ∀ i, (a i - μ) * (a i - μ) = a i * a i - 2 * μ * a i + μ * μ := fun i => by ring
    simp only [e]
    rw [Finset.sum_add_distrib, Finset.sum_sub_distrib, ← Finset.mul_sum, Finset.sum_const, Finset.card_univ,
      nsmul_eq_mul, hn]
  rw [h]
  field_simp
  ring

/-- A product with the real `1 / n` is the ideal quotient by `n`, at every extended real. -/
theorem mul_inv_eq_div {n : ℝ} (hn0 : n ≠ 0) (c d : EReal) (hc : c = ((1 / n : ℝ) : EReal)) (hd : d = (n : EReal))
    (s : EReal) : s * c = Ideal.div s d := by
  rw [hc, hd, Ideal.div_coe hn0]

/-- The one-pass variance `(∑ x²) · c − ((∑ x) · c)²` of extended-real data whose every entry is a real
    is the two-pass variance `(∑ (x − (∑ x) / d)²) / d`, for `c` the real `1 / n` and `d` the real `n`,
    `n` the number of entries. -/
theorem one_pass_eq_two_pass {ι : Type*} [Fintype ι] (x : ι → EReal) (hx : ∀ i, ∃ r : ℝ, x i = (r : EReal))
    (n : ℝ) (hn : (Fintype.card ι : ℝ) = n) (hn0 : n ≠ 0) (c d : EReal) (hc : c = ((1 / n : ℝ) : EReal))
    (hd : d = (n : EReal)) :
    (∑ i, x i * x i) * c - ((∑ i, x i) * c) * ((∑ i, x i) * c)
      = Ideal.div (∑ i, (x i - Ideal.div (∑ i, x i) d) * (x i - Ideal.div (∑ i, x i) d)) d := by
  choose a ha using hx
  obtain rfl : x = fun i => ((a i : ℝ) : EReal) := funext ha
  subst hc hd
  simp only [Ideal.div_coe hn0]
  simp only [← EReal.coe_mul, coe_sum, ← EReal.coe_sub]
  exact congrArg _ (real_one_pass_eq_two_pass a n hn hn0)

/-- The f32 word `0x39800000` denotes `2⁻¹² = 1 / 4096`. -/
theorem ofBits_inv_4096 : Ideal.ofBits .f32 0x39800000#32 = ((1 / 4096 : ℝ) : EReal) := by
  simp [Ideal.ofBits, Ideal.ieee, -EReal.coe_mul]; norm_num

/-- The f32 word `0x45800000` denotes `4096`. -/
theorem ofBits_4096 : Ideal.ofBits .f32 0x45800000#32 = ((4096 : ℝ) : EReal) := by
  simp [Ideal.ofBits, Ideal.ieee, -EReal.coe_mul]; norm_num

/-- Scaling by the word `2⁻¹²` is the ideal quotient by the word `4096`, at every extended real. -/
theorem mul_word_eq_div_word (s : EReal) :
    s * Ideal.ofBits .f32 0x39800000#32 = Ideal.div s (Ideal.ofBits .f32 0x45800000#32) :=
  mul_inv_eq_div (by norm_num : (4096 : ℝ) ≠ 0) _ _ ofBits_inv_4096 ofBits_4096 s

/-- The one-pass variance with the word `2⁻¹²` is the two-pass variance with the word `4096`, for 4096
    entries each of which is a real. -/
theorem one_pass_eq_two_pass_4096 {ι : Type*} [Fintype ι] (hι : Fintype.card ι = 4096) (x : ι → EReal)
    (hx : ∀ i, ∃ r : ℝ, x i = (r : EReal)) :
    (∑ i, x i * x i) * Ideal.ofBits .f32 0x39800000#32
        - ((∑ i, x i) * Ideal.ofBits .f32 0x39800000#32) * ((∑ i, x i) * Ideal.ofBits .f32 0x39800000#32)
      = Ideal.div (∑ i, (x i - Ideal.div (∑ i, x i) (Ideal.ofBits .f32 0x45800000#32))
          * (x i - Ideal.div (∑ i, x i) (Ideal.ofBits .f32 0x45800000#32))) (Ideal.ofBits .f32 0x45800000#32) :=
  one_pass_eq_two_pass x hx 4096 (by rw [hι]; norm_num) (by norm_num) _ _ ofBits_inv_4096 ofBits_4096

end Idealize.ShloMosaic.Variance

end
-- ==== Proof.BridgeNorm.lean ====
/-
  The normalisation: with the same scales and shifts, the fused kernel's block and the reference's
  second kernel's block are one function of the content features, provided every entry is a real.

  Both modulate each of the 256 rows `x` of 4096 features as
  `(x − μ) · (rsqrt (σ² + ε) · γ) + β`. They differ in the row statistics. The fused kernel takes
  `μ = (∑ x) · 2⁻¹²` and the one-pass `σ² = (∑ x²) · 2⁻¹² − μ²`; the reference takes
  `μ = (∑ x) / 4096` and the two-pass `σ² = (∑ (x − μ)²) / 4096`. The means agree at every extended
  real (a product with `1/n` is the quotient by `n`); the variances agree by distributivity, which
  needs every entry of the row to be a real number.

  The 256 scales and 256 shifts come from the 512 masked row sums `s` of the gate network:
  with `m = s · 2⁻⁸` (the mean over the 256 valid pixels), `γ = 3 / (1 + exp (0 − m))` on the first
  256 rows and `β = m` on the last 256.
-/
import proofs.«152265_g2000701298156354_pallasbulk_673_17_alg».proof.Proof.Gen.KernelIdeal.Skeleton
import proofs.«152265_g2000701298156354_pallasbulk_673_17_alg».proof.Proof.Gen.ReferenceIdeal.Skeleton
import proofs.«152265_g2000701298156354_pallasbulk_673_17_alg».proof.Proof.LibVariance
import proofs.«152265_g2000701298156354_pallasbulk_673_17_alg».proof.Proof.BridgeLayout

noncomputable section

namespace Cert.Bridge

open Idealize.ShloMosaic Idealize.ShloMosaic.ValueIdx Idealize.SL.Sem
open scoped BigOperators

abbrev S512x1 : Shape := ⟨2, ![512, 1]⟩
abbrev S256x1 : Shape := ⟨2, ![256, 1]⟩
abbrev S256 : Shape := ⟨1, ![256]⟩
abbrev S256x4096 : Shape := ⟨2, ![256, 4096]⟩
abbrev S1x256x4096 : Shape := ⟨3, ![1, 256, 4096]⟩
abbrev S1x256x1 : Shape := ⟨3, ![1, 256, 1]⟩

/-- The 512 means over the 256 valid pixels: the masked row sums scaled by `2⁻⁸`. -/
def means (s : FVec Ideal S512x1 .f32) : FVec Ideal S512x1 .f32 :=
  mulf s (broadcast S512x1 (Scalar.ofBits .f32 0x3B800000#32))

/-- The 256 scales `3 / (1 + exp (0 − m))`, from the first 256 means. -/
def gammaCol (M : FVec Ideal S512x1 .f32) : FVec Ideal S256x1 .f32 :=
  divf (broadcast S256x1 (Scalar.ofBits .f32 0x40400000#32))
    (addf (broadcast S256x1 (Scalar.ofBits .f32 0x3F800000#32))
      (exp (subf (broadcast S256x1 (Scalar.ofBits .f32 0x00000000#32))
        (extractStridedSlice S256x1 ![0, 0] M Cert.KernelIdeal.Gen.slices_S512x1_o0_0_S256x1))))

/-- The 256 shifts: the last 256 means. -/
def betaCol (M : FVec Ideal S512x1 .f32) : FVec Ideal S256x1 .f32 :=
  extractStridedSlice S256x1 ![256, 0] M Cert.KernelIdeal.Gen.slices_S512x1_o256_0_S256x1

/-- The sums of the 256 rows, as a column. -/
def rowSums (X : FVec Ideal S256x4096 .f32) : FVec Ideal S256x1 .f32 :=
  shapeCast S256x1 (multiReduction .add [1] S256 X 0x00000000#32 Cert.KernelIdeal.Gen.reduces_S256x4096_S256 (.inl rfl) rfl)
    Cert.KernelIdeal.Gen.shapeCasts_S256_S256x1

/-- The fused kernel's row mean: the row sum times `2⁻¹²`. -/
def meanK (X : FVec Ideal S256x4096 .f32) : FVec Ideal S256x1 .f32 :=
  mulf (rowSums X) (broadcast S256x1 (Scalar.ofBits .f32 0x39800000#32))

/-- The reference's row mean: the row sum over `4096`. -/
def meanR (X : FVec Ideal S256x4096 .f32) : FVec Ideal S256x1 .f32 :=
  divf (rowSums X) (broadcast S256x1 (Scalar.ofBits .f32 0x45800000#32))

/-- The fused kernel's one-pass row variance: the mean of the squares minus the square of the mean. -/
def varK (X : FVec Ideal S256x4096 .f32) : FVec Ideal S256x1 .f32 :=
  subf (mulf (rowSums (mulf X X)) (broadcast S256x1 (Scalar.ofBits .f32 0x39800000#32))) (mulf (meanK X) (meanK X))

/-- The reference's two-pass row variance: the mean of the squared deviations from the mean. -/
def varR (X : FVec Ideal S256x4096 .f32) : FVec Ideal S256x1 .f32 :=
  divf (rowSums (mulf (subf X (broadcastTo S256x4096 (meanR X) Cert.KernelIdeal.Gen.broadcasts_S256x1_S256x4096))
      (subf X (broadcastTo S256x4096 (meanR X) Cert.KernelIdeal.Gen.broadcasts_S256x1_S256x4096))))
    (broadcast S256x1 (Scalar.ofBits .f32 0x45800000#32))

/-- Both kernels' last step: `(x − μ) · (rsqrt (σ² + ε) · γ) + β`, row by row. -/
def modulate (X : FVec Ideal S256x4096 .f32) (μ σ2 γ β : FVec Ideal S256x1 .f32) : FVec Ideal S256x4096 .f32 :=
  addf
    (mulf (subf X (broadcastTo S256x4096 μ Cert.KernelIdeal.Gen.broadcasts_S256x1_S256x4096))
      (broadcastTo S256x4096
        (mulf (rsqrt (addf σ2 (broadcast S256x1 (Scalar.ofBits .f32 0x3727C5AC#32)))) γ)
        Cert.KernelIdeal.Gen.broadcasts_S256x1_S256x4096))
    (broadcastTo S256x4096 β Cert.KernelIdeal.Gen.broadcasts_S256x1_S256x4096)

/-- The fused kernel's stored block, spelt with the row statistics named. -/
theorem kernel_pay1_eq (sums : FVec Ideal S512x1 .f32) (x : Vec Ideal S1x256x4096 .f32) :
    Cert.KernelIdeal.Gen.k0_pay1 (F := Ideal) sums x
      = shapeCast S1x256x4096
          (modulate (shapeCast S256x4096 x Cert.KernelIdeal.Gen.shapeCasts_S1x256x4096_S256x4096)
            (meanK (shapeCast S256x4096 x Cert.KernelIdeal.Gen.shapeCasts_S1x256x4096_S256x4096))
            (varK (shapeCast S256x4096 x Cert.KernelIdeal.Gen.shapeCasts_S1x256x4096_S256x4096))
            (gammaCol (means sums)) (betaCol (means sums)))
          Cert.KernelIdeal.Gen.shapeCasts_S256x4096_S1x256x4096 := rfl

/-- The reference's normalising block, spelt with the row statistics named. -/
theorem reference_pay1_eq (x : Vec Ideal S1x256x4096 .f32) (G B : Vec Ideal S1x256x1 .f32) :
    Cert.ReferenceIdeal.Gen.k1_pay1 (F := Ideal) x G B
      = shapeCast S1x256x4096
          (modulate (shapeCast S256x4096 x Cert.KernelIdeal.Gen.shapeCasts_S1x256x4096_S256x4096)
            (meanR (shapeCast S256x4096 x Cert.KernelIdeal.Gen.shapeCasts_S1x256x4096_S256x4096))
            (varR (shapeCast S256x4096 x Cert.KernelIdeal.Gen.shapeCasts_S1x256x4096_S256x4096))
            (shapeCast S256x1 G Cert.ReferenceIdeal.Gen.shapeCasts_S1x256x1_S256x1)
            (shapeCast S256x1 B Cert.ReferenceIdeal.Gen.shapeCasts_S1x256x1_S256x1))
          Cert.KernelIdeal.Gen.shapeCasts_S256x4096_S1x256x4096 := rfl

/-- The two row means agree, at every extended real. -/
theorem mean_eq (X : FVec Ideal S256x4096 .f32) : meanK X = meanR X :=
  funext fun i => Variance.mul_word_eq_div_word (rowSums X i)

/-- The two row variances agree when every entry is a real. -/
theorem var_eq (X : FVec Ideal S256x4096 .f32) (hX : ∀ i, ∃ r : ℝ, X i = (r : EReal)) : varK X = varR X := by
  funext i
  obtain ⟨r, z, rfl⟩ : ∃ (r : Fin 256) (z : Fin 1), i = ix2 r z := ⟨i 0, i 1, eq_ix2 i⟩
  obtain rfl : z = 0 := Subsingleton.elim _ _
  have hS : ∀ Y : FVec Ideal S256x4096 .f32, rowSums Y (ix2 r (0 : Fin 1)) = ∑ k : Fin 4096, Y (ix2 r k) :=
    fun Y => rowSum_apply Y _ _ _ _ r 0
  have hM : meanR X (ix2 r (0 : Fin 1))
      = Ideal.div (∑ k : Fin 4096, X (ix2 r k)) (Ideal.ofBits .f32 0x45800000#32) := by
    show Ideal.div (rowSums X (ix2 r (0 : Fin 1))) (Ideal.ofBits .f32 0x45800000#32) = _
    rw [hS]
  have e : ∀ k : Fin 4096,
      (mulf (subf X (broadcastTo S256x4096 (meanR X) Cert.KernelIdeal.Gen.broadcasts_S256x1_S256x4096))
        (subf X (broadcastTo S256x4096 (meanR X) Cert.KernelIdeal.Gen.broadcasts_S256x1_S256x4096))) (ix2 r k)
      = (X (ix2 r k) - Ideal.div (∑ k : Fin 4096, X (ix2 r k)) (Ideal.ofBits .f32 0x45800000#32))
        * (X (ix2 r k) - Ideal.div (∑ k : Fin 4096, X (ix2 r k)) (Ideal.ofBits .f32 0x45800000#32)) := by
    intro k
    show (X (ix2 r k) - broadcastTo S256x4096 (meanR X) Cert.KernelIdeal.Gen.broadcasts_S256x1_S256x4096 (ix2 r k))
        * (X (ix2 r k) - broadcastTo S256x4096 (meanR X) Cert.KernelIdeal.Gen.broadcasts_S256x1_S256x4096 (ix2 r k)) = _
    rw [broadcastTo_col_apply, hM]
  show rowSums (mulf X X) (ix2 r (0 : Fin 1)) * Ideal.ofBits .f32 0x39800000#32
      - (rowSums X (ix2 r (0 : Fin 1)) * Ideal.ofBits .f32 0x39800000#32)
        * (rowSums X (ix2 r (0 : Fin 1)) * Ideal.ofBits .f32 0x39800000#32)
    = Ideal.div (rowSums (mulf (subf X (broadcastTo S256x4096 (meanR X) Cert.KernelIdeal.Gen.broadcasts_S256x1_S256x4096))
        (subf X (broadcastTo S256x4096 (meanR X) Cert.KernelIdeal.Gen.broadcasts_S256x1_S256x4096))) (ix2 r (0 : Fin 1)))
      (Ideal.ofBits .f32 0x45800000#32)
  rw [hS, hS, hS, Finset.sum_congr rfl fun k _ => e k]
  exact Variance.one_pass_eq_two_pass_4096 (by simp) (fun k => X (ix2 r k)) (fun k => hX _)

/-- The normalisation: the fused kernel's block is the reference's normalising block at the scales and shifts of the
    same masked row sums, when every entry of the content block is a real. -/
theorem norm_eq (sums : FVec Ideal S512x1 .f32) (x : Vec Ideal S1x256x4096 .f32)
    (hx : ∀ y, ∃ r : ℝ, x y = (r : EReal)) :
    Cert.KernelIdeal.Gen.k0_pay1 (F := Ideal) sums x
      = Cert.ReferenceIdeal.Gen.k1_pay1 (F := Ideal) x
          (shapeCast S1x256x1 (gammaCol (means sums)) Cert.ReferenceIdeal.Gen.shapeCasts_S256x1_S1x256x1)
          (shapeCast S1x256x1 (betaCol (means sums)) Cert.ReferenceIdeal.Gen.shapeCasts_S256x1_S1x256x1) := by
  have hX : ∀ i, ∃ r : ℝ,
      shapeCast S256x4096 x Cert.KernelIdeal.Gen.shapeCasts_S1x256x4096_S256x4096 i = (r : EReal) := fun i => hx _
  rw [kernel_pay1_eq, reference_pay1_eq, shapeCast_shapeCast, shapeCast_shapeCast, mean_eq, var_eq _ hX]

end Cert.Bridge

end
-- ==== Proof.BridgeGate.lean ====
/-
  The gate network of the fused kernel and of the reference's first kernel is one function.

  Both run the same straight-line computation on the padded style block: squeeze (matrix product,
  bias, ReLU), nine-tap expand (nine matrix products against lane-shifted slices of the squeezed
  activations, bias, ReLU, SELU scale), squeeze, nine-tap expand, bias, ReLU, mask, lane sum, scale by
  `2⁻⁸`. The differences are of spelling only. The fused kernel narrows its weights and activations
  to bf16, which on the extended reals is the identity. It slices the squeezed activations as values
  where the reference stores them and reads the slices back through rectangles at the same offsets:
  both read the activations at (row, offset + lane). And it builds its mask from the lane number where
  the reference is handed one. No matrix product is opened: once the spellings are aligned the two
  terms are the same, operation by operation.
-/
import proofs.«152265_g2000701298156354_pallasbulk_673_17_alg».proof.Proof.KernelBlock
import proofs.«152265_g2000701298156354_pallasbulk_673_17_alg».proof.Proof.RefBlock
import proofs.«152265_g2000701298156354_pallasbulk_673_17_alg».proof.Proof.BridgeLayout
import proofs.«152265_g2000701298156354_pallasbulk_673_17_alg».proof.Proof.BridgeMask
import proofs.«152265_g2000701298156354_pallasbulk_673_17_alg».proof.Proof.BridgeNorm

set_option maxRecDepth 16384

noncomputable section

namespace Cert.Bridge

open Idealize.ShloMosaic Idealize.ShloMosaic.TcCoe Idealize.ShloMosaic.ValueIdx Idealize.SL.Sem

abbrev S256x256 : Shape := ⟨2, ![256, 256]⟩
abbrev S256x512 : Shape := ⟨2, ![256, 512]⟩
abbrev S9x512x256 : Shape := ⟨3, ![9, 512, 256]⟩
abbrev S1x256x400 : Shape := ⟨3, ![1, 256, 400]⟩
abbrev S256x400 : Shape := ⟨2, ![256, 400]⟩
abbrev S256x358 : Shape := ⟨2, ![256, 358]⟩
abbrev S512x358 : Shape := ⟨2, ![512, 358]⟩
abbrev S1x316 : Shape := ⟨2, ![1, 316]⟩

/-- Reading a rank-2 array through a unit-stride rectangle is slicing it at the rectangle's offsets. -/
theorem ld_unit_eq_slice' {Val : EltTy → Type} {e : EltTy} {m n : Nat} (s : (⟨2, ![m, n]⟩ : Shape).Idx → Val e)
    (off size : Fin 2 → Nat) (inb : ∀ a, off a + size a ≤ (⟨2, ![m, n]⟩ : Shape).size a) :
    View.ld (Val := Val) s (Rect.unit (s := ⟨2, ![m, n]⟩) off size inb)
      = extractStridedSlice ⟨2, size⟩ off s ⟨rfl, inb⟩ := by
  funext y
  unfold extractStridedSlice
  refine congrArg s (funext fun a => Fin.ext ?_)
  show off a + 1 * (y a).val = off a + (y a).val
  rw [Nat.one_mul]

/-! ## The fused kernel's bf16 copies of the weights are the weights -/

theorem pay2_id (w : Vec Ideal S256x256 .f32) : Cert.KernelIdeal.Gen.k0_pay2 (F := Ideal) w = w := shapeCast_self _ _
theorem pay3_id (w : Vec Ideal S9x512x256 .f32) : Cert.KernelIdeal.Gen.k0_pay3 (F := Ideal) w = w := shapeCast_self _ _
theorem pay4_id (w : Vec Ideal S256x512 .f32) : Cert.KernelIdeal.Gen.k0_pay4 (F := Ideal) w = w := shapeCast_self _ _
theorem pay5_id (w : Vec Ideal S9x512x256 .f32) : Cert.KernelIdeal.Gen.k0_pay5 (F := Ideal) w = w := shapeCast_self _ _

/-! ## Stage by stage -/

/-- The first squeeze: the fused kernel's activations are the ones the reference stores. -/
theorem s1_eq (zp : Vec Ideal S1x256x400 .f32) (w1sq : Vec Ideal S256x256 .f32) (b1sq : Vec Ideal S256x1 .f32) :
    Cert.KernelIdeal.Gen.k0_pay6 (F := Ideal) w1sq zp b1sq = Cert.ReferenceIdeal.Hand.squeeze1 (F := Ideal) zp w1sq b1sq := by
  unfold Cert.ReferenceIdeal.Hand.squeeze1 Cert.ReferenceIdeal.Gen.k0_pay2 Cert.KernelIdeal.Gen.k0_pay6
  dsimp only
  rw [shapeCast_self]
  rfl

/-- The second squeeze: the fused kernel's second-stage activations are the ones the reference stores. -/
theorem s2_eq (zp : Vec Ideal S1x256x400 .f32) (w1sq : Vec Ideal S256x256 .f32) (b1sq : Vec Ideal S256x1 .f32)
    (w1ex : Vec Ideal S9x512x256 .f32) (b1ex : Vec Ideal S512x1 .f32) (w2sq : Vec Ideal S256x512 .f32)
    (b2sq : Vec Ideal S256x1 .f32) :
    Cert.KernelIdeal.Gen.k0_pay10 (F := Ideal) (Cert.KernelIdeal.Hand.fire1 w1sq w1ex zp b1sq b1ex) w2sq b2sq
      = Cert.ReferenceIdeal.Hand.s2Of (F := Ideal) zp w1sq b1sq w1ex b1ex w2sq b2sq := by
  unfold Cert.ReferenceIdeal.Hand.s2Of Cert.ReferenceIdeal.Hand.squeeze2 Cert.ReferenceIdeal.Hand.acc1 Cert.KernelIdeal.Hand.fire1
  unfold Cert.KernelIdeal.Gen.k0_pay10 Cert.KernelIdeal.Gen.k0_pay9 Cert.KernelIdeal.Gen.k0_pay7 Cert.KernelIdeal.Gen.k0_pay8 Cert.ReferenceIdeal.Gen.k0_pay6 Cert.ReferenceIdeal.Gen.k0_pay4 Cert.ReferenceIdeal.Gen.k0_pay3 Cert.ReferenceIdeal.Gen.k0_pay5
  dsimp only
  rw [s1_eq]
  generalize Cert.ReferenceIdeal.Hand.squeeze1 (F := Ideal) zp w1sq b1sq = s1
  rw [shapeCast_self]
  simp only [ld_unit_eq_slice']
  rfl

/-! ## The gate's 512 means -/

/-- The fused kernel's 512 masked row sums, scaled by `2⁻⁸`, are the 512 means the reference's gate kernel computes,
    for a mask that is 1 on the 16 valid lanes of each row of 20 and 0 on the others. -/
theorem gate_means_eq (zp : Vec Ideal S1x256x400 .f32) (w1sq : Vec Ideal S256x256 .f32) (b1sq : Vec Ideal S256x1 .f32)
    (w1ex : Vec Ideal S9x512x256 .f32) (b1ex : Vec Ideal S512x1 .f32) (w2sq : Vec Ideal S256x512 .f32)
    (b2sq : Vec Ideal S256x1 .f32) (w2ex : Vec Ideal S9x512x256 .f32) (b2ex : Vec Ideal S512x1 .f32)
    (mask : Vec Ideal S1x316 .f32)
    (hmask : ∀ j : Fin 316, mask (ix2 (0 : Fin 1) j) = if j.val % 20 < 16 then 1 else 0) :
    means (Cert.KernelIdeal.Hand.gateSums (F := Ideal) (Cert.KernelIdeal.Hand.fire1 w1sq w1ex zp b1sq b1ex) w2sq w2ex b2sq b2ex)
      = Cert.ReferenceIdeal.Gen.k0_pay10 (F := Ideal)
          (Cert.ReferenceIdeal.Hand.acc2 (Cert.ReferenceIdeal.Hand.s2Of zp w1sq b1sq w1ex b1ex w2sq b2sq) w2ex)
          (Cert.ReferenceIdeal.Gen.k0_pay9 (Cert.ReferenceIdeal.Hand.tap7 w2ex))
          (Cert.ReferenceIdeal.Hand.s2slice7 (Cert.ReferenceIdeal.Hand.s2Of zp w1sq b1sq w1ex b1ex w2sq b2sq))
          (Cert.ReferenceIdeal.Hand.tap8 w2ex)
          (Cert.ReferenceIdeal.Hand.s2slice8 (Cert.ReferenceIdeal.Hand.s2Of zp w1sq b1sq w1ex b1ex w2sq b2sq))
          b2ex mask := by
  unfold means Cert.KernelIdeal.Hand.gateSums Cert.ReferenceIdeal.Hand.acc2
  unfold Cert.KernelIdeal.Gen.k0_pay14 Cert.KernelIdeal.Gen.k0_pay11 Cert.KernelIdeal.Gen.k0_pay12 Cert.KernelIdeal.Gen.k0_pay13 Cert.ReferenceIdeal.Gen.k0_pay10 Cert.ReferenceIdeal.Gen.k0_pay8 Cert.ReferenceIdeal.Gen.k0_pay7 Cert.ReferenceIdeal.Gen.k0_pay9
  dsimp only
  rw [s2_eq]
  generalize Cert.ReferenceIdeal.Hand.s2Of (F := Ideal) zp w1sq b1sq w1ex b1ex w2sq b2sq = s2
  rw [kernel_mask_eq mask hmask, shapeCast_self]
  simp only [ld_unit_eq_slice']
  rfl

/-! ## The block equation -/

/-- The reference's stored scales are `3 / (1 + exp (0 − m))` of the first 256 of its means. -/
theorem ref_gamma_eq (a : FVec Ideal ⟨2, ![512, 316]⟩ .f32) (b : FVec Ideal ⟨2, ![512, 256]⟩ .f32)
    (c : Vec Ideal ⟨2, ![256, 316]⟩ .f32) (d : Vec Ideal ⟨3, ![1, 512, 256]⟩ .f32) (e : Vec Ideal ⟨2, ![256, 316]⟩ .f32)
    (f : Vec Ideal S512x1 .f32) (g : Vec Ideal S1x316 .f32) :
    Cert.ReferenceIdeal.Gen.k0_pay11 (F := Ideal) a b c d e f g
      = shapeCast S1x256x1 (gammaCol (Cert.ReferenceIdeal.Gen.k0_pay10 (F := Ideal) a b c d e f g)) Cert.ReferenceIdeal.Gen.shapeCasts_S256x1_S1x256x1 := rfl

/-- The reference's stored shifts are the last 256 of its means. -/
theorem ref_beta_eq (a : FVec Ideal ⟨2, ![512, 316]⟩ .f32) (b : FVec Ideal ⟨2, ![512, 256]⟩ .f32)
    (c : Vec Ideal ⟨2, ![256, 316]⟩ .f32) (d : Vec Ideal ⟨3, ![1, 512, 256]⟩ .f32) (e : Vec Ideal ⟨2, ![256, 316]⟩ .f32)
    (f : Vec Ideal S512x1 .f32) (g : Vec Ideal S1x316 .f32) :
    Cert.ReferenceIdeal.Gen.k0_pay1 (F := Ideal) (Cert.ReferenceIdeal.Gen.k0_pay12 (F := Ideal) a b c d e f g)
      = shapeCast S1x256x1 (betaCol (Cert.ReferenceIdeal.Gen.k0_pay10 (F := Ideal) a b c d e f g)) Cert.ReferenceIdeal.Gen.shapeCasts_S256x1_S1x256x1 := rfl

/-- THE BLOCK EQUATION: at one batch element the fused kernel's block, computed from its bf16 copies of the
    weights, is the reference's normalising block at the scales and shifts of the reference's gate kernel — for a
    content block whose every entry is a real and a mask that is 1 on the 16 valid lanes of each row of 20 and 0
    elsewhere. -/
theorem block_eq (w1sq : Vec Ideal S256x256 .f32) (w1ex : Vec Ideal S9x512x256 .f32) (w2sq : Vec Ideal S256x512 .f32)
    (w2ex : Vec Ideal S9x512x256 .f32) (b1sq : Vec Ideal S256x1 .f32) (b1ex : Vec Ideal S512x1 .f32)
    (b2sq : Vec Ideal S256x1 .f32) (b2ex : Vec Ideal S512x1 .f32) (zp : Vec Ideal S1x256x400 .f32)
    (x : Vec Ideal S1x256x4096 .f32) (mask : Vec Ideal S1x316 .f32)
    (hx : ∀ y, ∃ r : ℝ, x y = (r : EReal))
    (hmask : ∀ j : Fin 316, mask (ix2 (0 : Fin 1) j) = if j.val % 20 < 16 then 1 else 0) :
    Cert.KernelIdeal.Hand.blockOut (F := Ideal) (Cert.KernelIdeal.Gen.k0_pay2 w1sq) (Cert.KernelIdeal.Gen.k0_pay3 w1ex) (Cert.KernelIdeal.Gen.k0_pay4 w2sq) (Cert.KernelIdeal.Gen.k0_pay5 w2ex)
        zp b1sq b1ex b2sq b2ex x
      = Cert.ReferenceIdeal.Hand.normBlock (F := Ideal) x
          (Cert.ReferenceIdeal.Hand.gammaBlock zp mask w1sq b1sq w1ex b1ex w2sq b2sq w2ex b2ex)
          (Cert.ReferenceIdeal.Hand.betaBlock zp mask w1sq b1sq w1ex b1ex w2sq b2sq w2ex b2ex) := by
  rw [pay2_id, pay3_id, pay4_id, pay5_id]
  unfold Cert.KernelIdeal.Hand.blockOut Cert.ReferenceIdeal.Hand.normBlock Cert.ReferenceIdeal.Hand.gammaBlock Cert.ReferenceIdeal.Hand.betaBlock Cert.ReferenceIdeal.Hand.gammaOf Cert.ReferenceIdeal.Hand.betaOf
  rw [norm_eq _ x hx, gate_means_eq zp w1sq b1sq w1ex b1ex w2sq b2sq w2ex b2ex mask hmask, ref_gamma_eq, ref_beta_eq]

end Cert.Bridge

end
-- ==== Proof.BridgeMaskHost.lean ====
/-
  The reference's mask operand: the literal table of 316 words, reshaped to one row of 316 lanes, is 1 on
  the 16 valid lanes of each row of 20 and 0 on the others.
-/
import proofs.«152265_g2000701298156354_pallasbulk_673_17_alg».proof.Proof.BridgeMask

noncomputable section

namespace Cert.Bridge

open Idealize.ShloMosaic Idealize.ShloMosaic.ValueIdx

/-- The table as the host constant holds it (word `lit0` at the row-major position), reshaped `[316] → [1, 316]`,
    read at lane `j`. -/
theorem mask_host_apply (h : (⟨1, ![316]⟩ : Shape).ShapeCasts ⟨2, ![1, 316]⟩) (z : Fin 1) (j : Fin 316) :
    shapeCast ⟨2, ![1, 316]⟩
        (fun i : (⟨1, ![316]⟩ : Shape).Idx =>
          FloatOps.ofBits (F := Ideal) .f32 (Cert.ReferenceIdeal.lit0 ((⟨1, ![316]⟩ : Shape).rowMajor i))) h (ix2 z j)
      = if j.val % 20 < 16 then 1 else 0 := by
  refine (shapeCast_apply _ h (ix2 z j) (ix1 j) ?_).trans ?_
  · rw [Shape.rowMajor_val_one, Shape.rowMajor_val_two]
    have := z.isLt
    show j.val = z.val * 316 + j.val
    omega
  · have e : (⟨1, ![316]⟩ : Shape).rowMajor (ix1 j) = j := Fin.ext (Shape.rowMajor_val_one _)
    show Ideal.ofBits .f32 (Cert.ReferenceIdeal.lit0 ((⟨1, ![316]⟩ : Shape).rowMajor (ix1 j))) = _
    rw [e]
    exact mask_table j

end Cert.Bridge

end
-- ==== Proof.BridgeFlat.lean ====
/-
  One batch element of the fused program's flat result is the same batch element of the reference's.

  For a style input `z`, content features `x` whose every entry is a real, and the eight weight and bias
  arrays: the fused kernel's block function, at batch element `b` of the padded, flattened style input
  and of the flattened content features, is the reference's normalising block of that batch element at
  the scales and shifts its gate kernel computes from the same style block, with the reference's mask:
  the literal table of 316 words, which is 1 on the 16 valid lanes of each row of 20 and 0 elsewhere.
-/
import proofs.«152265_g2000701298156354_pallasbulk_673_17_alg».proof.Proof.BridgeGate
import proofs.«152265_g2000701298156354_pallasbulk_673_17_alg».proof.Proof.BridgeMaskHost
import proofs.«152265_g2000701298156354_pallasbulk_673_17_alg».proof.Proof.RefSpec

set_option maxRecDepth 16384

noncomputable section

namespace Cert.Bridge

open Idealize.ShloMosaic Idealize.ShloMosaic.TcCoe Idealize.ShloMosaic.ValueIdx

abbrev S8x256x64x64 : Shape := ⟨4, ![8, 256, 64, 64]⟩
abbrev S8x256x16x16 : Shape := ⟨4, ![8, 256, 16, 16]⟩

/-- The reference's mask operand is 1 on the 16 valid lanes of each row of 20 and 0 on the others. -/
theorem maskArr_apply (j : Fin 316) :
    Cert.ReferenceIdeal.Hand.maskArr (F := Ideal) (ix2 (0 : Fin 1) j) = if j.val % 20 < 16 then 1 else 0 :=
  mask_host_apply _ 0 j

/-- A batch element of the flattened content features has only real entries when the features do. -/
theorem xBlock_real (x : Vec Ideal S8x256x64x64 .f32) (hx : ∀ i, ∃ r : ℝ, x i = (r : EReal)) (b : Fin 8)
    (y : (⟨3, ![1, 256, 4096]⟩ : Shape).Idx) : ∃ r : ℝ, Cert.ReferenceIdeal.Hand.xBlock (F := Ideal) (Cert.ReferenceIdeal.Hand.xflat x) b y = (r : EReal) :=
  hx _

/-- The block equation at batch element `b` of the two programs' own operands. -/
theorem batch_eq (x : Vec Ideal S8x256x64x64 .f32) (z : Vec Ideal S8x256x16x16 .f32) (w1sq : Vec Ideal S256x256 .f32)
    (b1sq : Vec Ideal S256x1 .f32) (w1ex : Vec Ideal S9x512x256 .f32) (b1ex : Vec Ideal S512x1 .f32)
    (w2sq : Vec Ideal S256x512 .f32) (b2sq : Vec Ideal S256x1 .f32) (w2ex : Vec Ideal S9x512x256 .f32)
    (b2ex : Vec Ideal S512x1 .f32) (hx : ∀ i, ∃ r : ℝ, x i = (r : EReal)) (b : Fin 8) :
    Cert.KernelIdeal.Hand.blockOut (F := Ideal) (Cert.KernelIdeal.Gen.k0_pay2 w1sq) (Cert.KernelIdeal.Gen.k0_pay3 w1ex) (Cert.KernelIdeal.Gen.k0_pay4 w2sq) (Cert.KernelIdeal.Gen.k0_pay5 w2ex)
        (Cert.ReferenceIdeal.Hand.zpBlock (Cert.ReferenceIdeal.Hand.zpadded z) b) b1sq b1ex b2sq b2ex (Cert.ReferenceIdeal.Hand.xBlock (Cert.ReferenceIdeal.Hand.xflat x) b)
      = Cert.ReferenceIdeal.Hand.normBlock (F := Ideal) (Cert.ReferenceIdeal.Hand.xBlock (Cert.ReferenceIdeal.Hand.xflat x) b)
          (Cert.ReferenceIdeal.Hand.gammaBlock (Cert.ReferenceIdeal.Hand.zpBlock (Cert.ReferenceIdeal.Hand.zpadded z) b) Cert.ReferenceIdeal.Hand.maskArr w1sq b1sq w1ex b1ex w2sq b2sq w2ex b2ex)
          (Cert.ReferenceIdeal.Hand.betaBlock (Cert.ReferenceIdeal.Hand.zpBlock (Cert.ReferenceIdeal.Hand.zpadded z) b) Cert.ReferenceIdeal.Hand.maskArr w1sq b1sq w1ex b1ex w2sq b2sq w2ex b2ex) :=
  block_eq w1sq w1ex w2sq w2ex b1sq b1ex b2sq b2ex (Cert.ReferenceIdeal.Hand.zpBlock (Cert.ReferenceIdeal.Hand.zpadded z) b) (Cert.ReferenceIdeal.Hand.xBlock (Cert.ReferenceIdeal.Hand.xflat x) b)
    Cert.ReferenceIdeal.Hand.maskArr (xBlock_real x hx b) maskArr_apply

end Cert.Bridge

end
-- ==== Proof.BridgeFinite.lean ====
/-
  Every entry of the content features is a real number.

  The precondition says that each of the ten argument arrays passes `jnp.all (|a| < +∞)`, the ten
  verdicts joined by `and`. Reading the conjunction from the outside in leaves the first array's
  verdict; an `and`-reduction that is 1 met a 1 at every index; and an extended real whose absolute
  value lies strictly below `+∞` is neither infinity, so it is (the coercion of) a real. The
  one-pass variance of the fused kernel needs exactly this of the content features: its agreement
  with the two-pass variance is distributivity, which fails at the infinities.
-/
import proofs.«152265_g2000701298156354_pallasbulk_673_17_alg».proof.Defs
import Idealize.ShloMosaic.Lib.ReduceAll
import Idealize.ShloMosaic.Lib.ValueIdx

noncomputable section

namespace Cert.Bridge

open Idealize.ShloMosaic

/-- An extended real whose absolute value compares strictly below the word `+∞` is a real. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  induction x using EReal.rec with
  | bot => simp [Ideal.cmp] at h
  | top => simp [Ideal.cmp] at h
  | coe r => exact ⟨r, rfl⟩

instance : Subsingleton Cert.Pre_finite_inputs.S_.Idx := ⟨fun a b => funext fun d => d.elim0⟩

/-- The printed precondition, all ones, makes every entry of its first argument a real. -/
theorem finite_arg0 [Cert.Pre_finite_inputs.Facts]
    (a0 : FVec Ideal Cert.Pre_finite_inputs.S8x256x64x64 .f32) (a1 : FVec Ideal Cert.Pre_finite_inputs.S8x256x16x16 .f32)
    (a2 : FVec Ideal Cert.Pre_finite_inputs.S256x256 .f32) (a3 : FVec Ideal Cert.Pre_finite_inputs.S256x1 .f32)
    (a4 : FVec Ideal Cert.Pre_finite_inputs.S9x512x256 .f32) (a5 : FVec Ideal Cert.Pre_finite_inputs.S512x1 .f32)
    (a6 : FVec Ideal Cert.Pre_finite_inputs.S256x512 .f32) (a7 : FVec Ideal Cert.Pre_finite_inputs.S256x1 .f32)
    (a8 : FVec Ideal Cert.Pre_finite_inputs.S9x512x256 .f32) (a9 : FVec Ideal Cert.Pre_finite_inputs.S512x1 .f32)
    (h : Cert.Pre_finite_inputs.fn (F := Ideal) a0 a1 a2 a3 a4 a5 a6 a7 a8 a9 = fun _ => 1#1)
    (i : Cert.Pre_finite_inputs.S8x256x64x64.Idx) : ∃ r : ℝ, a0 i = (r : EReal) := by
  have h0 := congrFun h (ValueIdx.ix0 : Cert.Pre_finite_inputs.S_.Idx)
  dsimp only [Cert.Pre_finite_inputs.fn, Cert.Pre_finite_inputs.fn_part1, Cert.Pre_finite_inputs.fn_part2, andi] at h0
  have e := (IntOp.andi_eq_one.1 (IntOp.andi_eq_one.1 (IntOp.andi_eq_one.1 (IntOp.andi_eq_one.1 (IntOp.andi_eq_one.1
    (IntOp.andi_eq_one.1 (IntOp.andi_eq_one.1 (IntOp.andi_eq_one.1 (IntOp.andi_eq_one.1 h0).1).1).1).1).1).1).1).1).1
  exact real_of_abs_lt_inf (a0 i) (Host.reduce_andi_all _ _ _ _ _ e i)

/-- Under the kernel's precondition every entry of the content features, on every device, is a real. -/
theorem finite_x [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S8x256x64x64.Idx) :
    ∃ r : ℝ, m ((c.tc : Thread Cert.KernelIdeal.nD Cert.KernelIdeal.τ).loc Cert.KernelIdeal.main_arg0) i = (r : EReal) :=
  finite_arg0 _ _ _ _ _ _ _ _ _ _ (hpre c) i

end Cert.Bridge

end
-- ==== Proof.KernelRun.lean ====
/-
  The fused program's run with its result named, and the result as the reference's flat result.

  The frame run leaves every argument array as launched and the launch's output array in its buffer; the
  one host operation after the launch reshapes that array, which the blocks-to-array step has identified:
  at (b, r, p) it holds the block function of batch element b's blocks at (0, r, p). Under the
  precondition every content feature is a real, so batch element by batch element that block is the
  reference's normalising block at the reference's scales and shifts: the flat array is the reference's.
-/
import proofs.«152265_g2000701298156354_pallasbulk_673_17_alg».proof.Proof.KernelArray
import proofs.«152265_g2000701298156354_pallasbulk_673_17_alg».proof.Proof.KernelHost
import proofs.«152265_g2000701298156354_pallasbulk_673_17_alg».proof.Proof.BridgeFlat
import proofs.«152265_g2000701298156354_pallasbulk_673_17_alg».proof.Proof.BridgeFinite

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- Under the precondition the fused program's flat result is the reference's flat result of the same ten arrays. -/
theorem flat_eq [Cert.Pre_finite_inputs.Facts] (hpre : Cert.Pre_KernelIdeal m) (c : Dev nD) :
    flatK (F := Ideal) m c
      = Cert.ReferenceIdeal.Hand.flatOf (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) := by
  funext i
  have key := Cert.Bridge.batch_eq (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) (m ((c.tc : Thread nD τ).loc main_arg8))
    (m ((c.tc : Thread nD τ).loc main_arg9)) (fun j => Cert.Bridge.finite_x m hpre c j) (i 0)
  unfold flatK arr2 arr3 arr4 arr5 arr6 arr7 arr8 arr9 zpArr xArr
  rw [V_main_arg2 m c, V_main_arg3 m c, V_main_arg4 m c, V_main_arg5 m c, V_main_arg6 m c, V_main_arg7 m c,
    V_main_arg8 m c, V_main_arg9 m c, zp_value m c, x_value m c]
  exact congrFun key _

/-- The fused program's run, with its result named: every weakly fair execution terminates, the result buffer holds
    the flat result reshaped to 64 x 64 planes, and the ten argument arrays end as launched. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5)
        = shapeCast S8x256x64x64 (flatK (F := Ideal) m c) shapeCasts_S8x256x4096_S8x256x64x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v5 (Pipeline.mem_restRefs_of main_v5 (by decide) (by decide))).trans
        ((tail_value m c).trans (by rw [final])),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c)))⟩)
    (run_main m ρ)

end Cert.KernelIdeal.Hand

end
-- ==== Proof.RefPieces.lean ====
/-
  What one grid point of each of the reference's two kernels leaves in its output blocks, as the block
  functions of RefBlock: the gate kernel stores each stage's squeezed activations whole into a scratch
  buffer and reads the nine lane-shifted slices back within the same point, so its two result blocks are
  functions of the point's input blocks alone; the normalising kernel's block is its one payload.
-/
import proofs.«152265_g2000701298156354_pallasbulk_673_17_alg».proof.Proof.Gen.ReferenceIdeal.Frame
import proofs.«152265_g2000701298156354_pallasbulk_673_17_alg».proof.Proof.RefBlock
import Idealize.ShloMosaic.Lib.Pipeline.Value

set_option maxRecDepth 16384

noncomputable section

namespace Cert.ReferenceIdeal.Hand

open Idealize.ShloMosaic Idealize.ShloMosaic.TcCoe Idealize.ShloMosaic.Tactic
open Idealize.SL Idealize.SL.Sem
open Cert.ReferenceIdeal Cert.ReferenceIdeal.Gen

variable {F : FTy → Type} [FloatOps F]

theorem hz3 : (![0, 0, 0] : Fin 3 → Nat) = fun _ => 0 := by funext a; fin_cases a <;> rfl
theorem hz2 : (![0, 0] : Fin 2 → Nat) = fun _ => 0 := by funext a; fin_cases a <;> rfl

set_option maxHeartbeats 1000000 in
/-- The gate kernel's first output block after a point: the scales of the point's input blocks. -/
theorem out_gamma (c : Dev nD) (i : grid0.Coords) (arg1 : Memref sig .tc .vmem S1x256x400 .f32) (harg1 : arg1.IsWhole) (arg2 : Memref sig .tc .vmem S1x316 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S9x512x256 .f32) (harg5 : arg5.IsWhole) (arg6 : Memref sig .tc .vmem S512x1 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S9x512x256 .f32) (harg9 : arg9.IsWhole) (arg10 : Memref sig .tc .vmem S512x1 .f32) (harg10 : arg10.IsWhole) (arg11 : Memref sig .tc .vmem S1x256x1 .f32) (harg11 : arg11.IsWhole) (arg12 : Memref sig .tc .vmem S1x256x1 .f32) (harg12 : arg12.IsWhole) (arg13 : Memref sig .tc .vmem S256x400 .f32) (harg13 : arg13.IsWhole) (arg14 : Memref sig .tc .vmem S256x358 .f32) (harg14 : arg14.IsWhole)
    (x0 : Vec F S1x256x400 .f32) (x1 : Vec F S1x316 .f32) (x2 : Vec F S256x256 .f32) (x3 : Vec F S256x1 .f32) (x4 : Vec F S9x512x256 .f32) (x5 : Vec F S512x1 .f32) (x6 : Vec F S256x512 .f32) (x7 : Vec F S256x1 .f32) (x8 : Vec F S9x512x256 .f32) (x9 : Vec F S512x1 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 = gammaBlock x0 x1 x2 x3 x4 x5 x6 x7 x8 x9 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  unfold kernelRun0_A
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, View.ld_unit_zero (S := S1x256x400) hz3, View.ld_unit_zero (S := S1x316) hz2, View.ld_unit_zero (S := S256x256) hz2, View.ld_unit_zero (S := S256x1) hz2, View.ld_unit_zero (S := S512x1) hz2, View.ld_unit_zero (S := S256x512) hz2, View.ld_unit_zero (S := S9x512x256) hz3]
  simp only [View.readCov_eq_canon', View.canon_unit_zero (S := S256x400) hz2, View.canon_unit_zero (S := S256x358) hz2]
  rfl

set_option maxHeartbeats 1000000 in
/-- The gate kernel's second output block after a point: the shifts of the point's input blocks. -/
theorem out_beta (c : Dev nD) (i : grid0.Coords) (arg1 : Memref sig .tc .vmem S1x256x400 .f32) (harg1 : arg1.IsWhole) (arg2 : Memref sig .tc .vmem S1x316 .f32) (harg2 : arg2.IsWhole) (arg3 : Memref sig .tc .vmem S256x256 .f32) (harg3 : arg3.IsWhole) (arg4 : Memref sig .tc .vmem S256x1 .f32) (harg4 : arg4.IsWhole) (arg5 : Memref sig .tc .vmem S9x512x256 .f32) (harg5 : arg5.IsWhole) (arg6 : Memref sig .tc .vmem S512x1 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S9x512x256 .f32) (harg9 : arg9.IsWhole) (arg10 : Memref sig .tc .vmem S512x1 .f32) (harg10 : arg10.IsWhole) (arg11 : Memref sig .tc .vmem S1x256x1 .f32) (harg11 : arg11.IsWhole) (arg12 : Memref sig .tc .vmem S1x256x1 .f32) (harg12 : arg12.IsWhole) (arg13 : Memref sig .tc .vmem S256x400 .f32) (harg13 : arg13.IsWhole) (arg14 : Memref sig .tc .vmem S256x358 .f32) (harg14 : arg14.IsWhole)
    (x0 : Vec F S1x256x400 .f32) (x1 : Vec F S1x316 .f32) (x2 : Vec F S256x256 .f32) (x3 : Vec F S256x1 .f32) (x4 : Vec F S9x512x256 .f32) (x5 : Vec F S512x1 .f32) (x6 : Vec F S256x512 .f32) (x7 : Vec F S256x1 .f32) (x8 : Vec F S9x512x256 .f32) (x9 : Vec F S512x1 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 = betaBlock x0 x1 x2 x3 x4 x5 x6 x7 x8 x9 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  unfold kernelRun0_A
  dsimp only
  sl_unfold_words
  rw [View.canon_unit_zero hz3]
  simp only [View.readAt_eq_ld, harg1.read_unread, harg2.read_unread, harg3.read_unread, harg4.read_unread, harg5.read_unread, harg6.read_unread, harg7.read_unread, harg8.read_unread, harg9.read_unread, harg10.read_unread, View.ld_unit_zero (S := S1x256x400) hz3, View.ld_unit_zero (S := S1x316) hz2, View.ld_unit_zero (S := S256x256) hz2, View.ld_unit_zero (S := S256x1) hz2, View.ld_unit_zero (S := S512x1) hz2, View.ld_unit_zero (S := S256x512) hz2, View.ld_unit_zero (S := S9x512x256) hz3]
  simp only [View.readCov_eq_canon', View.canon_unit_zero (S := S256x400) hz2, View.canon_unit_zero (S := S256x358) hz2]
  rfl

/-- The normalising kernel's output block after a point. -/
theorem out_norm (x0 : Vec F S1x256x4096 .f32) (x1 x2 : Vec F S1x256x1 .f32) : out1_3 x0 x1 x2 = normBlock x0 x1 x2 := by
  unfold out1_3
  rw [View.canon_unit_zero hz3]
  simp only [View.ld_unit_zero (S := S1x256x4096) hz3, View.ld_unit_zero (S := S1x256x1) hz3]
  rfl

end Cert.ReferenceIdeal.Hand

end
-- ==== Proof.RefRegion0.lean ====
/-
  The gate kernel's region as two array functions: each of its eight grid points reads batch element t
  of the flattened padded style input and the whole of the mask and of the eight weight arrays, and
  writes back batch element t of the scales and of the shifts; the eight blocks tile each [8, 256, 1] array.
-/
import proofs.«152265_g2000701298156354_pallasbulk_673_17_alg».proof.Proof.Gen.ReferenceIdeal.Frame
import proofs.«152265_g2000701298156354_pallasbulk_673_17_alg».proof.Proof.RefSpec
import proofs.«152265_g2000701298156354_pallasbulk_673_17_alg».proof.Proof.RefPieces
import Idealize.ShloMosaic.Lib.Pipeline.Value

set_option maxRecDepth 16384

noncomputable section

namespace Cert.ReferenceIdeal.Hand

open Idealize.ShloMosaic Idealize.ShloMosaic.TcCoe Idealize.ShloMosaic.ValueIdx
open Idealize.SL Idealize.SL.Sem
open Idealize.ShloMosaic.Pipeline (Dat)
open Cert.ReferenceIdeal Cert.ReferenceIdeal.Gen

variable {F : FTy → Type} [FloatOps F]
variable (V : (c : Dev nD) → (b : Ref sig .tc) → Buf (Elt F) ((c : Thread nD τ).loc b))

/-! The printed index maps of the first region, decided over its eight points: the style window and the two
    output windows move along the batch axis with the point; every other window stays at block zero. -/
theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 3) = 0 ∧ win0_8.index t (1 : Fin 3) = 0 ∧ win0_8.index t (2 : Fin 3) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 3) = t.val ∧ win0_10.index t (1 : Fin 3) = 0 ∧ win0_10.index t (2 : Fin 3) = 0 :=
  (by decide +kernel : ∀ t : Fin grid0.N, _)
theorem idx0_11 : ∀ t : Fin cfg0.N, win0_11.index t (0 : Fin 3) = t.val ∧ win0_11.index t (1 : Fin 3) = 0 ∧ win0_11.index t (2 : Fin 3) = 0 :=
  (by decide +kernel : ∀ t : Fin grid0.N, _)

/-- The point as a batch index. -/
def batch0 (t : Fin cfg0.N) : Fin 8 := ⟨t.val, by have h := t.isLt; have e : cfg0.N = 8 := N_0; omega⟩

/-- The style window's block at point t is batch element t of the flattened padded style input. -/
theorem iblk0_0_eq (c : Dev nD) (t : Fin cfg0.N) :
    (iblk0 V c 0 t : Vec F S1x256x400 .f32) = zpBlock (V c main_v1 : Vec F S8x256x400 .f32) (batch0 t) := by
  obtain ⟨e0, e1, e2⟩ := idx0_0 t
  funext y
  unfold iblk0
  rw [View.read_apply]
  show V c main_v1 _ = V c main_v1 _
  congr 1
  funext a
  apply Fin.ext
  match a with
  | ⟨0, _⟩ => show win0_0.index t (0 : Fin 3) * 1 + 1 * (y 0).val = t.val; have h : (y 0).val < 1 := (y 0).isLt; omega
  | ⟨1, _⟩ => show win0_0.index t (1 : Fin 3) * 256 + 1 * (y 1).val = (y 1).val; omega
  | ⟨2, _⟩ => show win0_0.index t (2 : Fin 3) * 400 + 1 * (y 2).val = (y 2).val; omega

/-- Window 1's block at any point is its whole array. -/
theorem iblk0_1_eq (c : Dev nD) (t : Fin cfg0.N) :
    (iblk0 V c 1 t : Vec F S1x316 .f32) = (V c main_v2 : Vec F S1x316 .f32) := by
  obtain ⟨e0, e1⟩ := idx0_1 t
  funext y
  unfold iblk0
  rw [View.read_apply]
  show V c main_v2 _ = V c main_v2 _
  congr 1
  funext a
  apply Fin.ext
  match a with
  | ⟨0, _⟩ => show win0_1.index t (0 : Fin 2) * 1 + 1 * (y 0).val = (y 0).val; omega
  | ⟨1, _⟩ => show win0_1.index t (1 : Fin 2) * 316 + 1 * (y 1).val = (y 1).val; omega

/-- Window 2's block at any point is its whole array. -/
theorem iblk0_2_eq (c : Dev nD) (t : Fin cfg0.N) :
    (iblk0 V c 2 t : Vec F S256x256 .f32) = (V c main_arg2 : Vec F S256x256 .f32) := by
  obtain ⟨e0, e1⟩ := idx0_2 t
  funext y
  unfold iblk0
  rw [View.read_apply]
  show V c main_arg2 _ = V c main_arg2 _
  congr 1
  funext a
  apply Fin.ext
  match a with
  | ⟨0, _⟩ => show win0_2.index t (0 : Fin 2) * 256 + 1 * (y 0).val = (y 0).val; omega
  | ⟨1, _⟩ => show win0_2.index t (1 : Fin 2) * 256 + 1 * (y 1).val = (y 1).val; omega

/-- Window 3's block at any point is its whole array. -/
theorem iblk0_3_eq (c : Dev nD) (t : Fin cfg0.N) :
    (iblk0 V c 3 t : Vec F S256x1 .f32) = (V c main_arg3 : Vec F S256x1 .f32) := by
  obtain ⟨e0, e1⟩ := idx0_3 t
  funext y
  unfold iblk0
  rw [View.read_apply]
  show V c main_arg3 _ = V c main_arg3 _
  congr 1
  funext a
  apply Fin.ext
  match a with
  | ⟨0, _⟩ => show win0_3.index t (0 : Fin 2) * 256 + 1 * (y 0).val = (y 0).val; omega
  | ⟨1, _⟩ => show win0_3.index t (1 : Fin 2) * 1 + 1 * (y 1).val = (y 1).val; omega

/-- Window 4's block at any point is its whole array. -/
theorem iblk0_4_eq (c : Dev nD) (t : Fin cfg0.N) :
    (iblk0 V c 4 t : Vec F S9x512x256 .f32) = (V c main_arg4 : Vec F S9x512x256 .f32) := by
  obtain ⟨e0, e1, e2⟩ := idx0_4 t
  funext y
  unfold iblk0
  rw [View.read_apply]
  show V c main_arg4 _ = V c main_arg4 _
  congr 1
  funext a
  apply Fin.ext
  match a with
  | ⟨0, _⟩ => show win0_4.index t (0 : Fin 3) * 9 + 1 * (y 0).val = (y 0).val; omega
  | ⟨1, _⟩ => show win0_4.index t (1 : Fin 3) * 512 + 1 * (y 1).val = (y 1).val; omega
  | ⟨2, _⟩ => show win0_4.index t (2 : Fin 3) * 256 + 1 * (y 2).val = (y 2).val; omega

/-- Window 5's block at any point is its whole array. -/
theorem iblk0_5_eq (c : Dev nD) (t : Fin cfg0.N) :
    (iblk0 V c 5 t : Vec F S512x1 .f32) = (V c main_arg5 : Vec F S512x1 .f32) := by
  obtain ⟨e0, e1⟩ := idx0_5 t
  funext y
  unfold iblk0
  rw [View.read_apply]
  show V c main_arg5 _ = V c main_arg5 _
  congr 1
  funext a
  apply Fin.ext
  match a with
  | ⟨0, _⟩ => show win0_5.index t (0 : Fin 2) * 512 + 1 * (y 0).val = (y 0).val; omega
  | ⟨1, _⟩ => show win0_5.index t (1 : Fin 2) * 1 + 1 * (y 1).val = (y 1).val; omega

/-- Window 6's block at any point is its whole array. -/
theorem iblk0_6_eq (c : Dev nD) (t : Fin cfg0.N) :
    (iblk0 V c 6 t : Vec F S256x512 .f32) = (V c main_arg6 : Vec F S256x512 .f32) := by
  obtain ⟨e0, e1⟩ := idx0_6 t
  funext y
  unfold iblk0
  rw [View.read_apply]
  show V c main_arg6 _ = V c main_arg6 _
  congr 1
  funext a
  apply Fin.ext
  match a with
  | ⟨0, _⟩ => show win0_6.index t (0 : Fin 2) * 256 + 1 * (y 0).val = (y 0).val; omega
  | ⟨1, _⟩ => show win0_6.index t (1 : Fin 2) * 512 + 1 * (y 1).val = (y 1).val; omega

/-- Window 7's block at any point is its whole array. -/
theorem iblk0_7_eq (c : Dev nD) (t : Fin cfg0.N) :
    (iblk0 V c 7 t : Vec F S256x1 .f32) = (V c main_arg7 : Vec F S256x1 .f32) := by
  obtain ⟨e0, e1⟩ := idx0_7 t
  funext y
  unfold iblk0
  rw [View.read_apply]
  show V c main_arg7 _ = V c main_arg7 _
  congr 1
  funext a
  apply Fin.ext
  match a with
  | ⟨0, _⟩ => show win0_7.index t (0 : Fin 2) * 256 + 1 * (y 0).val = (y 0).val; omega
  | ⟨1, _⟩ => show win0_7.index t (1 : Fin 2) * 1 + 1 * (y 1).val = (y 1).val; omega

/-- Window 8's block at any point is its whole array. -/
theorem iblk0_8_eq (c : Dev nD) (t : Fin cfg0.N) :
    (iblk0 V c 8 t : Vec F S9x512x256 .f32) = (V c main_arg8 : Vec F S9x512x256 .f32) := by
  obtain ⟨e0, e1, e2⟩ := idx0_8 t
  funext y
  unfold iblk0
  rw [View.read_apply]
  show V c main_arg8 _ = V c main_arg8 _
  congr 1
  funext a
  apply Fin.ext
  match a with
  | ⟨0, _⟩ => show win0_8.index t (0 : Fin 3) * 9 + 1 * (y 0).val = (y 0).val; omega
  | ⟨1, _⟩ => show win0_8.index t (1 : Fin 3) * 512 + 1 * (y 1).val = (y 1).val; omega
  | ⟨2, _⟩ => show win0_8.index t (2 : Fin 3) * 256 + 1 * (y 2).val = (y 2).val; omega

/-- Window 9's block at any point is its whole array. -/
theorem iblk0_9_eq (c : Dev nD) (t : Fin cfg0.N) :
    (iblk0 V c 9 t : Vec F S512x1 .f32) = (V c main_arg9 : Vec F S512x1 .f32) := by
  obtain ⟨e0, e1⟩ := idx0_9 t
  funext y
  unfold iblk0
  rw [View.read_apply]
  show V c main_arg9 _ = V c main_arg9 _
  congr 1
  funext a
  apply Fin.ext
  match a with
  | ⟨0, _⟩ => show win0_9.index t (0 : Fin 2) * 512 + 1 * (y 0).val = (y 0).val; omega
  | ⟨1, _⟩ => show win0_9.index t (1 : Fin 2) * 1 + 1 * (y 1).val = (y 1).val; omega

set_option maxHeartbeats 2000000 in
/-- What point t writes back through output window 10 is block t of the scales array of the region's entry contents. -/
theorem flushed0_10 (c : Dev nD) (t : Fin cfg0.N) :
    (dat0 V c).flushed 10 t = ((cfg0.win 10).blk t).view.read (Elt F)
      (gammaArr (V c main_v1 : Vec F S8x256x400 .f32) (V c main_v2 : Vec F S1x316 .f32) (V c main_arg2 : Vec F S256x256 .f32) (V c main_arg3 : Vec F S256x1 .f32) (V c main_arg4 : Vec F S9x512x256 .f32) (V c main_arg5 : Vec F S512x1 .f32) (V c main_arg6 : Vec F S256x512 .f32) (V c main_arg7 : Vec F S256x1 .f32) (V c main_arg8 : Vec F S9x512x256 .f32) (V c main_arg9 : Vec F S512x1 .f32)) := by
  obtain ⟨e0, e1, e2⟩ := idx0_10 t
  show (cfg0.win 10).cut (grid0.coords t) ((dat0 V c).after 10 t) = _
  rw [after0_10]
  funext j
  rw [View.read_apply]
  show (outsAt0 V c t).1 j = _
  refine (congrFun (show (outsAt0 V c t).1 = gammaBlock (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) from
    out_gamma c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) j).trans ?_
  refine Eq.trans ?_ (gammaArr_apply (V c main_v1 : Vec F S8x256x400 .f32) (V c main_v2 : Vec F S1x316 .f32) (V c main_arg2 : Vec F S256x256 .f32) (V c main_arg3 : Vec F S256x1 .f32) (V c main_arg4 : Vec F S9x512x256 .f32) (V c main_arg5 : Vec F S512x1 .f32) (V c main_arg6 : Vec F S256x512 .f32) (V c main_arg7 : Vec F S256x1 .f32) (V c main_arg8 : Vec F S9x512x256 .f32) (V c main_arg9 : Vec F S512x1 .f32)
    (((cfg0.win 10).blk t).view.emb j) (batch0 t) j ?_ ?_).symm
  · show gammaBlock (iblk0 V c 0 t : Vec F S1x256x400 .f32) (iblk0 V c 1 t : Vec F S1x316 .f32) (iblk0 V c 2 t : Vec F S256x256 .f32) (iblk0 V c 3 t : Vec F S256x1 .f32) (iblk0 V c 4 t : Vec F S9x512x256 .f32) (iblk0 V c 5 t : Vec F S512x1 .f32) (iblk0 V c 6 t : Vec F S256x512 .f32) (iblk0 V c 7 t : Vec F S256x1 .f32) (iblk0 V c 8 t : Vec F S9x512x256 .f32) (iblk0 V c 9 t : Vec F S512x1 .f32) j = _
    rw [iblk0_0_eq V c t, iblk0_1_eq V c t, iblk0_2_eq V c t, iblk0_3_eq V c t, iblk0_4_eq V c t, iblk0_5_eq V c t, iblk0_6_eq V c t, iblk0_7_eq V c t, iblk0_8_eq V c t, iblk0_9_eq V c t]
  · show win0_10.index t (0 : Fin 3) * 1 + 1 * (j 0).val = t.val; have h : (j 0).val < 1 := (j 0).isLt; omega
  · show win0_10.index t (1 : Fin 3) * 256 + 1 * (j 1).val = (j 1).val; omega

/-- An index of the scales array is in point t's block iff each coordinate is in the block's range. -/
theorem mem_blk0_10 (t : Fin cfg0.N) (i : S8x256x1.Idx) :
    i ∈ ((cfg0.win 10).blk t).view.set ↔ ∀ a : Fin 3, win0_10.index t a * S1x256x1.size a ≤ (i a).val ∧ (i a).val < win0_10.index t a * S1x256x1.size a + S1x256x1.size a := by
  show i ∈ ((View.whole main_v3_0).slice (win0_10.rect t)).set ↔ _
  rw [View.set_slice_whole, Rect.mem_set_unit]
  exact Iff.rfl

/-- After the region the scales array holds the scales of the region's entry contents, batch element by batch element. -/
theorem final0_10 (c : Dev nD) : (dat0 V c).arrAt 10 cfg0.N
    = gammaArr (V c main_v1 : Vec F S8x256x400 .f32) (V c main_v2 : Vec F S1x316 .f32) (V c main_arg2 : Vec F S256x256 .f32) (V c main_arg3 : Vec F S256x1 .f32) (V c main_arg4 : Vec F S9x512x256 .f32) (V c main_arg5 : Vec F S512x1 .f32) (V c main_arg6 : Vec F S256x512 .f32) (V c main_arg7 : Vec F S256x1 .f32) (V c main_arg8 : Vec F S9x512x256 .f32) (V c main_arg9 : Vec F S512x1 .f32) :=
  (dat0 V c).arrAt_eq_of_cover 10 _ (fun t _ => flushed0_10 V c t) fun i => by
    have hi0 : (i 0).val < 8 := (i 0).isLt
    have hi1 : (i 1).val < 256 := (i 1).isLt
    have hi2 : (i 2).val < 1 := (i 2).isLt
    have hN : (i 0).val < cfg0.N := by rw [show cfg0.N = 8 from N_0]; exact hi0
    obtain ⟨e0, e1, e2⟩ := idx0_10 ⟨(i 0).val, hN⟩
    refine ⟨⟨(i 0).val, hN⟩, flush0_10 _, ?_⟩
    rw [mem_blk0_10]
    intro a
    match a with
    | ⟨0, _⟩ => show win0_10.index ⟨(i 0).val, hN⟩ (0 : Fin 3) * 1 ≤ (i 0).val ∧ (i 0).val < win0_10.index ⟨(i 0).val, hN⟩ (0 : Fin 3) * 1 + 1; simp only at e0; omega
    | ⟨1, _⟩ => show win0_10.index ⟨(i 0).val, hN⟩ (1 : Fin 3) * 256 ≤ (i 1).val ∧ (i 1).val < win0_10.index ⟨(i 0).val, hN⟩ (1 : Fin 3) * 256 + 256; omega
    | ⟨2, _⟩ => show win0_10.index ⟨(i 0).val, hN⟩ (2 : Fin 3) * 1 ≤ (i 2).val ∧ (i 2).val < win0_10.index ⟨(i 0).val, hN⟩ (2 : Fin 3) * 1 + 1; omega

set_option maxHeartbeats 2000000 in
/-- What point t writes back through output window 11 is block t of the shifts array of the region's entry contents. -/
theorem flushed0_11 (c : Dev nD) (t : Fin cfg0.N) :
    (dat0 V c).flushed 11 t = ((cfg0.win 11).blk t).view.read (Elt F)
      (betaArr (V c main_v1 : Vec F S8x256x400 .f32) (V c main_v2 : Vec F S1x316 .f32) (V c main_arg2 : Vec F S256x256 .f32) (V c main_arg3 : Vec F S256x1 .f32) (V c main_arg4 : Vec F S9x512x256 .f32) (V c main_arg5 : Vec F S512x1 .f32) (V c main_arg6 : Vec F S256x512 .f32) (V c main_arg7 : Vec F S256x1 .f32) (V c main_arg8 : Vec F S9x512x256 .f32) (V c main_arg9 : Vec F S512x1 .f32)) := by
  obtain ⟨e0, e1, e2⟩ := idx0_11 t
  show (cfg0.win 11).cut (grid0.coords t) ((dat0 V c).after 11 t) = _
  rw [after0_11]
  funext j
  rw [View.read_apply]
  show (outsAt0 V c t).2 j = _
  refine (congrFun (show (outsAt0 V c t).2 = betaBlock (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) from
    out_beta c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) j).trans ?_
  refine Eq.trans ?_ (betaArr_apply (V c main_v1 : Vec F S8x256x400 .f32) (V c main_v2 : Vec F S1x316 .f32) (V c main_arg2 : Vec F S256x256 .f32) (V c main_arg3 : Vec F S256x1 .f32) (V c main_arg4 : Vec F S9x512x256 .f32) (V c main_arg5 : Vec F S512x1 .f32) (V c main_arg6 : Vec F S256x512 .f32) (V c main_arg7 : Vec F S256x1 .f32) (V c main_arg8 : Vec F S9x512x256 .f32) (V c main_arg9 : Vec F S512x1 .f32)
    (((cfg0.win 11).blk t).view.emb j) (batch0 t) j ?_ ?_).symm
  · show betaBlock (iblk0 V c 0 t : Vec F S1x256x400 .f32) (iblk0 V c 1 t : Vec F S1x316 .f32) (iblk0 V c 2 t : Vec F S256x256 .f32) (iblk0 V c 3 t : Vec F S256x1 .f32) (iblk0 V c 4 t : Vec F S9x512x256 .f32) (iblk0 V c 5 t : Vec F S512x1 .f32) (iblk0 V c 6 t : Vec F S256x512 .f32) (iblk0 V c 7 t : Vec F S256x1 .f32) (iblk0 V c 8 t : Vec F S9x512x256 .f32) (iblk0 V c 9 t : Vec F S512x1 .f32) j = _
    rw [iblk0_0_eq V c t, iblk0_1_eq V c t, iblk0_2_eq V c t, iblk0_3_eq V c t, iblk0_4_eq V c t, iblk0_5_eq V c t, iblk0_6_eq V c t, iblk0_7_eq V c t, iblk0_8_eq V c t, iblk0_9_eq V c t]
  · show win0_11.index t (0 : Fin 3) * 1 + 1 * (j 0).val = t.val; have h : (j 0).val < 1 := (j 0).isLt; omega
  · show win0_11.index t (1 : Fin 3) * 256 + 1 * (j 1).val = (j 1).val; omega

/-- An index of the shifts array is in point t's block iff each coordinate is in the block's range. -/
theorem mem_blk0_11 (t : Fin cfg0.N) (i : S8x256x1.Idx) :
    i ∈ ((cfg0.win 11).blk t).view.set ↔ ∀ a : Fin 3, win0_11.index t a * S1x256x1.size a ≤ (i a).val ∧ (i a).val < win0_11.index t a * S1x256x1.size a + S1x256x1.size a := by
  show i ∈ ((View.whole main_v3_1).slice (win0_11.rect t)).set ↔ _
  rw [View.set_slice_whole, Rect.mem_set_unit]
  exact Iff.rfl

/-- After the region the shifts array holds the shifts of the region's entry contents, batch element by batch element. -/
theorem final0_11 (c : Dev nD) : (dat0 V c).arrAt 11 cfg0.N
    = betaArr (V c main_v1 : Vec F S8x256x400 .f32) (V c main_v2 : Vec F S1x316 .f32) (V c main_arg2 : Vec F S256x256 .f32) (V c main_arg3 : Vec F S256x1 .f32) (V c main_arg4 : Vec F S9x512x256 .f32) (V c main_arg5 : Vec F S512x1 .f32) (V c main_arg6 : Vec F S256x512 .f32) (V c main_arg7 : Vec F S256x1 .f32) (V c main_arg8 : Vec F S9x512x256 .f32) (V c main_arg9 : Vec F S512x1 .f32) :=
  (dat0 V c).arrAt_eq_of_cover 11 _ (fun t _ => flushed0_11 V c t) fun i => by
    have hi0 : (i 0).val < 8 := (i 0).isLt
    have hi1 : (i 1).val < 256 := (i 1).isLt
    have hi2 : (i 2).val < 1 := (i 2).isLt
    have hN : (i 0).val < cfg0.N := by rw [show cfg0.N = 8 from N_0]; exact hi0
    obtain ⟨e0, e1, e2⟩ := idx0_11 ⟨(i 0).val, hN⟩
    refine ⟨⟨(i 0).val, hN⟩, flush0_11 _, ?_⟩
    rw [mem_blk0_11]
    intro a
    match a with
    | ⟨0, _⟩ => show win0_11.index ⟨(i 0).val, hN⟩ (0 : Fin 3) * 1 ≤ (i 0).val ∧ (i 0).val < win0_11.index ⟨(i 0).val, hN⟩ (0 : Fin 3) * 1 + 1; simp only at e0; omega
    | ⟨1, _⟩ => show win0_11.index ⟨(i 0).val, hN⟩ (1 : Fin 3) * 256 ≤ (i 1).val ∧ (i 1).val < win0_11.index ⟨(i 0).val, hN⟩ (1 : Fin 3) * 256 + 256; omega
    | ⟨2, _⟩ => show win0_11.index ⟨(i 0).val, hN⟩ (2 : Fin 3) * 1 ≤ (i 2).val ∧ (i 2).val < win0_11.index ⟨(i 0).val, hN⟩ (2 : Fin 3) * 1 + 1; omega

end Cert.ReferenceIdeal.Hand

end
-- ==== Proof.RefRegion1.lean ====
/-
  The normalising kernel's region as one array function: each of its eight grid points reads batch
  element t of the flat features and of the two [8, 256, 1] gate arrays, and writes back batch element t of
  the flat result; the eight blocks tile the result array.
-/
import proofs.«152265_g2000701298156354_pallasbulk_673_17_alg».proof.Proof.Gen.ReferenceIdeal.Frame
import proofs.«152265_g2000701298156354_pallasbulk_673_17_alg».proof.Proof.RefSpec
import proofs.«152265_g2000701298156354_pallasbulk_673_17_alg».proof.Proof.RefPieces
import Idealize.ShloMosaic.Lib.Pipeline.Value

set_option maxRecDepth 16384

noncomputable section

namespace Cert.ReferenceIdeal.Hand

open Idealize.ShloMosaic Idealize.ShloMosaic.TcCoe Idealize.ShloMosaic.ValueIdx
open Idealize.SL Idealize.SL.Sem
open Idealize.ShloMosaic.Pipeline (Dat)
open Cert.ReferenceIdeal Cert.ReferenceIdeal.Gen

variable {F : FTy → Type} [FloatOps F]
variable (V : (c : Dev nD) → (b : Ref sig .tc) → Buf (Elt F) ((c : Thread nD τ).loc b))

/-- The printed index maps of the second region, decided over its eight points: every window's block index is
    the point's number on the batch axis and zero on the others. -/
theorem idx1 : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0) :=
  (by decide +kernel : ∀ t : Fin grid1.N, _)

/-- The point as a batch index. -/
def batch1 (t : Fin cfg1.N) : Fin 8 := ⟨t.val, by have h := t.isLt; have e : cfg1.N = 8 := N_1; omega⟩

/-- The features window's block at point t is batch element t of the flat features. -/
theorem iblk1_0_eq (c : Dev nD) (t : Fin cfg1.N) :
    (iblk1 V c 0 t : Vec F S1x256x4096 .f32) = xBlock (V c main_v4 : Vec F S8x256x4096 .f32) (batch1 t) := by
  obtain ⟨⟨e0, e1, e2⟩, -⟩ := idx1 t
  funext y
  unfold iblk1
  rw [View.read_apply]
  show V c main_v4 _ = V c main_v4 _
  congr 1
  funext a
  apply Fin.ext
  match a with
  | ⟨0, _⟩ => show win1_0.index t (0 : Fin 3) * 1 + 1 * (y 0).val = t.val; have h : (y 0).val < 1 := (y 0).isLt; omega
  | ⟨1, _⟩ => show win1_0.index t (1 : Fin 3) * 256 + 1 * (y 1).val = (y 1).val; omega
  | ⟨2, _⟩ => show win1_0.index t (2 : Fin 3) * 4096 + 1 * (y 2).val = (y 2).val; omega

/-- The scales window's block at point t is batch element t of the scales array. -/
theorem iblk1_1_eq (c : Dev nD) (t : Fin cfg1.N) :
    (iblk1 V c 1 t : Vec F S1x256x1 .f32) = colBlock (V c main_v3_0 : Vec F S8x256x1 .f32) (batch1 t) := by
  obtain ⟨-, ⟨e0, e1, e2⟩, -⟩ := idx1 t
  funext y
  unfold iblk1
  rw [View.read_apply]
  show V c main_v3_0 _ = V c main_v3_0 _
  congr 1
  funext a
  apply Fin.ext
  match a with
  | ⟨0, _⟩ => show win1_1.index t (0 : Fin 3) * 1 + 1 * (y 0).val = t.val; have h : (y 0).val < 1 := (y 0).isLt; omega
  | ⟨1, _⟩ => show win1_1.index t (1 : Fin 3) * 256 + 1 * (y 1).val = (y 1).val; omega
  | ⟨2, _⟩ => show win1_1.index t (2 : Fin 3) * 1 + 1 * (y 2).val = (y 2).val; omega

/-- The shifts window's block at point t is batch element t of the shifts array. -/
theorem iblk1_2_eq (c : Dev nD) (t : Fin cfg1.N) :
    (iblk1 V c 2 t : Vec F S1x256x1 .f32) = colBlock (V c main_v3_1 : Vec F S8x256x1 .f32) (batch1 t) := by
  obtain ⟨-, -, ⟨e0, e1, e2⟩, -⟩ := idx1 t
  funext y
  unfold iblk1
  rw [View.read_apply]
  show V c main_v3_1 _ = V c main_v3_1 _
  congr 1
  funext a
  apply Fin.ext
  match a with
  | ⟨0, _⟩ => show win1_2.index t (0 : Fin 3) * 1 + 1 * (y 0).val = t.val; have h : (y 0).val < 1 := (y 0).isLt; omega
  | ⟨1, _⟩ => show win1_2.index t (1 : Fin 3) * 256 + 1 * (y 1).val = (y 1).val; omega
  | ⟨2, _⟩ => show win1_2.index t (2 : Fin 3) * 1 + 1 * (y 2).val = (y 2).val; omega

/-- What point t writes back is block t of the normalised array of the region's entry contents. -/
theorem flushed1 (c : Dev nD) (t : Fin cfg1.N) :
    (dat1 V c).flushed 3 t = ((cfg1.win 3).blk t).view.read (Elt F)
      (normArr (V c main_v4 : Vec F S8x256x4096 .f32) (V c main_v3_0 : Vec F S8x256x1 .f32) (V c main_v3_1 : Vec F S8x256x1 .f32)) := by
  obtain ⟨-, -, -, ⟨e0, e1, e2⟩⟩ := idx1 t
  show (cfg1.win 3).cut (grid1.coords t) ((dat1 V c).after 3 t) = _
  rw [after1_3]
  funext j
  rw [View.read_apply]
  show out1_3 (iblk1 V c 0 t) (iblk1 V c 1 t) (iblk1 V c 2 t) j = _
  refine (congrFun (out_norm (iblk1 V c 0 t) (iblk1 V c 1 t) (iblk1 V c 2 t)) j).trans ?_
  refine Eq.trans ?_ (normArr_apply (V c main_v4 : Vec F S8x256x4096 .f32) (V c main_v3_0 : Vec F S8x256x1 .f32) (V c main_v3_1 : Vec F S8x256x1 .f32)
    (((cfg1.win 3).blk t).view.emb j) (batch1 t) j ?_ ?_ ?_).symm
  · show normBlock (iblk1 V c 0 t : Vec F S1x256x4096 .f32) (iblk1 V c 1 t : Vec F S1x256x1 .f32) (iblk1 V c 2 t : Vec F S1x256x1 .f32) j = _
    rw [iblk1_0_eq V c t, iblk1_1_eq V c t, iblk1_2_eq V c t]
  · show win1_3.index t (0 : Fin 3) * 1 + 1 * (j 0).val = t.val; have h : (j 0).val < 1 := (j 0).isLt; omega
  · show win1_3.index t (1 : Fin 3) * 256 + 1 * (j 1).val = (j 1).val; omega
  · show win1_3.index t (2 : Fin 3) * 4096 + 1 * (j 2).val = (j 2).val; omega

/-- An index of the flat result is in point t's block iff each coordinate is in the block's range. -/
theorem mem_blk1 (t : Fin cfg1.N) (i : S8x256x4096.Idx) :
    i ∈ ((cfg1.win 3).blk t).view.set ↔ ∀ a : Fin 3, win1_3.index t a * S1x256x4096.size a ≤ (i a).val ∧ (i a).val < win1_3.index t a * S1x256x4096.size a + S1x256x4096.size a := by
  show i ∈ ((View.whole main_v5).slice (win1_3.rect t)).set ↔ _
  rw [View.set_slice_whole, Rect.mem_set_unit]
  exact Iff.rfl

/-- After the region the flat result array holds the normalised array of the region's entry contents. -/
theorem final1 (c : Dev nD) : (dat1 V c).arrAt 3 cfg1.N
    = normArr (V c main_v4 : Vec F S8x256x4096 .f32) (V c main_v3_0 : Vec F S8x256x1 .f32) (V c main_v3_1 : Vec F S8x256x1 .f32) :=
  (dat1 V c).arrAt_eq_of_cover 3 _ (fun t _ => flushed1 V c t) fun i => by
    have hi0 : (i 0).val < 8 := (i 0).isLt
    have hi1 : (i 1).val < 256 := (i 1).isLt
    have hi2 : (i 2).val < 4096 := (i 2).isLt
    have hN : (i 0).val < cfg1.N := by rw [show cfg1.N = 8 from N_1]; exact hi0
    obtain ⟨-, -, -, ⟨e0, e1, e2⟩⟩ := idx1 ⟨(i 0).val, hN⟩
    refine ⟨⟨(i 0).val, hN⟩, flush1_3 _, ?_⟩
    rw [mem_blk1]
    intro a
    match a with
    | ⟨0, _⟩ => show win1_3.index ⟨(i 0).val, hN⟩ (0 : Fin 3) * 1 ≤ (i 0).val ∧ (i 0).val < win1_3.index ⟨(i 0).val, hN⟩ (0 : Fin 3) * 1 + 1; simp only at e0; omega
    | ⟨1, _⟩ => show win1_3.index ⟨(i 0).val, hN⟩ (1 : Fin 3) * 256 ≤ (i 1).val ∧ (i 1).val < win1_3.index ⟨(i 0).val, hN⟩ (1 : Fin 3) * 256 + 256; omega
    | ⟨2, _⟩ => show win1_3.index ⟨(i 0).val, hN⟩ (2 : Fin 3) * 4096 ≤ (i 2).val ∧ (i 2).val < win1_3.index ⟨(i 0).val, hN⟩ (2 : Fin 3) * 4096 + 4096; omega

end Cert.ReferenceIdeal.Hand

end
-- ==== Proof.RefRun.lean ====
/-
  The reference's run with its result named. The buffer contents at the boundaries of @main's segments are
  folded from the launch memory: the host pads and flattens the style input and reshapes the mask table,
  the gate kernel's region leaves the scales and shifts, the host flattens the content features, the
  normalising kernel's region leaves the flat result, and the host reshapes it. Read back through that
  fold, the result buffer ends at `resultOf` of the ten argument arrays, which themselves end unchanged.
-/
import proofs.«152265_g2000701298156354_pallasbulk_673_17_alg».proof.Proof.Gen.ReferenceIdeal.Frame
import proofs.«152265_g2000701298156354_pallasbulk_673_17_alg».proof.Proof.RefSpec
import proofs.«152265_g2000701298156354_pallasbulk_673_17_alg».proof.Proof.RefRegion0
import proofs.«152265_g2000701298156354_pallasbulk_673_17_alg».proof.Proof.RefRegion1
import Idealize.ShloMosaic.Lib.Pipeline.Value
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first region's entry contents: what the three host stretches before it leave -/

/-- The style window's array is the padded, flattened style argument. -/
theorem V3_v1 (c : Dev nD) : (V3 m ρ c main_v1 : Vec F S8x256x400 .f32) = zpadded (m ((c : Thread nD τ).loc main_arg1) : Vec F S8x256x16x16 .f32) := by
  show StableHlo.after hostOps0_2 (StableHlo.after hostOps0_1 (StableHlo.after hostOps0 (W0 m ρ c))) (Proc.devRef .tc main_v1) = _
  after_results
  simp only [StableHlo.TRef.toBuf, StableHlo.TRef.ofBuf, cast_cast, cast_eq]
  rfl

/-- The mask window's array is the literal table as a row. -/
theorem V3_v2 (c : Dev nD) : (V3 m ρ c main_v2 : Vec F S1x316 .f32) = maskArr := by
  show StableHlo.after hostOps0_2 (StableHlo.after hostOps0_1 (StableHlo.after hostOps0 (W0 m ρ c))) (Proc.devRef .tc main_v2) = _
  after_results
  rfl

/-! The weight windows' arrays are the weight arguments, which no host operation writes. -/
theorem V3_arg2 (c : Dev nD) : (V3 m ρ c main_arg2 : Vec F S256x256 .f32) = (m ((c : Thread nD τ).loc main_arg2) : Vec F S256x256 .f32) := by
  show StableHlo.after hostOps0_2 (StableHlo.after hostOps0_1 (StableHlo.after hostOps0 (W0 m ρ c))) (Proc.devRef .tc main_arg2) = _
  after_results
theorem V3_arg3 (c : Dev nD) : (V3 m ρ c main_arg3 : Vec F S256x1 .f32) = (m ((c : Thread nD τ).loc main_arg3) : Vec F S256x1 .f32) := by
  show StableHlo.after hostOps0_2 (StableHlo.after hostOps0_1 (StableHlo.after hostOps0 (W0 m ρ c))) (Proc.devRef .tc main_arg3) = _
  after_results
theorem V3_arg4 (c : Dev nD) : (V3 m ρ c main_arg4 : Vec F S9x512x256 .f32) = (m ((c : Thread nD τ).loc main_arg4) : Vec F S9x512x256 .f32) := by
  show StableHlo.after hostOps0_2 (StableHlo.after hostOps0_1 (StableHlo.after hostOps0 (W0 m ρ c))) (Proc.devRef .tc main_arg4) = _
  after_results
theorem V3_arg5 (c : Dev nD) : (V3 m ρ c main_arg5 : Vec F S512x1 .f32) = (m ((c : Thread nD τ).loc main_arg5) : Vec F S512x1 .f32) := by
  show StableHlo.after hostOps0_2 (StableHlo.after hostOps0_1 (StableHlo.after hostOps0 (W0 m ρ c))) (Proc.devRef .tc main_arg5) = _
  after_results
theorem V3_arg6 (c : Dev nD) : (V3 m ρ c main_arg6 : Vec F S256x512 .f32) = (m ((c : Thread nD τ).loc main_arg6) : Vec F S256x512 .f32) := by
  show StableHlo.after hostOps0_2 (StableHlo.after hostOps0_1 (StableHlo.after hostOps0 (W0 m ρ c))) (Proc.devRef .tc main_arg6) = _
  after_results
theorem V3_arg7 (c : Dev nD) : (V3 m ρ c main_arg7 : Vec F S256x1 .f32) = (m ((c : Thread nD τ).loc main_arg7) : Vec F S256x1 .f32) := by
  show StableHlo.after hostOps0_2 (StableHlo.after hostOps0_1 (StableHlo.after hostOps0 (W0 m ρ c))) (Proc.devRef .tc main_arg7) = _
  after_results
theorem V3_arg8 (c : Dev nD) : (V3 m ρ c main_arg8 : Vec F S9x512x256 .f32) = (m ((c : Thread nD τ).loc main_arg8) : Vec F S9x512x256 .f32) := by
  show StableHlo.after hostOps0_2 (StableHlo.after hostOps0_1 (StableHlo.after hostOps0 (W0 m ρ c))) (Proc.devRef .tc main_arg8) = _
  after_results
theorem V3_arg9 (c : Dev nD) : (V3 m ρ c main_arg9 : Vec F S512x1 .f32) = (m ((c : Thread nD τ).loc main_arg9) : Vec F S512x1 .f32) := by
  show StableHlo.after hostOps0_2 (StableHlo.after hostOps0_1 (StableHlo.after hostOps0 (W0 m ρ c))) (Proc.devRef .tc main_arg9) = _
  after_results

theorem W3_arg0 (c : Dev nD) : (W3 m ρ c (Proc.devRef .tc main_arg0) : Vec F S8x256x64x64 .f32) = (m ((c : Thread nD τ).loc main_arg0) : Vec F S8x256x64x64 .f32) := by
  show StableHlo.after hostOps0_2 (StableHlo.after hostOps0_1 (StableHlo.after hostOps0 (W0 m ρ c))) (Proc.devRef .tc main_arg0) = _
  after_results

/-! ## The second region's entry contents -/

/-- The features window's array is the flattened content argument. -/
theorem V5_v4 (c : Dev nD) : (V5 m ρ c main_v4 : Vec F S8x256x4096 .f32) = xflat (m ((c : Thread nD τ).loc main_arg0) : Vec F S8x256x64x64 .f32) := by
  have e : W4 m ρ c (Proc.devRef .tc main_arg0) = m ((c : Thread nD τ).loc main_arg0) :=
    (W4_of_ne m ρ c main_arg0 (by decide)).trans (W3_arg0 m ρ c)
  show StableHlo.after hostOps1 (W4 m ρ c) (Proc.devRef .tc main_v4) = _
  after_results
  rw [e]
  rfl

/-- The scales window's array is what the first region left: the scales of the arguments. -/
theorem V5_gamma (c : Dev nD) : (V5 m ρ c main_v3_0 : Vec F S8x256x1 .f32)
    = gammaArr (zpadded (m ((c : Thread nD τ).loc main_arg1) : Vec F S8x256x16x16 .f32)) maskArr (m ((c : Thread nD τ).loc main_arg2) : Vec F S256x256 .f32) (m ((c : Thread nD τ).loc main_arg3) : Vec F S256x1 .f32) (m ((c : Thread nD τ).loc main_arg4) : Vec F S9x512x256 .f32) (m ((c : Thread nD τ).loc main_arg5) : Vec F S512x1 .f32) (m ((c : Thread nD τ).loc main_arg6) : Vec F S256x512 .f32) (m ((c : Thread nD τ).loc main_arg7) : Vec F S256x1 .f32) (m ((c : Thread nD τ).loc main_arg8) : Vec F S9x512x256 .f32) (m ((c : Thread nD τ).loc main_arg9) : Vec F S512x1 .f32) := by
  show StableHlo.after hostOps1 (W4 m ρ c) (Proc.devRef .tc main_v3_0) = _
  after_results
  refine (W4_arr m ρ c 10).trans ?_
  refine (final0_10 (V3 m ρ) c).trans ?_
  rw [V3_v1 m ρ c, V3_v2 m ρ c, V3_arg2 m ρ c, V3_arg3 m ρ c, V3_arg4 m ρ c, V3_arg5 m ρ c, V3_arg6 m ρ c, V3_arg7 m ρ c, V3_arg8 m ρ c, V3_arg9 m ρ c]

/-- The shifts window's array is what the first region left: the shifts of the arguments. -/
theorem V5_beta (c : Dev nD) : (V5 m ρ c main_v3_1 : Vec F S8x256x1 .f32)
    = betaArr (zpadded (m ((c : Thread nD τ).loc main_arg1) : Vec F S8x256x16x16 .f32)) maskArr (m ((c : Thread nD τ).loc main_arg2) : Vec F S256x256 .f32) (m ((c : Thread nD τ).loc main_arg3) : Vec F S256x1 .f32) (m ((c : Thread nD τ).loc main_arg4) : Vec F S9x512x256 .f32) (m ((c : Thread nD τ).loc main_arg5) : Vec F S512x1 .f32) (m ((c : Thread nD τ).loc main_arg6) : Vec F S256x512 .f32) (m ((c : Thread nD τ).loc main_arg7) : Vec F S256x1 .f32) (m ((c : Thread nD τ).loc main_arg8) : Vec F S9x512x256 .f32) (m ((c : Thread nD τ).loc main_arg9) : Vec F S512x1 .f32) := by
  show StableHlo.after hostOps1 (W4 m ρ c) (Proc.devRef .tc main_v3_1) = _
  after_results
  refine (W4_arr m ρ c 11).trans ?_
  refine (final0_11 (V3 m ρ) c).trans ?_
  rw [V3_v1 m ρ c, V3_v2 m ρ c, V3_arg2 m ρ c, V3_arg3 m ρ c, V3_arg4 m ρ c, V3_arg5 m ρ c, V3_arg6 m ρ c, V3_arg7 m ρ c, V3_arg8 m ρ c, V3_arg9 m ρ c]

/-! ## The result buffer at the return -/

/-- The flat result array after the second region. -/
theorem W6_v5 (c : Dev nD) : (W6 m ρ c (Proc.devRef .tc main_v5) : Vec F S8x256x4096 .f32)
    = flatOf (m ((c : Thread nD τ).loc main_arg0) : Vec F S8x256x64x64 .f32) (m ((c : Thread nD τ).loc main_arg1) : Vec F S8x256x16x16 .f32) (m ((c : Thread nD τ).loc main_arg2) : Vec F S256x256 .f32) (m ((c : Thread nD τ).loc main_arg3) : Vec F S256x1 .f32) (m ((c : Thread nD τ).loc main_arg4) : Vec F S9x512x256 .f32) (m ((c : Thread nD τ).loc main_arg5) : Vec F S512x1 .f32) (m ((c : Thread nD τ).loc main_arg6) : Vec F S256x512 .f32) (m ((c : Thread nD τ).loc main_arg7) : Vec F S256x1 .f32) (m ((c : Thread nD τ).loc main_arg8) : Vec F S9x512x256 .f32) (m ((c : Thread nD τ).loc main_arg9) : Vec F S512x1 .f32) := by
  refine (W6_arr m ρ c 3).trans ?_
  refine (final1 (V5 m ρ) c).trans ?_
  rw [V5_v4 m ρ c, V5_gamma m ρ c, V5_beta m ρ c]
  exact normArr_gate _ _ _ _ _ _ _ _ _ _

/-- The result buffer after the last host operation. -/
theorem W7_v6 (c : Dev nD) : (W7 m ρ c (Proc.devRef .tc main_v6) : Vec F S8x256x64x64 .f32)
    = resultOf (m ((c : Thread nD τ).loc main_arg0) : Vec F S8x256x64x64 .f32) (m ((c : Thread nD τ).loc main_arg1) : Vec F S8x256x16x16 .f32) (m ((c : Thread nD τ).loc main_arg2) : Vec F S256x256 .f32) (m ((c : Thread nD τ).loc main_arg3) : Vec F S256x1 .f32) (m ((c : Thread nD τ).loc main_arg4) : Vec F S9x512x256 .f32) (m ((c : Thread nD τ).loc main_arg5) : Vec F S512x1 .f32) (m ((c : Thread nD τ).loc main_arg6) : Vec F S256x512 .f32) (m ((c : Thread nD τ).loc main_arg7) : Vec F S256x1 .f32) (m ((c : Thread nD τ).loc main_arg8) : Vec F S9x512x256 .f32) (m ((c : Thread nD τ).loc main_arg9) : Vec F S512x1 .f32) := by
  show StableHlo.after hostOps2 (W6 m ρ c) (Proc.devRef .tc main_v6) = _
  after_results
  rw [W6_v5 m ρ c]
  rfl

/-! ## The run -/

set_option backward.isDefEq.respectTransparency.types false in
/-- Every weakly fair execution of the reference from `m` terminates, nothing faulting, with the result buffer at
    `resultOf` of the ten argument arrays and those arrays as launched. -/
theorem run_value : θ_run defs (onTc (τ := τ) (main (F := F))) ⟨m, fun _ => 0, ρ⟩ (fun r => ∀ c : Dev nD,
      r.2.mem ((c.tc : Thread nD τ).loc main_v6) = resultOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨(h c _ (mem_uc main_v6 (by decide))).trans (W7_v6 m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.ReferenceIdeal.Hand

end
-- ==== Proof.Assemble.lean ====
/-
  The five conjuncts of the claim.

  The idealized programs' frames are their generated frame runs (the word-level program's is cited where the claim is assembled). The ideal pass rewrote nothing, so `preserves` is trivial.
  For the algebraic conjunct both programs' runs are read with their results named: the fused program ends
  with its flat result reshaped to planes, the reference with its own; under the precondition every content
  feature is a real, and then the two flat results are one function of the ten argument arrays, batch
  element by batch element: the same gate network (the bf16 narrowing is the identity on the extended reals,
  the two masks are the same 0/1 function of the lane) and the same normalisation (the one-pass and the
  two-pass variance of real data agree).
-/
import proofs.«152265_g2000701298156354_pallasbulk_673_17_alg».proof.Defs
import proofs.«152265_g2000701298156354_pallasbulk_673_17_alg».proof.Proof.Gen.KernelIdeal.Frame
import proofs.«152265_g2000701298156354_pallasbulk_673_17_alg».proof.Proof.Gen.ReferenceIdeal.Frame
import proofs.«152265_g2000701298156354_pallasbulk_673_17_alg».proof.Proof.Gen.Pre_finite_inputs
import proofs.«152265_g2000701298156354_pallasbulk_673_17_alg».proof.Proof.KernelRun
import proofs.«152265_g2000701298156354_pallasbulk_673_17_alg».proof.Proof.RefRun

set_option maxRecDepth 16384

noncomputable section

namespace Cert.Assemble

open Idealize.ShloMosaic Idealize.SL.Sem

theorem frame_ki : Cert.frame_KernelIdeal := fun m ρ _ => Cert.KernelIdeal.Gen.frame m ρ

theorem frame_ri : Cert.frame_ReferenceIdeal := fun m ρ _ => Cert.ReferenceIdeal.Gen.frame m ρ

theorem preserves : Cert.preserves_Kernel_KernelIdeal := trivial

/-- From memories that agree on the ten arguments, the two idealized programs end with the same result array. -/
theorem algebraic : Cert.algebraic_KernelIdeal_ReferenceIdeal := by
  intro m ρ m' ρ' hpre hagree
  refine ⟨fun c => shapeCast Cert.KernelIdeal.S8x256x64x64 (Cert.KernelIdeal.Hand.flatK (F := Ideal) m c)
    Cert.KernelIdeal.Gen.shapeCasts_S8x256x4096_S8x256x64x64, Cert.KernelIdeal.Hand.run_value m ρ, ?_⟩
  refine (θ_run Cert.ReferenceIdeal.defs _ _).mono (fun _ h c => ⟨(h c).1.trans ?_, (h c).2⟩)
    (Cert.ReferenceIdeal.Hand.run_value (F := Ideal) m' ρ')
  obtain ⟨h0, h1, h2, h3, h4, h5, h6, h7, h8, h9⟩ := hagree c
  rw [h0, h1, h2, h3, h4, h5, h6, h7, h8, h9]
  exact congrArg (fun f => shapeCast Cert.KernelIdeal.S8x256x64x64 f Cert.KernelIdeal.Gen.shapeCasts_S8x256x4096_S8x256x64x64)
    (Cert.KernelIdeal.Hand.flat_eq m hpre c).symm

end Cert.Assemble

end
-- ==== Proof.lean ====
/-
  A fused adaptive instance normalisation against its two-kernel reference: the claim.

  The fused kernel computes, per batch element, a gate network on the reflect-padded style input (two
  squeeze-and-expand stages, a masked global mean, the scales 3 / (1 + exp (−mean)) and the shifts) and
  normalises each row of the content features with the one-pass variance; the reference does the same in two
  kernels with f32 weights, a mask read from a table and the two-pass variance. On the extended reals a change
  of float format is the identity and the two masks are the same 0/1 function of the lane, so the gate
  networks are one term; the two variances agree because, under the precondition, every content feature is a
  real number. The frames are the generated frame runs, and the ideal pass rewrote nothing.
-/
import proofs.«152265_g2000701298156354_pallasbulk_673_17_alg».proof.Defs
import proofs.«152265_g2000701298156354_pallasbulk_673_17_alg».proof.Proof.Gen.Kernel
import proofs.«152265_g2000701298156354_pallasbulk_673_17_alg».proof.Proof.Gen.Kernel.Skeleton
import proofs.«152265_g2000701298156354_pallasbulk_673_17_alg».proof.Proof.Gen.Kernel.Launch
import proofs.«152265_g2000701298156354_pallasbulk_673_17_alg».proof.Proof.Gen.Kernel.Points
import proofs.«152265_g2000701298156354_pallasbulk_673_17_alg».proof.Proof.Gen.Kernel.Frame
import proofs.«152265_g2000701298156354_pallasbulk_673_17_alg».proof.Proof.Gen.KernelIdeal
import proofs.«152265_g2000701298156354_pallasbulk_673_17_alg».proof.Proof.Gen.KernelIdeal.Skeleton
import proofs.«152265_g2000701298156354_pallasbulk_673_17_alg».proof.Proof.Gen.KernelIdeal.Launch
import proofs.«152265_g2000701298156354_pallasbulk_673_17_alg».proof.Proof.Gen.KernelIdeal.Points
import proofs.«152265_g2000701298156354_pallasbulk_673_17_alg».proof.Proof.Gen.KernelIdeal.Frame
import proofs.«152265_g2000701298156354_pallasbulk_673_17_alg».proof.Proof.Gen.ReferenceIdeal
import proofs.«152265_g2000701298156354_pallasbulk_673_17_alg».proof.Proof.Gen.ReferenceIdeal.Skeleton
import proofs.«152265_g2000701298156354_pallasbulk_673_17_alg».proof.Proof.Gen.ReferenceIdeal.Launch
import proofs.«152265_g2000701298156354_pallasbulk_673_17_alg».proof.Proof.Gen.ReferenceIdeal.Points
import proofs.«152265_g2000701298156354_pallasbulk_673_17_alg».proof.Proof.Gen.ReferenceIdeal.Frame
import proofs.«152265_g2000701298156354_pallasbulk_673_17_alg».proof.Proof.Gen.Pre_finite_inputs
import Idealize.ShloMosaic.Adequacy
import Idealize.ShloMosaic.Init
import proofs.«152265_g2000701298156354_pallasbulk_673_17_alg».proof.Proof.Assemble

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, Cert.Assemble.frame_ki, Cert.Assemble.frame_ri, Cert.Assemble.preserves,
    Cert.Assemble.algebraic⟩

end Cert.Proof

end
